-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x2048 : Shape := ⟨3, ![1, 1, 2048]⟩
abbrev S1x16384x2048 : Shape := ⟨3, ![1, 16384, 2048]⟩
abbrev S1x16384 : Shape := ⟨2, ![1, 16384]⟩
abbrev S2048x2048 : Shape := ⟨2, ![2048, 2048]⟩
abbrev S2048 : Shape := ⟨1, ![2048]⟩
abbrev S250x6144 : Shape := ⟨2, ![250, 6144]⟩
abbrev S250 : Shape := ⟨1, ![250]⟩
abbrev S1x250 : Shape := ⟨2, ![1, 250]⟩
abbrev S1 : Shape := ⟨1, ![1]⟩
abbrev S_ : Shape := ⟨0, ![]⟩

class Facts : Prop where
  bcast_S_S1x1x2048 : S_.BroadcastsInDim S1x1x2048 (![] : Fin 0 → Fin S1x1x2048.rank)
  reducesTo_S1x1x2048_S_d0_1_2 : S1x1x2048.ReducesTo [0, 1, 2] S_
  h_S_ : 0 < S_.numel
  bcast_S_S1x16384x2048 : S_.BroadcastsInDim S1x16384x2048 (![] : Fin 0 → Fin S1x16384x2048.rank)
  reducesTo_S1x16384x2048_S_d0_1_2 : S1x16384x2048.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S250x6144 : S_.BroadcastsInDim S250x6144 (![] : Fin 0 → Fin S250x6144.rank)
  reducesTo_S250x6144_S_d0_1 : S250x6144.ReducesTo [0, 1] S_
  bcast_S_S250 : S_.BroadcastsInDim S250 (![] : Fin 0 → Fin S250.rank)
  reducesTo_S250_S_d0 : S250.ReducesTo [0] S_
  bcast_S_S1x250 : S_.BroadcastsInDim S1x250 (![] : Fin 0 → Fin S1x250.rank)
  reducesTo_S1x250_S_d0_1 : S1x250.ReducesTo [0, 1] S_
  bcast_S_S1 : S_.BroadcastsInDim S1 (![] : Fin 0 → Fin S1.rank)
  reducesTo_S1_S_d0 : S1.ReducesTo [0] S_
  bcast_S_S1x16384 : S_.BroadcastsInDim S1x16384 (![] : Fin 0 → Fin S1x16384.rank)
  reducesTo_S1x16384_S_d0_1 : S1x16384.ReducesTo [0, 1] S_

variable [Facts]

def fn_part3 {F : FTy → Type} [FloatOps F] (main_arg3 : IVec S1x16384 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_c_20 : IVec S_ 32 := constantI S_ 32 0#32
  let main_v54 : IVec S1x16384 32 := broadcastInDim S1x16384 ![] bcast_S_S1x16384 main_c_20
  let main_v55 : IVec S1x16384 1 := cmpi .eq main_arg3 main_v54
  let main_c_21 : IVec S_ 1 := constantI S_ 1 0#1
  let main_v56 : IVec S_ 1 := (fun x v => Host.reduce IntOp.ori x v reducesTo_S1x16384_S_d0_1 h_S_) main_v55 main_c_21
  let main_v57 : IVec S_ 1 := andi main_v53 main_v56
  main_v57

def fn_part2 {F : FTy → Type} [FloatOps F] (main_arg3 : IVec S1x16384 32) (main_arg8 : FVec F S250x6144 .f32) (main_arg9 : FVec F S250 .f32) (main_arg10 : FVec F S1x250 .f32) (main_arg11 : FVec F S1 .f32) (main_v33 : IVec S_ 1) : IVec S_ 1 :=
  let main_v34 : FVec F S250x6144 .f32 := Host.absf main_arg8
  let main_cst_12 : FVec F S_ .f32 := constant S_ .f32 0x7F800000#32
  let main_v35 : FVec F S250x6144 .f32 := broadcastInDim S250x6144 ![] bcast_S_S250x6144 main_cst_12
  let main_v36 : IVec S250x6144 1 := cmpf .olt main_v34 main_v35
  let main_c_13 : IVec S_ 1 := constantI S_ 1 1#1
  let main_v37 : IVec S_ 1 := (fun x v => Host.reduce IntOp.andi x v reducesTo_S250x6144_S_d0_1 h_S_) main_v36 main_c_13
  let main_v38 : IVec S_ 1 := andi main_v33 main_v37
  let main_v39 : FVec F S250 .f32 := Host.absf main_arg9
  let main_cst_14 : FVec F S_ .f32 := constant S_ .f32 0x7F800000#32
  let main_v40 : FVec F S250 .f32 := broadcastInDim S250 ![] bcast_S_S250 main_cst_14
  let main_v41 : IVec S250 1 := cmpf .olt main_v39 main_v40
  let main_c_15 : IVec S_ 1 := constantI S_ 1 1#1
  let main_v42 : IVec S_ 1 := (fun x v => Host.reduce IntOp.andi x v reducesTo_S250_S_d0 h_S_) main_v41 main_c_15
  let main_v43 : IVec S_ 1 := andi main_v38 main_v42
  let main_v44 : FVec F S1x250 .f32 := Host.absf main_arg10
  let main_cst_16 : FVec F S_ .f32 := constant S_ .f32 0x7F800000#32
  let main_v45 : FVec F S1x250 .f32 := broadcastInDim S1x250 ![] bcast_S_S1x250 main_cst_16
  let main_v46 : IVec S1x250 1 := cmpf .olt main_v44 main_v45
  let main_c_17 : IVec S_ 1 := constantI S_ 1 1#1
  let main_v47 : IVec S_ 1 := (fun x v => Host.reduce IntOp.andi x v reducesTo_S1x250_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg3 main_v48 main_v49 main_v50

def fn_part1 {F : FTy → Type} [FloatOps F] (main_arg3 : IVec S1x16384 32) (main_arg5 : FVec F S2048x2048 .f32) (main_arg6 : FVec F S2048x2048 .f32) (main_arg7 : FVec F S2048 .f32) (main_arg8 : FVec F S250x6144 .f32) (main_arg9 : FVec F S250 .f32) (main_arg10 : FVec F S1x250 .f32) (main_arg11 : FVec F S1 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg5
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg6
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg3 main_arg8 main_arg9 main_arg10 main_arg11 main_v33

def fn {F : FTy → Type} [FloatOps F] (main_arg0 : FVec F S1x1x2048 .f32) (main_arg1 : FVec F S1x16384x2048 .f32) (main_arg2 : FVec F S1x1x2048 .f32) (main_arg3 : IVec S1x16384 32) (main_arg4 : FVec F S2048x2048 .f32) (main_arg5 : FVec F S2048x2048 .f32) (main_arg6 : FVec F S2048x2048 .f32) (main_arg7 : FVec F S2048 .f32) (main_arg8 : FVec F S250x6144 .f32) (main_arg9 : FVec F S250 .f32) (main_arg10 : FVec F S1x250 .f32) (main_arg11 : FVec F S1 .f32) : IVec S_ 1 :=
  let main_v0 : FVec F S1x1x2048 .f32 := Host.absf main_arg0
  let main_cst : FVec F S_ .f32 := constant S_ .f32 0x7F800000#32
  let main_v1 : FVec F S1x1x2048 .f32 := broadcastInDim S1x1x2048 ![] bcast_S_S1x1x2048 main_cst
  let main_v2 : IVec S1x1x2048 1 := cmpf .olt main_v0 main_v1
  let main_c : IVec S_ 1 := constantI S_ 1 1#1
  let main_v3 : IVec S_ 1 := (fun x v => Host.reduce IntOp.andi x v reducesTo_S1x1x2048_S_d0_1_2 h_S_) main_v2 main_c
  let main_v4 : FVec F S1x16384x2048 .f32 := Host.absf main_arg1
  let main_cst_0 : FVec F S_ .f32 := constant S_ .f32 0x7F800000#32
  let main_v5 : FVec F S1x16384x2048 .f32 := broadcastInDim S1x16384x2048 ![] bcast_S_S1x16384x2048 main_cst_0
  let main_v6 : IVec S1x16384x2048 1 := cmpf .olt main_v4 main_v5
  let main_c_1 : IVec S_ 1 := constantI S_ 1 1#1
  let main_v7 : IVec S_ 1 := (fun x v => Host.reduce IntOp.andi x v reducesTo_S1x16384x2048_S_d0_1_2 h_S_) main_v6 main_c_1
  let main_v8 : IVec S_ 1 := andi main_v3 main_v7
  let main_v9 : FVec F S1x1x2048 .f32 := Host.absf main_arg2
  let main_cst_2 : FVec F S_ .f32 := constant S_ .f32 0x7F800000#32
  let main_v10 : FVec F S1x1x2048 .f32 := broadcastInDim S1x1x2048 ![] bcast_S_S1x1x2048 main_cst_2
  let main_v11 : IVec S1x1x2048 1 := cmpf .olt main_v9 main_v10
  let main_c_3 : IVec S_ 1 := constantI S_ 1 1#1
  let main_v12 : IVec S_ 1 := (fun x v => Host.reduce IntOp.andi x v reducesTo_S1x1x2048_S_d0_1_2 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg3 main_arg5 main_arg6 main_arg7 main_arg8 main_arg9 main_arg10 main_arg11 main_v13 main_v16
-- ==== Kernel.lean ====
abbrev S1x1x2048 : Shape := ⟨3, ![1, 1, 2048]⟩
abbrev S1x16384x2048 : Shape := ⟨3, ![1, 16384, 2048]⟩
abbrev S1x16384 : Shape := ⟨2, ![1, 16384]⟩
abbrev S2048x2048 : Shape := ⟨2, ![2048, 2048]⟩
abbrev S2048 : Shape := ⟨1, ![2048]⟩
abbrev S250x6144 : Shape := ⟨2, ![250, 6144]⟩
abbrev S250 : Shape := ⟨1, ![250]⟩
abbrev S1x250 : Shape := ⟨2, ![1, 250]⟩
abbrev S1 : Shape := ⟨1, ![1]⟩
abbrev S250x2048 : Shape := ⟨2, ![250, 2048]⟩
abbrev S1x1 : Shape := ⟨2, ![1, 1]⟩
abbrev S1x2048 : Shape := ⟨2, ![1, 2048]⟩
abbrev S16384x2048 : Shape := ⟨2, ![16384, 2048]⟩
abbrev S16384x1 : Shape := ⟨2, ![16384, 1]⟩
abbrev S32x1x1 : Shape := ⟨3, ![32, 1, 1]⟩
abbrev S32x1x2048 : Shape := ⟨3, ![32, 1, 2048]⟩
abbrev S512x2048 : Shape := ⟨2, ![512, 2048]⟩
abbrev S512x1 : Shape := ⟨2, ![512, 1]⟩
abbrev S1x1x1 : Shape := ⟨3, ![1, 1, 1]⟩
abbrev S512x250 : Shape := ⟨2, ![512, 250]⟩
abbrev S512 : Shape := ⟨1, ![512]⟩
abbrev S32 : Shape := ⟨1, ![32]⟩
abbrev S32x2048 : Shape := ⟨2, ![32, 2048]⟩
abbrev S32x512 : Shape := ⟨2, ![32, 512]⟩
abbrev S_ : Shape := ⟨0, ![]⟩
abbrev S32x1 : Shape := ⟨2, ![32, 1]⟩
abbrev S16384 : Shape := ⟨1, ![16384]⟩

abbrev nBuf : Space → Nat
  | .hbm => 73
  | .vmem => 26
  | .smem => 0
  | _ => 0

abbrev bufTy : (tb : Table) → Fin (tcTables nBuf tb) → BufTy
  | .hbm, ⟨0, _⟩ => ⟨S1x1x2048, .f32⟩
  | .hbm, ⟨1, _⟩ => ⟨S1x16384x2048, .f32⟩
  | .hbm, ⟨2, _⟩ => ⟨S1x1x2048, .f32⟩
  | .hbm, ⟨3, _⟩ => ⟨S1x16384, .i32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S250x6144, .f32⟩
  | .hbm, ⟨9, _⟩ => ⟨S250, .f32⟩
  | .hbm, ⟨10, _⟩ => ⟨S1x250, .f32⟩
  | .hbm, ⟨11, _⟩ => ⟨S1, .f32⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S250x2048, .f32⟩
  | .hbm, ⟨16, _⟩ => ⟨S250x2048, .f32⟩
  | .hbm, ⟨17, _⟩ => ⟨S250x2048, .f32⟩
  | .hbm, ⟨18, _⟩ => ⟨S250x2048, .bf16⟩
  | .hbm, ⟨19, _⟩ => ⟨S250x2048, .bf16⟩
  | .hbm, ⟨20, _⟩ => ⟨S250x2048, .bf16⟩
  | .hbm, ⟨21, _⟩ => ⟨S1x1, .f32⟩
  | .hbm, ⟨22, _⟩ => ⟨S1x2048, .f32⟩
  | .hbm, ⟨23, _⟩ => ⟨S1x250, .f32⟩
  | .hbm, ⟨24, _⟩ => ⟨S1x2048, .f32⟩
  | .hbm, ⟨25, _⟩ => ⟨S1x2048, .bf16⟩
  | .hbm, ⟨26, _⟩ => ⟨S1x2048, .f32⟩
  | .hbm, ⟨27, _⟩ => ⟨S1x2048, .bf16⟩
  | .hbm, ⟨28, _⟩ => ⟨S1x250, .f32⟩
  | .hbm, ⟨29, _⟩ => ⟨S16384x2048, .f32⟩
  | .hbm, ⟨30, _⟩ => ⟨S16384x1, .i32⟩
  | .hbm, ⟨31, _⟩ => ⟨S16384x1, .f32⟩
  | .hbm, ⟨32, _⟩ => ⟨S32x1x1, .f32⟩
  | .hbm, ⟨33, _⟩ => ⟨S32x1x1, .f32⟩
  | .hbm, ⟨34, _⟩ => ⟨S32x1x2048, .f32⟩
  | .hbm, ⟨35, _⟩ => ⟨S32, .f32⟩
  | .hbm, ⟨36, _⟩ => ⟨S32, .f32⟩
  | .hbm, ⟨37, _⟩ => ⟨S32x2048, .f32⟩
  | .hbm, ⟨38, _⟩ => ⟨S32x512, .f32⟩
  | .hbm, ⟨39, _⟩ => ⟨S_, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S_, .f32⟩
  | .hbm, ⟨47, _⟩ => ⟨S32x1, .f32⟩
  | .hbm, ⟨48, _⟩ => ⟨S32x2048, .f32⟩
  | .hbm, ⟨49, _⟩ => ⟨S32x2048, .f32⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S2048, .f32⟩
  | .hbm, ⟨54, _⟩ => ⟨S1x2048, .f32⟩
  | .hbm, ⟨55, _⟩ => ⟨S32x1, .f32⟩
  | .hbm, ⟨56, _⟩ => ⟨S32x512, .f32⟩
  | .hbm, ⟨57, _⟩ => ⟨S32x512, .f32⟩
  | .hbm, ⟨58, _⟩ => ⟨S32x512, .f32⟩
  | .hbm, ⟨59, _⟩ => ⟨S32x512, .f32⟩
  | .hbm, ⟨60, _⟩ => ⟨S16384, .f32⟩
  | .hbm, ⟨61, _⟩ => ⟨S16384, .i32⟩
  | .hbm, ⟨62, _⟩ => ⟨S_, .i32⟩
  | .hbm, ⟨63, _⟩ => ⟨S16384, .i32⟩
  | .hbm, ⟨64, _⟩ => ⟨S16384, .i1⟩
  | .hbm, ⟨65, _⟩ => ⟨S_, .i1⟩
  | .hbm, ⟨66, _⟩ => ⟨S_, .i1⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S_, .f32⟩
  | .hbm, ⟨71, _⟩ => ⟨S1x2048, .f32⟩
  | .hbm, ⟨72, _⟩ => ⟨S1x2048, .f32⟩
  | .local _ .vmem, ⟨0, _⟩ => ⟨S1x2048, .bf16⟩
  | .local _ .vmem, ⟨1, _⟩ => ⟨S1x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S250x2048, .bf16⟩
  | .local _ .vmem, ⟨6, _⟩ => ⟨S250x2048, .bf16⟩
  | .local _ .vmem, ⟨7, _⟩ => ⟨S1x250, .f32⟩
  | .local _ .vmem, ⟨8, _⟩ => ⟨S1x250, .f32⟩
  | .local _ .vmem, ⟨9, _⟩ => ⟨S512x2048, .f32⟩
  | .local _ .vmem, ⟨10, _⟩ => ⟨S512x2048, .f32⟩
  | .local _ .vmem, ⟨11, _⟩ => ⟨S512x1, .i32⟩
  | .local _ .vmem, ⟨12, _⟩ => ⟨S512x1, .i32⟩
  | .local _ .vmem, ⟨13, _⟩ => ⟨S2048x2048, .bf16⟩
  | .local _ .vmem, ⟨14, _⟩ => ⟨S250x2048, .bf16⟩
  | .local _ .vmem, ⟨15, _⟩ => ⟨S1x250, .f32⟩
  | .local _ .vmem, ⟨16, _⟩ => ⟨S1x250, .f32⟩
  | .local _ .vmem, ⟨17, _⟩ => ⟨S1x1, .f32⟩
  | .local _ .vmem, ⟨18, _⟩ => ⟨S512x1, .f32⟩
  | .local _ .vmem, ⟨19, _⟩ => ⟨S512x1, .f32⟩
  | .local _ .vmem, ⟨20, _⟩ => ⟨S1x1x1, .f32⟩
  | .local _ .vmem, ⟨21, _⟩ => ⟨S1x1x1, .f32⟩
  | .local _ .vmem, ⟨22, _⟩ => ⟨S1x1x1, .f32⟩
  | .local _ .vmem, ⟨23, _⟩ => ⟨S1x1x1, .f32⟩
  | .local _ .vmem, ⟨24, _⟩ => ⟨S1x1x2048, .f32⟩
  | .local _ .vmem, ⟨25, _⟩ => ⟨S1x1x2048, .f32⟩
  | _, _ => ⟨S1x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_1 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c : Ref sig .tc := ⟨.hbm, 62, rfl⟩
abbrev main_v44 : Ref sig .tc := ⟨.hbm, 63, rfl⟩
abbrev main_v45 : Ref sig .tc := ⟨.hbm, 64, rfl⟩
abbrev main_c_2 : Ref sig .tc := ⟨.hbm, 65, rfl⟩
abbrev main_v46 : Ref sig .tc := ⟨.hbm, 66, rfl⟩
abbrev main_cst_3 : Ref sig .tc := ⟨.hbm, 67, rfl⟩
abbrev main_v47 : Ref sig .tc := ⟨.hbm, 68, rfl⟩
abbrev main_v48 : Ref sig .tc := ⟨.hbm, 69, rfl⟩
abbrev main_cst_4 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S250x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S250x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x250 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x250 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S250x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x250 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x250 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  bitsLt_bf16_f32 : FTy.bits .bf16 < FTy.bits .f32
  slices_S250x6144_S250x2048_0_0 : S250x6144.Slices ![0, 0] S250x2048
  slices_S250x6144_S250x2048_0_2048 : S250x6144.Slices ![0, 2048] S250x2048
  slices_S250x6144_S250x2048_0_4096 : S250x6144.Slices ![0, 4096] S250x2048
  shapeCasts_S1_S1x1 : S1.ShapeCasts S1x1
  shapeCasts_S2048_S1x2048 : S2048.ShapeCasts S1x2048
  shapeCasts_S250_S1x250 : S250.ShapeCasts S1x250
  shapeCasts_S1x1x2048_S1x2048 : S1x1x2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S250x2048_S250x2048_0_0 : ∀ a, (![0, 0] : Fin 2 → Nat) a + S250x2048.size a ≤ S250x2048.size a
  h_S250x2048 : 0 < S250x2048.numel
  shapeCasts_S250x2048_S250x2048 : S250x2048.ShapeCasts S250x2048
  inb_S1x250_S1x250_0_0 : ∀ a, (![0, 0] : Fin 2 → Nat) a + S1x250.size a ≤ S1x250.size a
  h_S1x250 : 0 < S1x250.numel
  shapeCasts_S1x250_S1x250 : S1x250.ShapeCasts S1x250
  shapeCasts_S1x16384x2048_S16384x2048 : S1x16384x2048.ShapeCasts S16384x2048
  shapeCasts_S1x16384_S16384x1 : S1x16384.ShapeCasts S16384x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  broadcasts_S1x250_S512x250 : S1x250.Broadcasts S512x250
  reduces_S512x250_S512 : S512x250.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x1_S1 : S512x1.Reduces [0] S1
  broadcasts_S512x1_S512x2048 : S512x1.Broadcasts S512x2048
  reduces_S512x2048_S2048 : S512x2048.Reduces [0] S2048
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S1x2048_S1x1x2048 : S1x2048.ShapeCasts S1x1x2048
  inb_S1x1x2048_S1x1x2048_0_0_0 : ∀ a, (![0, 0, 0] : Fin 3 → Nat) a + S1x1x2048.size a ≤ S1x1x2048.size a
  h_S1x1x2048 : 0 < S1x1x2048.numel
  shapeCasts_S32x1x1_S32 : S32x1x1.ShapeCasts S32
  shapeCasts_S32x1x2048_S32x2048 : S32x1x2048.ShapeCasts S32x2048
  shapeCasts_S16384x1_S32x512 : S16384x1.ShapeCasts S32x512
  reducesTo_S32_S_d0 : S32.ReducesTo [0] S_
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x2048_0_1 : S32x1.BroadcastsInDim S32x2048 (![0, 1] : Fin 2 → Fin S32x2048.rank)
  reducesTo_S32x2048_S2048_d0 : S32x2048.ReducesTo [0] S2048
  bcast_S_S2048 : S_.BroadcastsInDim S2048 (![] : Fin 0 → Fin S2048.rank)
  bcast_S32x1_S32x512_0_1 : S32x1.BroadcastsInDim S32x512 (![0, 1] : Fin 2 → Fin S32x512.rank)
  bcast_S_S32x512 : S_.BroadcastsInDim S32x512 (![] : Fin 0 → Fin S32x512.rank)
  shapeCasts_S32x512_S16384 : S32x512.ShapeCasts S16384
  shapeCasts_S16384x1_S16384 : S16384x1.ShapeCasts S16384
  bcast_S_S16384 : S_.BroadcastsInDim S16384 (![] : Fin 0 → Fin S16384.rank)
  reducesTo_S16384_S_d0 : S16384.ReducesTo [0] S_
  bcast_S_S1x2048 : S_.BroadcastsInDim S1x2048 (![] : Fin 0 → Fin S1x2048.rank)
  dot_S1x2048_S2048x2048_S1x2048_1_1_0_0_n_n_wf : DotDims.WF S1x2048 S2048x2048 S1x2048 [1] [1] [0] [0] [] []
  dot_S1x2048_S250x2048_S1x250_1_1_0_0_n_n_wf : DotDims.WF S1x2048 S250x2048 S1x250 [1] [1] [0] [0] [] []
  dot_S512x2048_S2048x2048_S512x2048_1_1_0_0_n_n_wf : DotDims.WF S512x2048 S2048x2048 S512x2048 [1] [1] [0] [0] [] []
  dot_S512x2048_S250x2048_S512x250_1_1_0_0_n_n_wf : DotDims.WF S512x2048 S250x2048 S512x250 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .bf16 = 32 ∨ (Rect.block (s := S1x2048) S1x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .bf16 = 32 ∨ (Rect.block (s := S1x2048) S1x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S250x2048.size a ≤ S250x2048.size a
  hwx0_5 : ∀ i : grid0.Coords, EltTy.bits .bf16 = 32 ∨ (Rect.block (s := S250x2048) S250x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S250x2048.size a ≤ S250x2048.size a
  hwx0_6 : ∀ i : grid0.Coords, EltTy.bits .bf16 = 32 ∨ (Rect.block (s := S250x2048) S250x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x250.size a ≤ S1x250.size a
  hwx0_7 : ∀ i : grid0.Coords, EltTy.bits .f32 = 32 ∨ (Rect.block (s := S1x250) S1x250.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x250.size a ≤ S1x250.size a
  hwx0_8 : ∀ i : grid0.Coords, EltTy.bits .f32 = 32 ∨ (Rect.block (s := S1x250) S1x250.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S16384x1.size a
  hwx1_1 : ∀ i : grid1.Coords, EltTy.bits .i32 = 32 ∨ (Rect.block (s := S16384x1) S512x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S250x2048.size a ≤ S250x2048.size a
  hwx1_3 : ∀ i : grid1.Coords, EltTy.bits .bf16 = 32 ∨ (Rect.block (s := S250x2048) S250x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x250.size a ≤ S1x250.size a
  hwx1_4 : ∀ i : grid1.Coords, EltTy.bits .f32 = 32 ∨ (Rect.block (s := S1x250) S1x250.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x250.size a ≤ S1x250.size a
  hwx1_5 : ∀ i : grid1.Coords, EltTy.bits .f32 = 32 ∨ (Rect.block (s := S1x250) S1x250.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S16384x1.size a
  hwx1_7 : ∀ i : grid1.Coords, EltTy.bits .f32 = 32 ∨ (Rect.block (s := S16384x1) S512x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x1.size a ≤ S32x1x1.size a
  hwx1_8 : ∀ i : grid1.Coords, EltTy.bits .f32 = 32 ∨ (Rect.block (s := S32x1x1) S1x1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x1.size a ≤ S32x1x1.size a
  hwx1_9 : ∀ i : grid1.Coords, EltTy.bits .f32 = 32 ∨ (Rect.block (s := S32x1x1) S1x1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1x2048.size a ≤ S32x1x2048.size a
  hwx1_10 : ∀ i : grid1.Coords, EltTy.bits .f32 = 32 ∨ (Rect.block (s := S32x1x2048) S1x1x2048.size (cc1_transform_10 i) (hinb1_10 i)).WholeWords (EltTy.packing .f32)

variable [Facts₀]

def dot_S1x2048_S2048x2048_S1x2048_1_1_0_0_n_n : DotDims S1x2048 S2048x2048 S1x2048 where
  lhsContracting := [1]
  rhsContracting := [1]
  lhsNonContracting := [0]
  rhsNonContracting := [0]
  lhsBatch := []
  rhsBatch := []
  wf := dot_S1x2048_S2048x2048_S1x2048_1_1_0_0_n_n_wf
def dot_S1x2048_S250x2048_S1x250_1_1_0_0_n_n : DotDims S1x2048 S250x2048 S1x250 where
  lhsContracting := [1]
  rhsContracting := [1]
  lhsNonContracting := [0]
  rhsNonContracting := [0]
  lhsBatch := []
  rhsBatch := []
  wf := dot_S1x2048_S250x2048_S1x250_1_1_0_0_n_n_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S512x2048_S250x2048_S512x250_1_1_0_0_n_n : DotDims S512x2048 S250x2048 S512x250 where
  lhsContracting := [1]
  rhsContracting := [1]
  lhsNonContracting := [0]
  rhsNonContracting := [0]
  lhsBatch := []
  rhsBatch := []
  wf := dot_S512x2048_S250x2048_S512x250_1_1_0_0_n_n_wf

abbrev win0_0 : Pipeline.Window sig grid0 :=
  Pipeline.Window.ofSpec (Memref.whole main_v13) S1x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S250x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S250x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x250.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x250.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v17) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S250x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x250.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S1x250.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19_0) S512x1.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v19_1) S1x1x1.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v19_2) S1x1x1.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v19_3) S1x1x2048.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S1x1x2048 : Shape := ⟨3, ![1, 1, 2048]⟩
abbrev S1x16384x2048 : Shape := ⟨3, ![1, 16384, 2048]⟩
abbrev S1x16384 : Shape := ⟨2, ![1, 16384]⟩
abbrev S2048x2048 : Shape := ⟨2, ![2048, 2048]⟩
abbrev S2048 : Shape := ⟨1, ![2048]⟩
abbrev S250x6144 : Shape := ⟨2, ![250, 6144]⟩
abbrev S250 : Shape := ⟨1, ![250]⟩
abbrev S1x250 : Shape := ⟨2, ![1, 250]⟩
abbrev S1 : Shape := ⟨1, ![1]⟩
abbrev S1x16384x6144 : Shape := ⟨3, ![1, 16384, 6144]⟩
abbrev S1x16384x250 : Shape := ⟨3, ![1, 16384, 250]⟩
abbrev S1x1x250 : Shape := ⟨3, ![1, 1, 250]⟩
abbrev S_ : Shape := ⟨0, ![]⟩
abbrev S1x16384x1 : Shape := ⟨3, ![1, 16384, 1]⟩
abbrev S1x1x1 : Shape := ⟨3, ![1, 1, 1]⟩
abbrev S16384 : Shape := ⟨1, ![16384]⟩
abbrev S1x2048 : Shape := ⟨2, ![1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S1x1x2048, .f32⟩
  | .hbm, ⟨1, _⟩ => ⟨S1x16384x2048, .f32⟩
  | .hbm, ⟨2, _⟩ => ⟨S1x1x2048, .f32⟩
  | .hbm, ⟨3, _⟩ => ⟨S1x16384, .i32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S250x6144, .f32⟩
  | .hbm, ⟨9, _⟩ => ⟨S250, .f32⟩
  | .hbm, ⟨10, _⟩ => ⟨S1x250, .f32⟩
  | .hbm, ⟨11, _⟩ => ⟨S1, .f32⟩
  | .hbm, ⟨12, _⟩ => ⟨S1x1x2048, .f32⟩
  | .hbm, ⟨13, _⟩ => ⟨S1x16384x2048, .f32⟩
  | .hbm, ⟨14, _⟩ => ⟨S1x1x2048, .f32⟩
  | .hbm, ⟨15, _⟩ => ⟨S1x1x2048, .f32⟩
  | .hbm, ⟨16, _⟩ => ⟨S1x1x2048, .f32⟩
  | .hbm, ⟨17, _⟩ => ⟨S1x16384x2048, .f32⟩
  | .hbm, ⟨18, _⟩ => ⟨S1x16384x2048, .f32⟩
  | .hbm, ⟨19, _⟩ => ⟨S1x16384x6144, .f32⟩
  | .hbm, ⟨20, _⟩ => ⟨S1x16384x6144, .f32⟩
  | .hbm, ⟨21, _⟩ => ⟨S1x16384x250, .f32⟩
  | .hbm, ⟨22, _⟩ => ⟨S1x1x250, .f32⟩
  | .hbm, ⟨23, _⟩ => ⟨S1x16384x250, .f32⟩
  | .hbm, ⟨24, _⟩ => ⟨S1x16384x250, .f32⟩
  | .hbm, ⟨25, _⟩ => ⟨S_, .f32⟩
  | .hbm, ⟨26, _⟩ => ⟨S1x16384x250, .f32⟩
  | .hbm, ⟨27, _⟩ => ⟨S1x16384x250, .f32⟩
  | .hbm, ⟨28, _⟩ => ⟨S1x16384x1, .f32⟩
  | .hbm, ⟨29, _⟩ => ⟨S1x1x1, .f32⟩
  | .hbm, ⟨30, _⟩ => ⟨S1x16384x1, .f32⟩
  | .hbm, ⟨31, _⟩ => ⟨S1x16384x1, .f32⟩
  | .hbm, ⟨32, _⟩ => ⟨S16384, .f32⟩
  | .hbm, ⟨33, _⟩ => ⟨S16384, .i32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S16384, .i1⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1, .f32⟩
  | .hbm, ⟨47, _⟩ => ⟨S16384, .f32⟩
  | .hbm, ⟨48, _⟩ => ⟨S16384, .f32⟩
  | .hbm, ⟨49, _⟩ => ⟨S16384, .f32⟩
  | .hbm, ⟨50, _⟩ => ⟨S_, .f32⟩
  | .hbm, ⟨51, _⟩ => ⟨S_, .f32⟩
  | .hbm, ⟨52, _⟩ => ⟨S1, .f32⟩
  | .hbm, ⟨53, _⟩ => ⟨S16384, .f32⟩
  | .hbm, ⟨54, _⟩ => ⟨S16384, .f32⟩
  | .hbm, ⟨55, _⟩ => ⟨S1x16384x1, .f32⟩
  | .hbm, ⟨56, _⟩ => ⟨S1x16384x2048, .f32⟩
  | .hbm, ⟨57, _⟩ => ⟨S1x16384x2048, .f32⟩
  | .hbm, ⟨58, _⟩ => ⟨S_, .f32⟩
  | .hbm, ⟨59, _⟩ => ⟨S1x2048, .f32⟩
  | _, _ => ⟨S1x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_cst : Ref sig .tc := ⟨.hbm, 25, rfl⟩
abbrev main_call0_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_3 : Ref sig .tc := ⟨.hbm, 58, rfl⟩
abbrev main_v37 : Ref sig .tc := ⟨.hbm, 59, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S1x16384x2048_0_1_2 : S1x1x2048.BroadcastsInDim S1x16384x2048 (![0, 1, 2] : Fin 3 → Fin S1x16384x2048.rank)
  concatenates_S1x16384x2048_S1x16384x2048_S1x16384x2048_S1x16384x6144_d2 : Shape.Concatenates [S1x16384x2048, S1x16384x2048, S1x16384x2048] S1x16384x6144 2
  bcast_S250_S1x1x250_2 : S250.BroadcastsInDim S1x1x250 (![2] : Fin 1 → Fin S1x1x250.rank)
  bcast_S1x1x250_S1x16384x250_0_1_2 : S1x1x250.BroadcastsInDim S1x16384x250 (![0, 1, 2] : Fin 3 → Fin S1x16384x250.rank)
  bcast_S_S1x16384x250 : S_.BroadcastsInDim S1x16384x250 (![] : Fin 0 → Fin S1x16384x250.rank)
  bcast_S1_S1x1x1_2 : S1.BroadcastsInDim S1x1x1 (![2] : Fin 1 → Fin S1x1x1.rank)
  bcast_S1x1x1_S1x16384x1_0_1_2 : S1x1x1.BroadcastsInDim S1x16384x1 (![0, 1, 2] : Fin 3 → Fin S1x16384x1.rank)
  shapeCasts_S1x16384x1_S16384 : S1x16384x1.ShapeCasts S16384
  shapeCasts_S1x16384_S16384 : S1x16384.ShapeCasts S16384
  bcast_S_S16384 : S_.BroadcastsInDim S16384 (![] : Fin 0 → Fin S16384.rank)
  reducesTo_S16384_S_d0 : S16384.ReducesTo [0] S_
  h_S_ : 0 < S_.numel
  bcast_S_S1 : S_.BroadcastsInDim S1 (![] : Fin 0 → Fin S1.rank)
  bcast_S1_S16384_0 : S1.BroadcastsInDim S16384 (![0] : Fin 1 → Fin S16384.rank)
  bcast_S16384_S1x16384x1_1 : S16384.BroadcastsInDim S1x16384x1 (![1] : Fin 1 → Fin S1x16384x1.rank)
  bcast_S1x16384x1_S1x16384x2048_0_1_2 : S1x16384x1.BroadcastsInDim S1x16384x2048 (![0, 1, 2] : Fin 3 → Fin S1x16384x2048.rank)
  reducesTo_S1x16384x2048_S1x2048_d1 : S1x16384x2048.ReducesTo [1] S1x2048
  dot_S1x1x2048_S2048x2048_S1x1x2048_2_1_01_0_n_n_wf : DotDims.WF S1x1x2048 S2048x2048 S1x1x2048 [2] [1] [0, 1] [0] [] []
  dot_S1x16384x2048_S2048x2048_S1x16384x2048_2_1_01_0_n_n_wf : DotDims.WF S1x16384x2048 S2048x2048 S1x16384x2048 [2] [1] [0, 1] [0] [] []
  dot_S1x16384x6144_S250x6144_S1x16384x250_2_1_01_0_n_n_wf : DotDims.WF S1x16384x6144 S250x6144 S1x16384x250 [2] [1] [0, 1] [0] [] []
  dot_S1x16384x250_S1x250_S1x16384x1_2_1_01_0_n_n_wf : DotDims.WF S1x16384x250 S1x250 S1x16384x1 [2] [1] [0, 1] [0] [] []

variable [Facts₀]

def dot_S1x1x2048_S2048x2048_S1x1x2048_2_1_01_0_n_n : DotDims S1x1x2048 S2048x2048 S1x1x2048 where
  lhsContracting := [2]
  rhsContracting := [1]
  lhsNonContracting := [0, 1]
  rhsNonContracting := [0]
  lhsBatch := []
  rhsBatch := []
  wf := dot_S1x1x2048_S2048x2048_S1x1x2048_2_1_01_0_n_n_wf
def dot_S1x16384x2048_S2048x2048_S1x16384x2048_2_1_01_0_n_n : DotDims S1x16384x2048 S2048x2048 S1x16384x2048 where
  lhsContracting := [2]
  rhsContracting := [1]
  lhsNonContracting := [0, 1]
  rhsNonContracting := [0]
  lhsBatch := []
  rhsBatch := []
  wf := dot_S1x16384x2048_S2048x2048_S1x16384x2048_2_1_01_0_n_n_wf
def dot_S1x16384x6144_S250x6144_S1x16384x250_2_1_01_0_n_n : DotDims S1x16384x6144 S250x6144 S1x16384x250 where
  lhsContracting := [2]
  rhsContracting := [1]
  lhsNonContracting := [0, 1]
  rhsNonContracting := [0]
  lhsBatch := []
  rhsBatch := []
  wf := dot_S1x16384x6144_S250x6144_S1x16384x250_2_1_01_0_n_n_wf
def dot_S1x16384x250_S1x250_S1x16384x1_2_1_01_0_n_n : DotDims S1x16384x250 S1x250 S1x16384x1 where
  lhsContracting := [2]
  rhsContracting := [1]
  lhsNonContracting := [0, 1]
  rhsNonContracting := [0]
  lhsBatch := []
  rhsBatch := []
  wf := dot_S1x16384x250_S1x250_S1x16384x1_2_1_01_0_n_n_wf

class Facts : Prop extends Facts₀ where

variable [Facts]
-- ==== Proof.KernelRun.lean ====
/-
  The idealized kernel's run with its two results named.

  Every weakly fair execution of the program ends, nothing faulting, and at the end each result buffer holds what the
  last boundary of the program's segments gives it: the launch memory carried through a stretch of host operations, the
  first kernel's region, a stretch, the second kernel's region, and the final stretches. The argument arrays end as
  launched. The program is run as that list of segments; what is read off the final state is every unscoped buffer at
  the last boundary's contents, of which the two results and the twelve arguments are instances.
-/
import proofs.«147632_j55284819034614_2_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What is read off a final state on core `c`: every unscoped buffer holds the last boundary's contents. -/
def AtEnd (c : Dev nD) (s : MemSt nD τ sig (Elt F)) : Prop :=
  ∀ b ∈ Pipeline.ucRefs τ sig, s.mem (((c : Thread nD τ)).1, b) = W8 m ρ c b

set_option backward.isDefEq.respectTransparency.types false in
/-- The program run as its list of segments: every weakly fair execution ends with every unscoped buffer at the last
    boundary's contents. -/
theorem run_atEnd : θ_run defs (onTc (τ := τ) (main (F := F))) ⟨m, fun _ => 0, ρ⟩ (fun r => ∀ c : Dev nD, AtEnd m ρ c r.2) := by
  refine Pipeline.θ_run_regions_kit (pcfgs (F := F)) adm (pdats m ρ) () cellOf_inj emb₁ defs₀ 𝒱₀ L lv m ρ main (segs m ρ)
    ?hmain ?hnd (O₀ := 0) (hL := fun _ _ => rfl) (G := fun _ => iprop(emp))
    (u₀ := initOf (Pipeline.cells cfgs cellOf_inj) (Pipeline.launchToks cfgs cellOf_inj)) ?hu
    (T₀ := fun c => iprop(StableHlo.held (c : Thread nD τ) (Pipeline.ucRefs τ sig) (W0 m ρ c) ∗ R c)) (Tₙ := Tₙ m ρ)
    ?hch ?hinit (QY := AtEnd m ρ) ?hfin (hQ := fun s h => h)
  case hmain =>
    -- the program is the run of its segments
    intro c Q
    rw [main_run m ρ c]
  case hnd =>
    -- the two regions are entered once each, in order
    have hp : Pipeline.Seg.pipes (segs m ρ) = [0, 1] := rfl
    rw [hp]
    decide
  case hu =>
    -- the launch deals the staging cells' own element, and no ghost state besides
    have hcells : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
    have hnone : (BI.emp : sProp 𝕄) ⊢ bigSep Finset.univ (fun _ : Dev nD => (BI.emp : sProp 𝕄)) := by
      rw [BI.bigSep_emp_const]
    iintro Hcells
    imodintro
    isplitl [Hcells]
    · iapply hcells
      iexact Hcells
    · iapply hnone
      iempintro
  case hch =>
    -- each segment starts from the thread state the one before it leaves; after the last, the part of the state that
    -- rode along splits into the generator register, kept, and the empty debt
    refine ⟨fun _ => .rfl, fun _ => .rfl, fun _ => .rfl, fun _ => .rfl, fun _ => .rfl, fun _ => .rfl, fun _ => .rfl,
      fun _ => .rfl, fun c => ?_⟩
    dsimp only [Pipeline.Seg.post, hseg, Pipeline.HostSeg.ofOps]
    iintro ⟨Hheld, Hreg, Hdebt⟩
    isplitl [Hheld Hreg]
    · isplitl [Hheld]
      · iexact Hheld
      · iexact Hreg
    · iexact Hdebt
  case hinit =>
    -- on each core the launch's unscoped buffers are the first boundary's contents, held
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hheld, Hsems, Hdebt, Hcred, Hreg, Hnone⟩, Hlev⟩
    imodintro
    isplitl [Hheld]
    · iexact Hheld
    isplitl [Hreg]
    · iexists _
      iexact Hreg
    · iexists ∅
      iexact Hdebt
  case hfin =>
    -- the buffers held at the end are read against the final state
    intro c s'
    iintro ⟨⟨Hheld, Hreg⟩, Hstate⟩
    imodintro
    unfold StableHlo.held
    iapply (pointsTo_read_all (Pipeline.ucRefs τ sig) (fun b => (((c : Thread nD τ)).1, b)) (W8 m ρ c) s')
    isplitl [Hheld]
    · iexact Hheld
    · iexact Hstate

/-- The run with the results named: each result buffer ends at the last boundary's contents, and each of the twelve
    argument arrays ends as launched, the last boundary giving an argument its launch contents since no segment
    writes one. -/
theorem run : θ_run defs (onTc (τ := τ) (main (F := F))) ⟨m, fun _ => 0, ρ⟩ (fun r => ∀ c : Dev nD,
      r.2.mem ((c.tc : Thread nD τ).loc main_v48) = W8 m ρ c (Proc.devRef .tc main_v48)
      ∧ r.2.mem ((c.tc : Thread nD τ).loc main_v50) = W8 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v48 (by decide)),
     h c _ (mem_uc main_v50 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c)⟩)
    (run_atEnd m ρ)

end Cert.KernelIdeal.Result

end
-- ==== Proof.Boundary.lean ====
/-
  What the kernels find and what the last host operations make of what they leave.

  Between the launch and the first kernel the host only relabels and narrows the arguments: a change of float format
  is the identity on the extended reals, so each operand of the first kernel is an argument reshaped or a block of
  columns of the first projection. The second kernel's operands are again arguments relabelled, except the row the
  first kernel left. After the second kernel the host combines, over the 32 tiles, the tiles' maxima, sums, rows and
  weights: the global maximum, each tile's factor `exp (m t - M)`, the total, the rescaled weights and row divided by
  the total, and a choice between those and a constant where every position is masked.
-/
import proofs.«147632_j55284819034614_2_alg».proof.Proof.Gen.KernelIdeal.Frame
import Idealize.ShloMosaic.Lib.StableHlo.Run
import Idealize.ShloMosaic.Lib.Tactic

set_option maxRecDepth 16384

noncomputable section

namespace Cert.KernelIdeal.Result

open Idealize.ShloMosaic Idealize.ShloMosaic.TcCoe Idealize.ShloMosaic.Tactic Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The first kernel's operands -/

theorem in0_cur (c : Dev nD) : (W1 m ρ c (Proc.devRef .tc main_v13) : S1x2048.Idx → EReal)
    = shapeCast S1x2048 (m ((c.tc : Thread nD τ).loc main_arg2) : S1x1x2048.Idx → EReal) shapeCasts_S1x1x2048_S1x2048 := by
  dsimp only [W1, W0, hostOps0]; after_results; all_goals rfl

theorem in0_sprev (c : Dev nD) : (W1 m ρ c (Proc.devRef .tc main_v15) : S1x2048.Idx → EReal)
    = shapeCast S1x2048 (m ((c.tc : Thread nD τ).loc main_arg0) : S1x1x2048.Idx → EReal) shapeCasts_S1x1x2048_S1x2048 := by
  dsimp only [W1, W0, hostOps0]; after_results; all_goals rfl

theorem in0_winfo (c : Dev nD) : (W1 m ρ c (Proc.devRef .tc main_v0) : S2048x2048.Idx → EReal)
    = (m ((c.tc : Thread nD τ).loc main_arg4) : S2048x2048.Idx → EReal) := by
  dsimp only [W1, W0, hostOps0]; after_results; all_goals rfl

theorem in0_wq (c : Dev nD) : (W1 m ρ c (Proc.devRef .tc main_v1) : S2048x2048.Idx → EReal)
    = (m ((c.tc : Thread nD τ).loc main_arg6) : S2048x2048.Idx → EReal) := by
  dsimp only [W1, W0, hostOps0]; after_results; all_goals rfl

theorem in0_bq (c : Dev nD) : (W1 m ρ c (Proc.devRef .tc main_v10) : S1x2048.Idx → EReal)
    = shapeCast S1x2048 (m ((c.tc : Thread nD τ).loc main_arg7) : S2048.Idx → EReal) shapeCasts_S2048_S1x2048 := by
  dsimp only [W1, W0, hostOps0]; after_results; all_goals rfl

theorem in0_wpw (c : Dev nD) : (W1 m ρ c (Proc.devRef .tc main_v7) : S250x2048.Idx → EReal)
    = extractStridedSlice S250x2048 ![0, 2048] (m ((c.tc : Thread nD τ).loc main_arg8) : S250x6144.Idx → EReal) slices_S250x6144_S250x2048_0_2048 := by
  dsimp only [W1, W0, hostOps0]; after_results; all_goals rfl

theorem in0_wpd (c : Dev nD) : (W1 m ρ c (Proc.devRef .tc main_v8) : S250x2048.Idx → EReal)
    = extractStridedSlice S250x2048 ![0, 4096] (m ((c.tc : Thread nD τ).loc main_arg8) : S250x6144.Idx → EReal) slices_S250x6144_S250x2048_0_4096 := by
  dsimp only [W1, W0, hostOps0]; after_results; all_goals rfl

theorem in0_bp1 (c : Dev nD) : (W1 m ρ c (Proc.devRef .tc main_v11) : S1x250.Idx → EReal)
    = shapeCast S1x250 (m ((c.tc : Thread nD τ).loc main_arg9) : S250.Idx → EReal) shapeCasts_S250_S1x250 := by
  dsimp only [W1, W0, hostOps0]; after_results; all_goals rfl

/-! ## The second kernel's operands -/

theorem in1_enc (c : Dev nD) : (W3 m ρ c (Proc.devRef .tc main_v17) : S16384x2048.Idx → EReal)
    = shapeCast S16384x2048 (m ((c.tc : Thread nD τ).loc main_arg1) : S1x16384x2048.Idx → EReal) shapeCasts_S1x16384x2048_S16384x2048 := by
  have h : (W2 m ρ c (Proc.devRef .tc main_arg1) : S1x16384x2048.Idx → EReal) = m ((c.tc : Thread nD τ).loc main_arg1) := by
    rw [W2_of_ne m ρ c main_arg1 (by decide)]; dsimp only [W1, W0, hostOps0]; after_results; all_goals rfl
  rw [← h]; dsimp only [W3, hostOps1]; after_results; all_goals rfl

theorem in1_mask (c : Dev nD) : (W3 m ρ c (Proc.devRef .tc main_v18) : S16384x1.Idx → BitVec 32)
    = shapeCast S16384x1 (m ((c.tc : Thread nD τ).loc main_arg3) : S1x16384.Idx → BitVec 32) shapeCasts_S1x16384_S16384x1 := by
  have h : (W2 m ρ c (Proc.devRef .tc main_arg3) : S1x16384.Idx → BitVec 32) = m ((c.tc : Thread nD τ).loc main_arg3) := by
    rw [W2_of_ne m ρ c main_arg3 (by decide)]; dsimp only [W1, W0, hostOps0]; after_results; all_goals rfl
  rw [← h]; dsimp only [W3, hostOps1]; after_results; all_goals rfl

theorem in1_wctx (c : Dev nD) : (W3 m ρ c (Proc.devRef .tc main_v2) : S2048x2048.Idx → EReal)
    = (m ((c.tc : Thread nD τ).loc main_arg5) : S2048x2048.Idx → EReal) := by
  have h : (W2 m ρ c (Proc.devRef .tc main_v2) : S2048x2048.Idx → EReal) = m ((c.tc : Thread nD τ).loc main_arg5) := by
    rw [W2_of_ne m ρ c main_v2 (by decide)]; dsimp only [W1, W0, hostOps0]; after_results; all_goals rfl
  rw [← h]; dsimp only [W3, hostOps1]; after_results; all_goals rfl

theorem in1_wpu (c : Dev nD) : (W3 m ρ c (Proc.devRef .tc main_v6) : S250x2048.Idx → EReal)
    = extractStridedSlice S250x2048 ![0, 0] (m ((c.tc : Thread nD τ).loc main_arg8) : S250x6144.Idx → EReal) slices_S250x6144_S250x2048_0_0 := by
  have h : (W2 m ρ c (Proc.devRef .tc main_v6) : S250x2048.Idx → EReal)
      = extractStridedSlice S250x2048 ![0, 0] (m ((c.tc : Thread nD τ).loc main_arg8) : S250x6144.Idx → EReal) slices_S250x6144_S250x2048_0_0 := by
    rw [W2_of_ne m ρ c main_v6 (by decide)]; dsimp only [W1, W0, hostOps0]; after_results; all_goals rfl
  rw [← h]; dsimp only [W3, hostOps1]; after_results; all_goals rfl

/-- The row the first kernel left is the second kernel's fifth operand. -/
theorem in1_bias (c : Dev nD) : (W3 m ρ c (Proc.devRef .tc main_v16) : S1x250.Idx → EReal)
    = (dat0 (V1 m ρ) c).arrAt 8 cfg0.N := by
  rw [← W2_arr m ρ c 8]; dsimp only [W3, hostOps1]; after_results; all_goals rfl

theorem in1_wp2 (c : Dev nD) : (W3 m ρ c (Proc.devRef .tc main_arg10) : S1x250.Idx → EReal)
    = (m ((c.tc : Thread nD τ).loc main_arg10) : S1x250.Idx → EReal) := by
  have h : (W2 m ρ c (Proc.devRef .tc main_arg10) : S1x250.Idx → EReal) = m ((c.tc : Thread nD τ).loc main_arg10) := by
    rw [W2_of_ne m ρ c main_arg10 (by decide)]; dsimp only [W1, W0, hostOps0]; after_results; all_goals rfl
  rw [← h]; dsimp only [W3, hostOps1]; after_results; all_goals rfl

theorem in1_bp2 (c : Dev nD) : (W3 m ρ c (Proc.devRef .tc main_v9) : S1x1.Idx → EReal)
    = shapeCast S1x1 (m ((c.tc : Thread nD τ).loc main_arg11) : S1.Idx → EReal) shapeCasts_S1_S1x1 := by
  have h : (W2 m ρ c (Proc.devRef .tc main_v9) : S1x1.Idx → EReal)
      = shapeCast S1x1 (m ((c.tc : Thread nD τ).loc main_arg11) : S1.Idx → EReal) shapeCasts_S1_S1x1 := by
    rw [W2_of_ne m ρ c main_v9 (by decide)]; dsimp only [W1, W0, hostOps0]; after_results; all_goals rfl
  rw [← h]; dsimp only [W3, hostOps1]; after_results; all_goals rfl

/-- The mask column is an operand the second kernel only reads: it leaves it as it found it. -/
theorem out1_mask (c : Dev nD) : (W4 m ρ c (Proc.devRef .tc main_v18) : S16384x1.Idx → BitVec 32)
    = (W3 m ρ c (Proc.devRef .tc main_v18) : S16384x1.Idx → BitVec 32) :=
  (W4_arr m ρ c 1).trans (((dat1 (V3 m ρ) c).arrAt_in 1 rfl _).trans (A_eq1 (V3 m ρ) c 1))

end Cert.KernelIdeal.Result

end
-- ==== Proof.Region0.lean ====
/-
  What the first kernel leaves.

  Its grid has one point, and at that point every operand's block is the operand's whole array and the result's block
  the whole result row. So the row it leaves is its body's arithmetic applied to the eight operand arrays as the kernel
  finds them.
-/
import proofs.«147632_j55284819034614_2_alg».proof.Proof.Boundary
import Idealize.ShloMosaic.Lib.Pipeline.Value

set_option maxRecDepth 16384

noncomputable section

namespace Cert.KernelIdeal.Result

open Idealize.ShloMosaic Idealize.ShloMosaic.TcCoe Idealize.ShloMosaic.Tactic Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem zero2 : (![0, 0] : Fin 2 → Nat) = fun _ => 0 := funext fun a => by fin_cases a <;> rfl

/-- The row the first kernel computes, from its eight operands as it finds them. -/
def biasRow (c : Dev nD) : S1x250.Idx → EReal :=
  k0_pay1 (F := Ideal) (V1 m ρ c main_v13) (V1 m ρ c main_v0) (V1 m ρ c main_v15) (V1 m ρ c main_v1)
    (V1 m ρ c main_v10) (V1 m ρ c main_v7) (V1 m ρ c main_v8) (V1 m ρ c main_v11)

/-! With one grid point, an operand's block read through zero offsets is the operand's array. -/

theorem whole0_0 (c : Dev nD) : iblk0 (V1 m ρ) c 0 t0_0 = V1 m ρ c main_v13 := by
  have hz' : (fun a => win0_0.index t0_0 a * main_v13.ty.shape.size a) = fun _ => 0 := funext fun a => by fin_cases a <;> decide
  exact Memref.read_access_unit_zero (Elt Ideal) main_v13 hz' (fun a => by rw [congrFun hz' a]; simp) (V1 m ρ c main_v13)

theorem whole0_1 (c : Dev nD) : iblk0 (V1 m ρ) c 1 t0_0 = V1 m ρ c main_v15 := by
  have hz' : (fun a => win0_1.index t0_0 a * main_v15.ty.shape.size a) = fun _ => 0 := funext fun a => by fin_cases a <;> decide
  exact Memref.read_access_unit_zero (Elt Ideal) main_v15 hz' (fun a => by rw [congrFun hz' a]; simp) (V1 m ρ c main_v15)

theorem whole0_2 (c : Dev nD) : iblk0 (V1 m ρ) c 2 t0_0 = V1 m ρ c main_v0 := by
  have hz' : (fun a => win0_2.index t0_0 a * main_v0.ty.shape.size a) = fun _ => 0 := funext fun a => by fin_cases a <;> decide
  exact Memref.read_access_unit_zero (Elt Ideal) main_v0 hz' (fun a => by rw [congrFun hz' a]; simp) (V1 m ρ c main_v0)

theorem whole0_3 (c : Dev nD) : iblk0 (V1 m ρ) c 3 t0_0 = V1 m ρ c main_v1 := by
  have hz' : (fun a => win0_3.index t0_0 a * main_v1.ty.shape.size a) = fun _ => 0 := funext fun a => by fin_cases a <;> decide
  exact Memref.read_access_unit_zero (Elt Ideal) main_v1 hz' (fun a => by rw [congrFun hz' a]; simp) (V1 m ρ c main_v1)

theorem whole0_4 (c : Dev nD) : iblk0 (V1 m ρ) c 4 t0_0 = V1 m ρ c main_v10 := by
  have hz' : (fun a => win0_4.index t0_0 a * main_v10.ty.shape.size a) = fun _ => 0 := funext fun a => by fin_cases a <;> decide
  exact Memref.read_access_unit_zero (Elt Ideal) main_v10 hz' (fun a => by rw [congrFun hz' a]; simp) (V1 m ρ c main_v10)

theorem whole0_5 (c : Dev nD) : iblk0 (V1 m ρ) c 5 t0_0 = V1 m ρ c main_v7 := by
  have hz' : (fun a => win0_5.index t0_0 a * main_v7.ty.shape.size a) = fun _ => 0 := funext fun a => by fin_cases a <;> decide
  exact Memref.read_access_unit_zero (Elt Ideal) main_v7 hz' (fun a => by rw [congrFun hz' a]; simp) (V1 m ρ c main_v7)

theorem whole0_6 (c : Dev nD) : iblk0 (V1 m ρ) c 6 t0_0 = V1 m ρ c main_v8 := by
  have hz' : (fun a => win0_6.index t0_0 a * main_v8.ty.shape.size a) = fun _ => 0 := funext fun a => by fin_cases a <;> decide
  exact Memref.read_access_unit_zero (Elt Ideal) main_v8 hz' (fun a => by rw [congrFun hz' a]; simp) (V1 m ρ c main_v8)

theorem whole0_7 (c : Dev nD) : iblk0 (V1 m ρ) c 7 t0_0 = V1 m ρ c main_v11 := by
  have hz' : (fun a => win0_7.index t0_0 a * main_v11.ty.shape.size a) = fun _ => 0 := funext fun a => by fin_cases a <;> decide
  exact Memref.read_access_unit_zero (Elt Ideal) main_v11 hz' (fun a => by rw [congrFun hz' a]; simp) (V1 m ρ c main_v11)

/-- The one point writes back the body's row. -/
theorem flushed0 (c : Dev nD) (t : Fin cfg0.N) (hf : (cfg0.win 8).flush t = true) :
    (dat0 (V1 m ρ) c).flushed 8 t = ((cfg0.win 8).blk t).view.read (Elt Ideal) (biasRow m ρ c) := by
  obtain rfl := fin_N0 t
  show (cfg0.win 8).cut (grid0.coords t0_0) ((dat0 (V1 m ρ) c).after 8 t0_0) = _
  rw [after0_8]
  unfold out0_8
  rw [View.canon_unit_zero zero2]
  simp only [View.ld_unit_zero (S := S1x2048) zero2, View.ld_unit_zero (S := S2048x2048) zero2,
    View.ld_unit_zero (S := S250x2048) zero2, View.ld_unit_zero (S := S1x250) zero2]
  rw [whole0_0, whole0_1, whole0_2, whole0_3, whole0_4, whole0_5, whole0_6, whole0_7]
  have hz' : (fun a => win0_8.index t0_0 a * main_v16.ty.shape.size a) = fun _ => 0 := funext fun a => by fin_cases a <;> decide
  exact (Memref.read_access_unit_zero (Elt Ideal) main_v16 hz' (fun a => by rw [congrFun hz' a]; simp) (biasRow m ρ c)).symm

/-- The row the first kernel leaves is its body's row: the one block covers the whole row. -/
theorem bias_array (c : Dev nD) : (dat0 (V1 m ρ) c).arrAt 8 cfg0.N = biasRow m ρ c :=
  (dat0 (V1 m ρ) c).arrAt_eq_of_cover 8 (biasRow m ρ c) (flushed0 m ρ c) fun i =>
    ⟨t0_0, flush0_8 t0_0, by
      show i ∈ ((View.whole main_v16).slice (win0_8.rect t0_0)).set
      rw [View.set_slice_whole, Rect.mem_set_unit]
      intro a
      have h0 : (i 0 : Nat) < 1 := (i 0).isLt
      have h1 : (i 1 : Nat) < 250 := (i 1).isLt
      match a with
      | ⟨0, _⟩ =>
        show win0_8.index t0_0 0 * win0_8.size 0 ≤ (i 0 : Nat) ∧ (i 0 : Nat) < win0_8.index t0_0 0 * win0_8.size 0 + win0_8.xsize (grid0.coords t0_0) 0
        rw [show win0_8.index t0_0 0 * win0_8.size 0 = 0 from by decide, show win0_8.xsize (grid0.coords t0_0) 0 = 1 from by decide]; omega
      | ⟨1, _⟩ =>
        show win0_8.index t0_0 1 * win0_8.size 1 ≤ (i 1 : Nat) ∧ (i 1 : Nat) < win0_8.index t0_0 1 * win0_8.size 1 + win0_8.xsize (grid0.coords t0_0) 1
        rw [show win0_8.index t0_0 1 * win0_8.size 1 = 0 from by decide, show win0_8.xsize (grid0.coords t0_0) 1 = 250 from by decide]; omega⟩

end Cert.KernelIdeal.Result

end
-- ==== Proof.Region1.lean ====
/-
  What the second kernel leaves.

  Its grid has one point per tile of 512 positions. At point `t` the encoded rows and the mask words it is given are
  rows `512 t … 512 t + 511` of their arrays; the five other operands are whole arrays, the same at every point. What
  the point computes goes to its own part of four arrays: rows `512 t …` of the column of weights, and slot `t` of the
  arrays of maxima, of sums and of rows. No two points write the same place and together they write every place, so
  after the run each array holds, at each place, what the point owning that place computed.
-/
import proofs.«147632_j55284819034614_2_alg».proof.Proof.Boundary
import Idealize.ShloMosaic.Lib.Pipeline.Value
import Idealize.ShloMosaic.Lib.ValueIdx

set_option maxRecDepth 16384

noncomputable section

namespace Cert.KernelIdeal.Result

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem n32 : cfg1.N = 32 := N_1

theorem zero2' : (![0, 0] : Fin 2 → Nat) = fun _ => 0 := funext fun a => by fin_cases a <;> rfl
theorem zero3 : (![0, 0, 0] : Fin 3 → Nat) = fun _ => 0 := funext fun a => by fin_cases a <;> rfl

/-! ## What a point computes, from its seven operand blocks -/

/-- The weights of the point's 512 positions. -/
@[irreducible] def weightsAt (c : Dev nD) (t : Fin cfg1.N) : Vec Ideal S512x1 .f32 :=
  k1_pay7 (F := Ideal) (iblk1 (V3 m ρ) c 0 t) (iblk1 (V3 m ρ) c 2 t) (iblk1 (V3 m ρ) c 3 t) (iblk1 (V3 m ρ) c 4 t)
    (iblk1 (V3 m ρ) c 5 t) (iblk1 (V3 m ρ) c 6 t) (iblk1 (V3 m ρ) c 1 t)

/-- The point's maximum. -/
@[irreducible] def maxAt (c : Dev nD) (t : Fin cfg1.N) : Vec Ideal S1x1x1 .f32 :=
  k1_pay1 (F := Ideal) (k1_pay6 (F := Ideal) (iblk1 (V3 m ρ) c 0 t) (iblk1 (V3 m ρ) c 2 t) (iblk1 (V3 m ρ) c 3 t)
    (iblk1 (V3 m ρ) c 4 t) (iblk1 (V3 m ρ) c 5 t) (iblk1 (V3 m ρ) c 6 t) (iblk1 (V3 m ρ) c 1 t))

/-- The point's sum of weights. -/
@[irreducible] def sumAt (c : Dev nD) (t : Fin cfg1.N) : Vec Ideal S1x1x1 .f32 := k1_pay2 (F := Ideal) (weightsAt m ρ c t)

/-- The point's row: its encoded rows against its weights. -/
@[irreducible] def rowAt (c : Dev nD) (t : Fin cfg1.N) : Vec Ideal S1x1x2048 .f32 :=
  k1_pay3 (F := Ideal) (k1_pay4 (F := Ideal) (iblk1 (V3 m ρ) c 0 t)) (weightsAt m ρ c t)

theorem out7_eq (c : Dev nD) (t : Fin cfg1.N) :
    out1_7 (iblk1 (V3 m ρ) c 0 t) (iblk1 (V3 m ρ) c 1 t) (iblk1 (V3 m ρ) c 2 t) (iblk1 (V3 m ρ) c 3 t)
      (iblk1 (V3 m ρ) c 4 t) (iblk1 (V3 m ρ) c 5 t) (iblk1 (V3 m ρ) c 6 t) = weightsAt m ρ c t := by
  unfold out1_7 weightsAt
  rw [View.canon_unit_zero zero2']
  simp only [View.ld_unit_zero (S := S512x2048) zero2', View.ld_unit_zero (S := S2048x2048) zero2',
    View.ld_unit_zero (S := S250x2048) zero2', View.ld_unit_zero (S := S1x250) zero2', View.ld_unit_zero (S := S1x1) zero2',
    View.ld_unit_zero (S := S512x1) zero2']

theorem out8_eq (c : Dev nD) (t : Fin cfg1.N) :
    out1_8 (iblk1 (V3 m ρ) c 0 t) (iblk1 (V3 m ρ) c 1 t) (iblk1 (V3 m ρ) c 2 t) (iblk1 (V3 m ρ) c 3 t)
      (iblk1 (V3 m ρ) c 4 t) (iblk1 (V3 m ρ) c 5 t) (iblk1 (V3 m ρ) c 6 t) = maxAt m ρ c t := by
  unfold out1_8 maxAt
  rw [View.canon_unit_zero zero3]
  simp only [View.ld_unit_zero (S := S512x2048) zero2', View.ld_unit_zero (S := S2048x2048) zero2',
    View.ld_unit_zero (S := S250x2048) zero2', View.ld_unit_zero (S := S1x250) zero2', View.ld_unit_zero (S := S1x1) zero2',
    View.ld_unit_zero (S := S512x1) zero2']

theorem out9_eq (c : Dev nD) (t : Fin cfg1.N) :
    out1_9 (iblk1 (V3 m ρ) c 0 t) (iblk1 (V3 m ρ) c 1 t) (iblk1 (V3 m ρ) c 2 t) (iblk1 (V3 m ρ) c 3 t)
      (iblk1 (V3 m ρ) c 4 t) (iblk1 (V3 m ρ) c 5 t) (iblk1 (V3 m ρ) c 6 t) = sumAt m ρ c t := by
  unfold out1_9 sumAt weightsAt
  rw [View.canon_unit_zero zero3]
  simp only [View.ld_unit_zero (S := S512x2048) zero2', View.ld_unit_zero (S := S2048x2048) zero2',
    View.ld_unit_zero (S := S250x2048) zero2', View.ld_unit_zero (S := S1x250) zero2', View.ld_unit_zero (S := S1x1) zero2',
    View.ld_unit_zero (S := S512x1) zero2']

theorem out10_eq (c : Dev nD) (t : Fin cfg1.N) :
    out1_10 (iblk1 (V3 m ρ) c 0 t) (iblk1 (V3 m ρ) c 1 t) (iblk1 (V3 m ρ) c 2 t) (iblk1 (V3 m ρ) c 3 t)
      (iblk1 (V3 m ρ) c 4 t) (iblk1 (V3 m ρ) c 5 t) (iblk1 (V3 m ρ) c 6 t) = rowAt m ρ c t := by
  unfold out1_10 rowAt weightsAt
  rw [View.canon_unit_zero zero3]
  simp only [View.ld_unit_zero (S := S512x2048) zero2', View.ld_unit_zero (S := S2048x2048) zero2',
    View.ld_unit_zero (S := S250x2048) zero2', View.ld_unit_zero (S := S1x250) zero2', View.ld_unit_zero (S := S1x1) zero2',
    View.ld_unit_zero (S := S512x1) zero2']

/-! ## The places a point owns -/

/-- The slot of a [32, 1, ·] array an index lies in, as a grid point. -/
def slot {n : Nat} (i : (⟨3, ![32, 1, n]⟩ : Shape).Idx) : Fin cfg1.N := ⟨(i 0).val, by rw [n32]; exact (i 0).isLt⟩

/-- The tile a row of the [16384, 1] column lies in, as a grid point. -/
def tilePt (i : S16384x1.Idx) : Fin cfg1.N := ⟨(i 0).val / 512, by rw [n32]; have h : (i 0 : Nat) < 16384 := (i 0).isLt; omega⟩

/-- A row's place inside its tile. -/
def tileRow (i : S16384x1.Idx) : S512x1.Idx := ix2 ⟨(i 0).val % 512, Nat.mod_lt _ (by decide)⟩ 0

/-- The four arrays: each place holds what the point owning it computed. -/
def weightArr (c : Dev nD) : S16384x1.Idx → EReal := fun i => weightsAt m ρ c (tilePt i) (tileRow i)
def maxArr (c : Dev nD) : S32x1x1.Idx → EReal := fun i => maxAt m ρ c (slot i) (ix3 0 0 0)
def sumArr (c : Dev nD) : S32x1x1.Idx → EReal := fun i => sumAt m ρ c (slot i) (ix3 0 0 0)
def rowArr (c : Dev nD) : S32x1x2048.Idx → EReal := fun i => rowAt m ρ c (slot i) (ix3 0 0 (i 2))

theorem idx7 : ∀ t : Fin grid1.N, win1_7.index t 0 = t.val ∧ win1_7.index t 1 = 0 := by decide
theorem idx8 : ∀ t : Fin grid1.N, win1_8.index t 0 = t.val ∧ win1_8.index t 1 = 0 ∧ win1_8.index t 2 = 0 := by decide
theorem idx9 : ∀ t : Fin grid1.N, win1_9.index t 0 = t.val ∧ win1_9.index t 1 = 0 ∧ win1_9.index t 2 = 0 := by decide
theorem idx10 : ∀ t : Fin grid1.N, win1_10.index t 0 = t.val ∧ win1_10.index t 1 = 0 ∧ win1_10.index t 2 = 0 := by decide

theorem one3 (y : S1x1x1.Idx) : y = ix3 0 0 0 := by
  funext a
  apply Fin.ext
  match a with
  | ⟨0, _⟩ => have h : (y 0 : Nat) < 1 := (y 0).isLt; show (y 0 : Nat) = 0; omega
  | ⟨1, _⟩ => have h : (y 1 : Nat) < 1 := (y 1).isLt; show (y 1 : Nat) = 0; omega
  | ⟨2, _⟩ => have h : (y 2 : Nat) < 1 := (y 2).isLt; show (y 2 : Nat) = 0; omega

/-! ## The array of maxima -/

theorem slot_emb8 (t : Fin cfg1.N) (y : ((cfg1.win 8).xblock (grid1.coords t)).Idx) :
    slot (((cfg1.win 8).blk t).view.emb y) = t := by
  apply Fin.ext
  show ((win1_8.rect t).emb y 0 : Nat) = t.val
  have hy : (y 0 : Nat) < 1 := (y 0).isLt
  rw [win1_8.rect_emb_val t y 0, (idx8 t).1]
  show t.val * 1 + (y 0 : Nat) = t.val
  omega

theorem flushed8 (c : Dev nD) (t : Fin cfg1.N) (hf : (cfg1.win 8).flush t = true) :
    (dat1 (V3 m ρ) c).flushed 8 t = ((cfg1.win 8).blk t).view.read (Elt Ideal) (maxArr m ρ c) := by
  show (cfg1.win 8).cut (grid1.coords t) ((dat1 (V3 m ρ) c).after 8 t) = _
  rw [after1_8, out8_eq]
  funext y
  rw [View.read_apply]
  show maxAt m ρ c t y = maxArr m ρ c (((cfg1.win 8).blk t).view.emb y)
  unfold maxArr
  rw [slot_emb8 t y, one3 y]

/-- After the run, slot `t` of the array of maxima holds point `t`'s maximum. -/
theorem max_array (c : Dev nD) : (dat1 (V3 m ρ) c).arrAt 8 cfg1.N = maxArr m ρ c :=
  (dat1 (V3 m ρ) c).arrAt_eq_of_cover 8 (maxArr m ρ c) (flushed8 m ρ c) fun i =>
    ⟨slot i, flush1_8 (slot i), by
      show i ∈ ((View.whole main_v19_1).slice (win1_8.rect (slot i))).set
      rw [View.set_slice_whole, Rect.mem_set_unit]
      intro a
      have h0 : (i 0 : Nat) < 32 := (i 0).isLt
      have h1 : (i 1 : Nat) < 1 := (i 1).isLt
      have h2 : (i 2 : Nat) < 1 := (i 2).isLt
      have hs : (slot i).val = (i 0).val := rfl
      match a with
      | ⟨0, _⟩ =>
        show win1_8.index (slot i) 0 * 1 ≤ (i 0 : Nat) ∧ (i 0 : Nat) < win1_8.index (slot i) 0 * 1 + 1
        rw [(idx8 (slot i)).1, hs]; omega
      | ⟨1, _⟩ =>
        show win1_8.index (slot i) 1 * 1 ≤ (i 1 : Nat) ∧ (i 1 : Nat) < win1_8.index (slot i) 1 * 1 + 1
        rw [(idx8 (slot i)).2.1]; omega
      | ⟨2, _⟩ =>
        show win1_8.index (slot i) 2 * 1 ≤ (i 2 : Nat) ∧ (i 2 : Nat) < win1_8.index (slot i) 2 * 1 + 1
        rw [(idx8 (slot i)).2.2]; omega⟩

/-! ## The array of sums -/

theorem slot_emb9 (t : Fin cfg1.N) (y : ((cfg1.win 9).xblock (grid1.coords t)).Idx) :
    slot (((cfg1.win 9).blk t).view.emb y) = t := by
  apply Fin.ext
  show ((win1_9.rect t).emb y 0 : Nat) = t.val
  have hy : (y 0 : Nat) < 1 := (y 0).isLt
  rw [win1_9.rect_emb_val t y 0, (idx9 t).1]
  show t.val * 1 + (y 0 : Nat) = t.val
  omega

theorem flushed9 (c : Dev nD) (t : Fin cfg1.N) (hf : (cfg1.win 9).flush t = true) :
    (dat1 (V3 m ρ) c).flushed 9 t = ((cfg1.win 9).blk t).view.read (Elt Ideal) (sumArr m ρ c) := by
  show (cfg1.win 9).cut (grid1.coords t) ((dat1 (V3 m ρ) c).after 9 t) = _
  rw [after1_9, out9_eq]
  funext y
  rw [View.read_apply]
  show sumAt m ρ c t y = sumArr m ρ c (((cfg1.win 9).blk t).view.emb y)
  unfold sumArr
  rw [slot_emb9 t y, one3 y]

/-- After the run, slot `t` of the array of sums holds point `t`'s sum of weights. -/
theorem sum_array (c : Dev nD) : (dat1 (V3 m ρ) c).arrAt 9 cfg1.N = sumArr m ρ c :=
  (dat1 (V3 m ρ) c).arrAt_eq_of_cover 9 (sumArr m ρ c) (flushed9 m ρ c) fun i =>
    ⟨slot i, flush1_9 (slot i), by
      show i ∈ ((View.whole main_v19_2).slice (win1_9.rect (slot i))).set
      rw [View.set_slice_whole, Rect.mem_set_unit]
      intro a
      have h0 : (i 0 : Nat) < 32 := (i 0).isLt
      have h1 : (i 1 : Nat) < 1 := (i 1).isLt
      have h2 : (i 2 : Nat) < 1 := (i 2).isLt
      have hs : (slot i).val = (i 0).val := rfl
      match a with
      | ⟨0, _⟩ =>
        show win1_9.index (slot i) 0 * 1 ≤ (i 0 : Nat) ∧ (i 0 : Nat) < win1_9.index (slot i) 0 * 1 + 1
        rw [(idx9 (slot i)).1, hs]; omega
      | ⟨1, _⟩ =>
        show win1_9.index (slot i) 1 * 1 ≤ (i 1 : Nat) ∧ (i 1 : Nat) < win1_9.index (slot i) 1 * 1 + 1
        rw [(idx9 (slot i)).2.1]; omega
      | ⟨2, _⟩ =>
        show win1_9.index (slot i) 2 * 1 ≤ (i 2 : Nat) ∧ (i 2 : Nat) < win1_9.index (slot i) 2 * 1 + 1
        rw [(idx9 (slot i)).2.2]; omega⟩

/-! ## The array of rows -/

theorem slot_emb10 (t : Fin cfg1.N) (y : ((cfg1.win 10).xblock (grid1.coords t)).Idx) :
    slot (((cfg1.win 10).blk t).view.emb y) = t := by
  apply Fin.ext
  show ((win1_10.rect t).emb y 0 : Nat) = t.val
  have hy : (y 0 : Nat) < 1 := (y 0).isLt
  rw [win1_10.rect_emb_val t y 0, (idx10 t).1]
  show t.val * 1 + (y 0 : Nat) = t.val
  omega

theorem col_emb10 (t : Fin cfg1.N) (y : ((cfg1.win 10).xblock (grid1.coords t)).Idx) :
    ((((cfg1.win 10).blk t).view.emb y) 2 : Nat) = (y 2 : Nat) := by
  show ((win1_10.rect t).emb y 2 : Nat) = (y 2 : Nat)
  rw [win1_10.rect_emb_val t y 2, (idx10 t).2.2]
  omega

theorem flushed10 (c : Dev nD) (t : Fin cfg1.N) (hf : (cfg1.win 10).flush t = true) :
    (dat1 (V3 m ρ) c).flushed 10 t = ((cfg1.win 10).blk t).view.read (Elt Ideal) (rowArr m ρ c) := by
  show (cfg1.win 10).cut (grid1.coords t) ((dat1 (V3 m ρ) c).after 10 t) = _
  rw [after1_10, out10_eq]
  funext y
  rw [View.read_apply]
  show rowAt m ρ c t y = rowArr m ρ c (((cfg1.win 10).blk t).view.emb y)
  unfold rowArr
  rw [slot_emb10 t y]
  refine congrArg (rowAt m ρ c t) (funext fun a => Fin.ext ?_)
  have h0 : (y 0 : Nat) < 1 := (y 0).isLt
  have h1 : (y 1 : Nat) < 1 := (y 1).isLt
  match a with
  | ⟨0, _⟩ => show (y 0 : Nat) = 0; omega
  | ⟨1, _⟩ => show (y 1 : Nat) = 0; omega
  | ⟨2, _⟩ => exact (col_emb10 t y).symm

/-- After the run, slot `t` of the array of rows holds point `t`'s row. -/
theorem row_array (c : Dev nD) : (dat1 (V3 m ρ) c).arrAt 10 cfg1.N = rowArr m ρ c :=
  (dat1 (V3 m ρ) c).arrAt_eq_of_cover 10 (rowArr m ρ c) (flushed10 m ρ c) fun i =>
    ⟨slot i, flush1_10 (slot i), by
      show i ∈ ((View.whole main_v19_3).slice (win1_10.rect (slot i))).set
      rw [View.set_slice_whole, Rect.mem_set_unit]
      intro a
      have h0 : (i 0 : Nat) < 32 := (i 0).isLt
      have h1 : (i 1 : Nat) < 1 := (i 1).isLt
      have h2 : (i 2 : Nat) < 2048 := (i 2).isLt
      have hs : (slot i).val = (i 0).val := rfl
      match a with
      | ⟨0, _⟩ =>
        show win1_10.index (slot i) 0 * 1 ≤ (i 0 : Nat) ∧ (i 0 : Nat) < win1_10.index (slot i) 0 * 1 + 1
        rw [(idx10 (slot i)).1, hs]; omega
      | ⟨1, _⟩ =>
        show win1_10.index (slot i) 1 * 1 ≤ (i 1 : Nat) ∧ (i 1 : Nat) < win1_10.index (slot i) 1 * 1 + 1
        rw [(idx10 (slot i)).2.1]; omega
      | ⟨2, _⟩ =>
        show win1_10.index (slot i) 2 * 2048 ≤ (i 2 : Nat) ∧ (i 2 : Nat) < win1_10.index (slot i) 2 * 2048 + 2048
        rw [(idx10 (slot i)).2.2]; omega⟩

/-! ## The column of weights -/

theorem tilePt_emb7 (t : Fin cfg1.N) (y : ((cfg1.win 7).xblock (grid1.coords t)).Idx) :
    tilePt (((cfg1.win 7).blk t).view.emb y) = t := by
  apply Fin.ext
  have hy : (y 0 : Nat) < 512 := (y 0).isLt
  have he : ((((cfg1.win 7).blk t).view.emb y) 0 : Nat) = t.val * 512 + (y 0 : Nat) := by
    show ((win1_7.rect t).emb y 0 : Nat) = _
    rw [win1_7.rect_emb_val t y 0, (idx7 t).1]
    rfl
  show ((((cfg1.win 7).blk t).view.emb y) 0 : Nat) / 512 = t.val
  rw [he]; omega

theorem tileRow_emb7 (t : Fin cfg1.N) (y : ((cfg1.win 7).xblock (grid1.coords t)).Idx) :
    tileRow (((cfg1.win 7).blk t).view.emb y) = y := by
  have hy0 : (y 0 : Nat) < 512 := (y 0).isLt
  have hy1 : (y 1 : Nat) < 1 := (y 1).isLt
  have he : ((((cfg1.win 7).blk t).view.emb y) 0 : Nat) = t.val * 512 + (y 0 : Nat) := by
    show ((win1_7.rect t).emb y 0 : Nat) = _
    rw [win1_7.rect_emb_val t y 0, (idx7 t).1]
    rfl
  funext a
  apply Fin.ext
  match a with
  | ⟨0, _⟩ =>
    show ((((cfg1.win 7).blk t).view.emb y) 0 : Nat) % 512 = (y 0 : Nat)
    rw [he]; omega
  | ⟨1, _⟩ => show (0 : Nat) = (y 1 : Nat); omega

theorem flushed7 (c : Dev nD) (t : Fin cfg1.N) (hf : (cfg1.win 7).flush t = true) :
    (dat1 (V3 m ρ) c).flushed 7 t = ((cfg1.win 7).blk t).view.read (Elt Ideal) (weightArr m ρ c) := by
  show (cfg1.win 7).cut (grid1.coords t) ((dat1 (V3 m ρ) c).after 7 t) = _
  rw [after1_7, out7_eq]
  funext y
  rw [View.read_apply]
  show weightsAt m ρ c t y = weightArr m ρ c (((cfg1.win 7).blk t).view.emb y)
  unfold weightArr
  rw [tilePt_emb7 t y, tileRow_emb7 t y]

/-- After the run, rows `512 t …` of the column of weights hold point `t`'s weights. -/
theorem weight_array (c : Dev nD) : (dat1 (V3 m ρ) c).arrAt 7 cfg1.N = weightArr m ρ c :=
  (dat1 (V3 m ρ) c).arrAt_eq_of_cover 7 (weightArr m ρ c) (flushed7 m ρ c) fun i =>
    ⟨tilePt i, flush1_7 (tilePt i), by
      show i ∈ ((View.whole main_v19_0).slice (win1_7.rect (tilePt i))).set
      rw [View.set_slice_whole, Rect.mem_set_unit]
      intro a
      have h0 : (i 0 : Nat) < 16384 := (i 0).isLt
      have h1 : (i 1 : Nat) < 1 := (i 1).isLt
      have hs : (tilePt i).val = (i 0).val / 512 := rfl
      match a with
      | ⟨0, _⟩ =>
        show win1_7.index (tilePt i) 0 * 512 ≤ (i 0 : Nat) ∧ (i 0 : Nat) < win1_7.index (tilePt i) 0 * 512 + 512
        rw [(idx7 (tilePt i)).1, hs]; omega
      | ⟨1, _⟩ =>
        show win1_7.index (tilePt i) 1 * 1 ≤ (i 1 : Nat) ∧ (i 1 : Nat) < win1_7.index (tilePt i) 1 * 1 + 1
        rw [(idx7 (tilePt i)).2]; omega⟩

end Cert.KernelIdeal.Result

end
-- ==== Proof.Region1In.lean ====
/-
  What a point of the second kernel is given.

  At the point of tile `t` the block of encoded rows is rows `512 t … 512 t + 511` of the array of encoded rows, all
  2048 columns, and the block of mask words the same rows of the mask column: an entry of a block sits in its array at
  the block's index times the block's extent plus its own coordinate. The other five operands have one block, the whole
  array, at every point.
-/
import proofs.«147632_j55284819034614_2_alg».proof.Proof.Region1

set_option maxRecDepth 16384

noncomputable section

namespace Cert.KernelIdeal.Result

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem idx_in0 : ∀ t : Fin grid1.N, win1_0.index t 0 = t.val ∧ win1_0.index t 1 = 0 := by decide
theorem idx_in1 : ∀ t : Fin grid1.N, win1_1.index t 0 = t.val ∧ win1_1.index t 1 = 0 := by decide

/-- The row of the arrays that position `r` of the tile of point `t` is. -/
def rowAtPt (t : Fin cfg1.N) (r : Fin 512) : Fin 16384 :=
  ⟨512 * t.val + r.val, by have h : t.val < 32 := lt_of_lt_of_eq t.isLt n32; have := r.isLt; omega⟩

/-- The block of encoded rows at point `t`: rows `512 t + r` of the array. -/
theorem enc_block (c : Dev nD) (t : Fin cfg1.N) (r : Fin 512) (e : Fin 2048) :
    (iblk1 (V3 m ρ) c 0 t : Vec Ideal S512x2048 .f32) (ix2 r e)
      = (V3 m ρ c main_v17 : S16384x2048.Idx → EReal) (ix2 (rowAtPt t r) e) := by
  unfold iblk1
  rw [View.read_apply]
  show V3 m ρ c main_v17 _ = V3 m ρ c main_v17 _
  congr 1
  funext a
  apply Fin.ext
  match a with
  | ⟨0, _⟩ => show win1_0.index t 0 * 512 + 1 * r.val = 512 * t.val + r.val; rw [(idx_in0 t).1]; omega
  | ⟨1, _⟩ => show win1_0.index t 1 * 2048 + 1 * e.val = e.val; rw [(idx_in0 t).2]; omega

/-- The block of mask words at point `t`: rows `512 t + r` of the mask column. -/
theorem mask_block (c : Dev nD) (t : Fin cfg1.N) (r : Fin 512) :
    (iblk1 (V3 m ρ) c 1 t : Vec Ideal S512x1 .i32) (ix2 r 0)
      = (V3 m ρ c main_v18 : S16384x1.Idx → BitVec 32) (ix2 (rowAtPt t r) 0) := by
  unfold iblk1
  rw [View.read_apply]
  show V3 m ρ c main_v18 _ = V3 m ρ c main_v18 _
  congr 1
  funext a
  apply Fin.ext
  match a with
  | ⟨0, _⟩ => show win1_1.index t 0 * 512 + 1 * r.val = 512 * t.val + r.val; rw [(idx_in1 t).1]; omega
  | ⟨1, _⟩ => show win1_1.index t 1 * 1 + 1 * (0 : Fin 1).val = (0 : Fin 1).val; rw [(idx_in1 t).2]; rfl

/-! The five operands that are whole arrays at every point. -/

theorem idx_in2 : ∀ t : Fin grid1.N, win1_2.index t 0 = 0 ∧ win1_2.index t 1 = 0 := by decide

theorem whole1_2 (c : Dev nD) (t : Fin cfg1.N) : iblk1 (V3 m ρ) c 2 t = V3 m ρ c main_v2 := by
  have hz' : (fun a => win1_2.index t a * main_v2.ty.shape.size a) = fun _ => 0 := funext fun a => by
    match a with
    | ⟨0, _⟩ => show win1_2.index t 0 * _ = 0; rw [(idx_in2 t).1, Nat.zero_mul]
    | ⟨1, _⟩ => show win1_2.index t 1 * _ = 0; rw [(idx_in2 t).2, Nat.zero_mul]
  exact Memref.read_access_unit_zero (Elt Ideal) main_v2 hz' (fun a => by rw [congrFun hz' a]; simp) (V3 m ρ c main_v2)

theorem idx_in3 : ∀ t : Fin grid1.N, win1_3.index t 0 = 0 ∧ win1_3.index t 1 = 0 := by decide

theorem whole1_3 (c : Dev nD) (t : Fin cfg1.N) : iblk1 (V3 m ρ) c 3 t = V3 m ρ c main_v6 := by
  have hz' : (fun a => win1_3.index t a * main_v6.ty.shape.size a) = fun _ => 0 := funext fun a => by
    match a with
    | ⟨0, _⟩ => show win1_3.index t 0 * _ = 0; rw [(idx_in3 t).1, Nat.zero_mul]
    | ⟨1, _⟩ => show win1_3.index t 1 * _ = 0; rw [(idx_in3 t).2, Nat.zero_mul]
  exact Memref.read_access_unit_zero (Elt Ideal) main_v6 hz' (fun a => by rw [congrFun hz' a]; simp) (V3 m ρ c main_v6)

theorem idx_in4 : ∀ t : Fin grid1.N, win1_4.index t 0 = 0 ∧ win1_4.index t 1 = 0 := by decide

theorem whole1_4 (c : Dev nD) (t : Fin cfg1.N) : iblk1 (V3 m ρ) c 4 t = V3 m ρ c main_v16 := by
  have hz' : (fun a => win1_4.index t a * main_v16.ty.shape.size a) = fun _ => 0 := funext fun a => by
    match a with
    | ⟨0, _⟩ => show win1_4.index t 0 * _ = 0; rw [(idx_in4 t).1, Nat.zero_mul]
    | ⟨1, _⟩ => show win1_4.index t 1 * _ = 0; rw [(idx_in4 t).2, Nat.zero_mul]
  exact Memref.read_access_unit_zero (Elt Ideal) main_v16 hz' (fun a => by rw [congrFun hz' a]; simp) (V3 m ρ c main_v16)

theorem idx_in5 : ∀ t : Fin grid1.N, win1_5.index t 0 = 0 ∧ win1_5.index t 1 = 0 := by decide

theorem whole1_5 (c : Dev nD) (t : Fin cfg1.N) : iblk1 (V3 m ρ) c 5 t = V3 m ρ c main_arg10 := by
  have hz' : (fun a => win1_5.index t a * main_arg10.ty.shape.size a) = fun _ => 0 := funext fun a => by
    match a with
    | ⟨0, _⟩ => show win1_5.index t 0 * _ = 0; rw [(idx_in5 t).1, Nat.zero_mul]
    | ⟨1, _⟩ => show win1_5.index t 1 * _ = 0; rw [(idx_in5 t).2, Nat.zero_mul]
  exact Memref.read_access_unit_zero (Elt Ideal) main_arg10 hz' (fun a => by rw [congrFun hz' a]; simp) (V3 m ρ c main_arg10)

theorem idx_in6 : ∀ t : Fin grid1.N, win1_6.index t 0 = 0 ∧ win1_6.index t 1 = 0 := by decide

theorem whole1_6 (c : Dev nD) (t : Fin cfg1.N) : iblk1 (V3 m ρ) c 6 t = V3 m ρ c main_v9 := by
  have hz' : (fun a => win1_6.index t a * main_v9.ty.shape.size a) = fun _ => 0 := funext fun a => by
    match a with
    | ⟨0, _⟩ => show win1_6.index t 0 * _ = 0; rw [(idx_in6 t).1, Nat.zero_mul]
    | ⟨1, _⟩ => show win1_6.index t 1 * _ = 0; rw [(idx_in6 t).2, Nat.zero_mul]
  exact Memref.read_access_unit_zero (Elt Ideal) main_v9 hz' (fun a => by rw [congrFun hz' a]; simp) (V3 m ρ c main_v9)

end Cert.KernelIdeal.Result

end
-- ==== Proof.LibMaxFold.lean ====
/-
  The maximum folded from -∞ over a finite set is the supremum on the extended reals, and the binary32 word of -∞
  denotes the bottom element.
-/
import Idealize.ShloMosaic.PureOps.Ideal
import Idealize.ShloMosaic.PureOps.Ideal.Laws

namespace Idealize.ShloMosaic.MaxFold

open Idealize.ShloMosaic

/-- The binary32 word `0xFF800000` (-∞) denotes the bottom of the extended reals. -/
theorem negInf : (Ideal.ofBits .f32 0xFF800000#32 : EReal) = ⊥ := by simp [Ideal.ofBits, Ideal.ieee]

/-- Folding `max` from `⊥` over a finite set is the supremum over it. -/
theorem fold_max_eq_sup {ι : Type} (s : Finset ι) (f : ι → EReal) : s.fold max (⊥ : EReal) f = s.sup f := rfl

/-- The same for the maximum of the extended-real float operations, from any initial value that is `⊥`. -/
theorem fold_maximumf_eq_sup {ι : Type} (s : Finset ι) (f : ι → EReal) (init : EReal) (hinit : init = ⊥) :
    Finset.fold (FloatOps.maximumf (F := Ideal) (φ := .f32)) init f s = s.sup f := by
  subst hinit
  rfl

/-- One more maximum with -∞ changes nothing. -/
theorem max_negInf_left (y : EReal) : max (Ideal.ofBits .f32 0xFF800000#32 : EReal) y = y := by
  rw [negInf]; exact max_eq_right bot_le

end Idealize.ShloMosaic.MaxFold
-- ==== Proof.LibKeepdims.lean ====
/-
  A row sum kept as a column, read at an index.

  `jnp.sum(x, axis=-1, keepdims=True)` leaves an [a] vector cast to an [a, 1] column, and adding it to its own
  transpose broadcasts the column along the rows of an [a, b] matrix. Read at an index, the column at (i, u) is
  the vector at i, and the column broadcast along the rows at (p, c) is the column at (p, 0). (The companion
  forms — a row broadcast down the columns, the transpose of a matrix — are in the library's layout lemmas.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.Payloads.lean ====
/-
  The two kernel bodies' arithmetic, read at an index.

  The first body makes, for each hidden unit, the part of the first projection that does not depend on the position: the
  query's row `wq = W_q · s_prev + b_q` and the mention's row `dh = W_info · cur`, each through `tanh` and multiplied
  into its 2048 columns of the projection, the two added and the bias added. The second body, for one tile of 512
  positions: the encoded rows through `W_ctx`, `tanh`, their 2048 columns of the projection plus the first body's
  row, the ramp, the output unit and its bias — a score per position —, minus infinity where the mask word is nonzero;
  then the tile's maximum, each position's weight against it, the tile's sum of weights, and the tile's sum of encoded
  rows against the weights. A change of float format is the identity on the extended reals, a matrix product into a
  zero accumulator is the plain sum of products, and a reduction is the sum or the maximum over its axis.
-/
import proofs.«147632_j55284819034614_2_alg».proof.Proof.Gen.KernelIdeal.Skeleton
import proofs.«147632_j55284819034614_2_alg».proof.Proof.LibMaxFold
import proofs.«147632_j55284819034614_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Payload

open Cert.KernelIdeal Cert.KernelIdeal.Gen Idealize.ShloMosaic Idealize.ShloMosaic.ValueIdx

/-- A one-by-one array broadcast to a column reads its one entry at every place of the column. -/
theorem broadcastTo_11_a1_apply {α : Type} {a : ℕ} (y : (⟨2, ![1, 1]⟩ : Shape).Idx → α)
    (h : (⟨2, ![1, 1]⟩ : Shape).Broadcasts ⟨2, ![a, 1]⟩) (r : Fin a) (u : Fin 1) :
    broadcastTo ⟨2, ![a, 1]⟩ y h (ix2 r u) = y (ix2 (0 : Fin 1) (0 : Fin 1)) :=
  broadcastTo_apply y h (ix2 r u) (ix2 (0 : Fin 1) (0 : Fin 1)) fun ax => by
    match ax with
    | ⟨0, _⟩ => rfl
    | ⟨1, _⟩ => rfl

/-- A sum over the first axis of a two-axis array, read at a column, is the sum of that column's entries. -/
theorem sumAxis0_apply {a b : ℕ} (src : FVec Ideal ⟨2, ![a, b]⟩ .f32) (acc : BitVec (FTy.bits .f32))
    (h : Shape.Reduces ⟨2, ![a, b]⟩ [0] ⟨1, ![b]⟩) (hφ : FKind.Formats .f32) (hacc : acc = FKind.add.neutral .f32 hφ)
    (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src (funext fun ax => ?_)
  match ax with
  | ⟨0, _⟩ => exact Fin.ext rfl
  | ⟨1, _⟩ => exact Fin.ext rfl

/-- A maximum over the first axis of a two-axis array, started from minus infinity and read at a column, is the
    supremum of that column's entries. -/
theorem maxAxis0_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec (FTy.bits .f32)) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src _ h hφ hacc (ix1 c)).trans ?_
  have hl : (src ∘ h.lift (ix1 c)) = fun k : Fin a => src (ix2 k c) :=
    funext fun k => congrArg src (funext fun ax => by
      match ax with
      | ⟨0, _⟩ => exact Fin.ext rfl
      | ⟨1, _⟩ => exact Fin.ext rfl)
  rw [hl]
  show Finset.fold max (Ideal.ofBits .f32 0xFF800000#32) _ _ = _
  rw [MaxFold.negInf]
  exact MaxFold.fold_max_eq_sup _ _

/-- A sum over the second axis of a two-axis array, read at a row, is the sum of that row's entries. -/
theorem sumAxis1_apply {a b : ℕ} (src : FVec Ideal ⟨2, ![a, b]⟩ .f32) (acc : BitVec (FTy.bits .f32))
    (h : Shape.Reduces ⟨2, ![a, b]⟩ [1] ⟨1, ![a]⟩) (hφ : FKind.Formats .f32) (hacc : acc = FKind.add.neutral .f32 hφ)
    (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => ?_)
  match ax with
  | ⟨0, _⟩ => exact Fin.ext rfl
  | ⟨1, _⟩ => exact Fin.ext rfl

/-- A one-row array broadcast down the rows of a matrix reads, at $(i, j)$, the row's entry $j$. -/
theorem broadcastTo_1b_ab_apply {α : Type} {a b : ℕ} (x : (⟨2, ![1, b]⟩ : Shape).Idx → α)
    (h : (⟨2, ![1, b]⟩ : Shape).Broadcasts ⟨2, ![a, b]⟩) (i : Fin a) (j : Fin b) :
    broadcastTo ⟨2, ![a, b]⟩ x h (ix2 i j) = x (ix2 (0 : Fin 1) j) := by
  refine broadcastTo_apply x h (ix2 i j) (ix2 (0 : Fin 1) j) fun ax => ?_
  match ax with
  | ⟨0, _⟩ => rfl
  | ⟨1, _⟩ =>
    show j.val = if b = 1 then 0 else j.val
    split
    · have := j.isLt; omega
    · rfl

/-- The dimension numbers of a product $a \cdot b^{\mathsf T}$: both operands are contracted on their second axis. -/
abbrev abT {m n K : ℕ} (wf : DotDims.WF ⟨2, ![m, K]⟩ ⟨2, ![n, K]⟩ ⟨2, ![m, n]⟩ [1] [1] [0] [0] [] []) :
    DotDims ⟨2, ![m, K]⟩ ⟨2, ![n, K]⟩ ⟨2, ![m, n]⟩ := ⟨[1], [1], [0], [0], [], [], wf⟩

section ABT
variable {m n K : ℕ} (wf : DotDims.WF ⟨2, ![m, K]⟩ ⟨2, ![n, K]⟩ ⟨2, ![m, n]⟩ [1] [1] [0] [0] [] [])

/-- The left operand's row is the result's row. -/
theorem abT_lhs0 (j : (⟨2, ![m, n]⟩ : Shape).Idx) (q : (abT wf).contr.Idx) : ((abT wf).lhsIdx j q 0).val = (j 0).val := by
  unfold DotDims.lhsIdx
  rw [dif_neg (show ¬(0 : Fin (Shape.rank ⟨2, ![m, K]⟩)) ∈ (abT wf).lhsBatch from List.not_mem_nil),
    dif_pos (show (0 : Fin (Shape.rank ⟨2, ![m, K]⟩)) ∈ (abT wf).lhsNonContracting from List.mem_singleton.mpr rfl)]
  rfl

/-- The left operand's column is the contraction position. -/
theorem abT_lhs1 (j : (⟨2, ![m, n]⟩ : Shape).Idx) (q : (abT wf).contr.Idx) :
    ((abT wf).lhsIdx j q 1).val = (q ⟨0, Nat.one_pos⟩).val :=
  (abT wf).lhsIdx_val_of_single rfl j q

/-- The right operand's row is the result's column. -/
theorem abT_rhs0 (j : (⟨2, ![m, n]⟩ : Shape).Idx) (q : (abT wf).contr.Idx) : ((abT wf).rhsIdx j q 0).val = (j 1).val := by
  unfold DotDims.rhsIdx
  rw [dif_neg (show ¬(0 : Fin (Shape.rank ⟨2, ![n, K]⟩)) ∈ (abT wf).rhsBatch from List.not_mem_nil),
    dif_pos (show (0 : Fin (Shape.rank ⟨2, ![n, K]⟩)) ∈ (abT wf).rhsNonContracting from List.mem_singleton.mpr rfl)]
  rfl

/-- The right operand's column is the contraction position. -/
theorem abT_rhs1 (j : (⟨2, ![m, n]⟩ : Shape).Idx) (q : (abT wf).contr.Idx) :
    ((abT wf).rhsIdx j q 1).val = (q ⟨0, Nat.one_pos⟩).val :=
  (abT wf).rhsIdx_val_of_single rfl j q

/-- A product $a \cdot b^{\mathsf T}$ into a zero accumulator, read at $(i, j)$, is $\sum_k a_{ik} b_{jk}$. -/
theorem matmul_abT_apply {φ₁ φ₂ : FTy} (prec : Option ContractPrecision)
    (lhs : FVec Ideal ⟨2, ![m, K]⟩ φ₁) (rhs : FVec Ideal ⟨2, ![n, K]⟩ φ₂) (i : Fin m) (j : Fin n) :
    FloatOps.matmul (abT wf) prec lhs rhs (constant ⟨2, ![m, n]⟩ .f32 0x00000000#32) (ix2 i j)
      = ∑ k : Fin K, lhs (ix2 i k) * rhs (ix2 j k) := by
  rw [Ideal.matmul_constant_zero_apply, ← Equiv.sum_comp (contrEquiv1 (abT wf) K rfl rfl).symm]
  refine Finset.sum_congr rfl fun k _ => ?_
  have hk := contrEquiv1_symm_val (abT wf) K rfl rfl k
  have el : (abT wf).lhsIdx (ix2 i j) ((contrEquiv1 (abT wf) K rfl rfl).symm k) = ix2 i k :=
    funext fun a => Fin.ext (by
      match a with
      | ⟨0, _⟩ => exact abT_lhs0 wf _ _
      | ⟨1, _⟩ => exact (abT_lhs1 wf _ _).trans hk)
  have er : (abT wf).rhsIdx (ix2 i j) ((contrEquiv1 (abT wf) K rfl rfl).symm k) = ix2 j k :=
    funext fun a => Fin.ext (by
      match a with
      | ⟨0, _⟩ => exact abT_rhs0 wf _ _
      | ⟨1, _⟩ => exact (abT_rhs1 wf _ _).trans hk)
  rw [el, er]

end ABT

/-- The first body's first two products, read at an index. -/
theorem mm_1x2048_2048x2048 {φ₁ φ₂ : FTy} (lhs : FVec Ideal S1x2048 φ₁) (rhs : FVec Ideal S2048x2048 φ₂) (i : Fin 1)
    (j : Fin 2048) :
    matmul dot_S1x2048_S2048x2048_S1x2048_1_1_0_0_n_n none lhs rhs (constant S1x2048 .f32 0x00000000#32) (ix2 i j)
      = ∑ k : Fin 2048, lhs (ix2 i k) * rhs (ix2 j k) :=
  matmul_abT_apply _ none lhs rhs i j

/-- The first body's last two products, read at an index. -/
theorem mm_1x2048_250x2048 {φ₁ φ₂ : FTy} (lhs : FVec Ideal S1x2048 φ₁) (rhs : FVec Ideal S250x2048 φ₂) (i : Fin 1)
    (j : Fin 250) :
    matmul dot_S1x2048_S250x2048_S1x250_1_1_0_0_n_n none lhs rhs (constant S1x250 .f32 0x00000000#32) (ix2 i j)
      = ∑ k : Fin 2048, lhs (ix2 i k) * rhs (ix2 j k) :=
  matmul_abT_apply _ none lhs rhs i j

/-- The second body's first product, read at an index. -/
theorem mm_512x2048_2048x2048 {φ₁ φ₂ : FTy} (lhs : FVec Ideal S512x2048 φ₁) (rhs : FVec Ideal S2048x2048 φ₂) (i : Fin 512)
    (j : Fin 2048) :
    matmul dot_S512x2048_S2048x2048_S512x2048_1_1_0_0_n_n none lhs rhs (constant S512x2048 .f32 0x00000000#32) (ix2 i j)
      = ∑ k : Fin 2048, lhs (ix2 i k) * rhs (ix2 j k) :=
  matmul_abT_apply _ none lhs rhs i j

/-- The second body's second product, read at an index. -/
theorem mm_512x2048_250x2048 {φ₁ φ₂ : FTy} (lhs : FVec Ideal S512x2048 φ₁) (rhs : FVec Ideal S250x2048 φ₂) (i : Fin 512)
    (j : Fin 250) :
    matmul dot_S512x2048_S250x2048_S512x250_1_1_0_0_n_n none lhs rhs (constant S512x250 .f32 0x00000000#32) (ix2 i j)
      = ∑ k : Fin 2048, lhs (ix2 i k) * rhs (ix2 j k) :=
  matmul_abT_apply _ none lhs rhs i j

/-- The named fill constant denotes minus infinity. -/
theorem neg_big : Named.named (F := Ideal) κ "neg_big" (φ := .f32) 0xF149F2CA#32 = (⊥ : EReal) := by
  exact IdealRules.named_const.ideal_named_scalar _ _ _ _ rfl

/-- The first body at hidden unit `j`: the query's part plus the mention's part, plus the bias. -/
theorem bias_apply (cur sprev : Vec Ideal S1x2048 .bf16) (winfo wq : Vec Ideal S2048x2048 .bf16) (bq : Vec Ideal S1x2048 .f32)
    (wpw wpd : Vec Ideal S250x2048 .bf16) (bp1 : Vec Ideal S1x250 .f32) (j : Fin 250) :
    k0_pay1 (F := Ideal) cur winfo sprev wq bq wpw wpd bp1 (ix2 0 j)
      = ((∑ k : Fin 2048, Ideal.tanh ((∑ e : Fin 2048, sprev (ix2 0 e) * wq (ix2 k e)) + bq (ix2 0 k)) * wpw (ix2 j k))
          + ∑ k : Fin 2048, Ideal.tanh (∑ e : Fin 2048, cur (ix2 0 e) * winfo (ix2 k e)) * wpd (ix2 j k))
        + bp1 (ix2 0 j) := by
  unfold k0_pay1
  simp only [shapeCast_self]
  rw [addf_apply, addf_apply, mm_1x2048_250x2048, mm_1x2048_250x2048]
  simp only [truncf_apply, tanh, addf_apply, mm_1x2048_2048x2048, Ideal.tanh_def]

/-- The masked score of position `r` of the tile. -/
theorem score_apply (enc : Vec Ideal S512x2048 .f32) (wctx : Vec Ideal S2048x2048 .bf16) (wpu : Vec Ideal S250x2048 .bf16)
    (cb wp2 : Vec Ideal S1x250 .f32) (bp2 : Vec Ideal S1x1 .f32) (mask : Vec Ideal S512x1 .i32) (r : Fin 512) :
    k1_pay5 (F := Ideal) enc wctx wpu cb wp2 bp2 mask (ix2 r 0)
      = Scalar.select (IntOp.cmpi .ne (mask (ix2 r 0)) 0#32) ⊥
          ((∑ j : Fin 250, max ((∑ k : Fin 2048, Ideal.tanh (∑ e : Fin 2048, enc (ix2 r e) * wctx (ix2 k e)) * wpu (ix2 j k))
              + cb (ix2 0 j)) 0 * wp2 (ix2 0 j)) + bp2 (ix2 0 0)) := by
  unfold k1_pay5
  simp only [k1_pay4, shapeCast_self]
  rw [select_apply, broadcast_apply, neg_big, addf_apply, Keepdims.shapeCast_a_a1_apply, broadcastTo_11_a1_apply]
  refine congrArg (Scalar.select (IntOp.cmpi .ne (mask (ix2 r 0)) 0#32) ⊥) (congrArg (· + bp2 (ix2 0 0)) ?_)
  refine (sumAxis1_apply _ _ _ _ _ r).trans ?_
  simp only [broadcast_apply, mulf_apply, maximumf_apply, addf_apply, broadcastTo_1b_ab_apply,
    mm_512x2048_250x2048, mm_512x2048_2048x2048, truncf_apply, tanh, Ideal.tanh_def, Ideal.ofBits_def,
    Ideal.ofBits_zero_f32]

/-- The tile's maximum is the supremum of its masked scores. -/
theorem tileMax_apply (enc : Vec Ideal S512x2048 .f32) (wctx : Vec Ideal S2048x2048 .bf16) (wpu : Vec Ideal S250x2048 .bf16)
    (cb wp2 : Vec Ideal S1x250 .f32) (bp2 : Vec Ideal S1x1 .f32) (mask : Vec Ideal S512x1 .i32) :
    k1_pay6 (F := Ideal) enc wctx wpu cb wp2 bp2 mask (ix2 0 0)
      = Finset.univ.sup fun r : Fin 512 => k1_pay5 (F := Ideal) enc wctx wpu cb wp2 bp2 mask (ix2 r 0) := by
  unfold k1_pay6
  refine (Keepdims.shapeCast_a_a1_apply _ _ 0 0).trans ?_
  exact maxAxis0_apply _ _ _ _ 0

/-- A position's weight against the tile's maximum. -/
theorem tileWeight_apply (enc : Vec Ideal S512x2048 .f32) (wctx : Vec Ideal S2048x2048 .bf16) (wpu : Vec Ideal S250x2048 .bf16)
    (cb wp2 : Vec Ideal S1x250 .f32) (bp2 : Vec Ideal S1x1 .f32) (mask : Vec Ideal S512x1 .i32) (r : Fin 512) :
    k1_pay7 (F := Ideal) enc wctx wpu cb wp2 bp2 mask (ix2 r 0)
      = Ideal.exp (k1_pay5 (F := Ideal) enc wctx wpu cb wp2 bp2 mask (ix2 r 0)
          - k1_pay6 (F := Ideal) enc wctx wpu cb wp2 bp2 mask (ix2 0 0)) := by
  unfold k1_pay7
  show Ideal.exp (k1_pay5 (F := Ideal) enc wctx wpu cb wp2 bp2 mask (ix2 r 0)
      - broadcastTo S512x1 (k1_pay6 (F := Ideal) enc wctx wpu cb wp2 bp2 mask) _ (ix2 r 0)) = _
  rw [broadcastTo_11_a1_apply]

/-- The stored maximum is the tile's maximum, relabelled. -/
theorem maxOut_apply (mx : FVec Ideal S1x1 .f32) : k1_pay1 (F := Ideal) mx (ix3 0 0 0) = mx (ix2 0 0) := by
  unfold k1_pay1
  exact shapeCast_apply mx _ (ix3 0 0 0) (ix2 0 0) (by rw [Shape.rowMajor_val_two, Shape.rowMajor_val_three]; rfl)

/-- The stored sum is the sum of the tile's weights. -/
theorem sumOut_apply (p : FVec Ideal S512x1 .f32) : k1_pay2 (F := Ideal) p (ix3 0 0 0) = ∑ r : Fin 512, p (ix2 r 0) := by
  unfold k1_pay2
  refine (shapeCast_apply _ _ (ix3 0 0 0) (ix2 0 0)
    (by rw [Shape.rowMajor_val_two, Shape.rowMajor_val_three]; rfl)).trans ?_
  refine (Keepdims.shapeCast_a_a1_apply _ _ 0 0).trans ?_
  exact sumAxis0_apply p _ _ _ _ 0

/-- The stored row: the tile's encoded rows summed against its weights, column by column. -/
theorem ctxOut_apply (x : FVec Ideal S512x2048 .f32) (p : FVec Ideal S512x1 .f32) (d : Fin 2048) :
    k1_pay3 (F := Ideal) x p (ix3 0 0 d) = ∑ r : Fin 512, x (ix2 r d) * p (ix2 r 0) := by
  unfold k1_pay3
  refine (shapeCast_apply _ _ (ix3 0 0 d) (ix2 0 d) (by
    rw [Shape.rowMajor_val_two, Shape.rowMajor_val_three]
    show 0 * 2048 + d.val = (0 * 1 + 0) * 2048 + d.val
    omega)).trans ?_
  refine (shapeCast_apply _ _ (ix2 0 d) (ix1 d) (by
    rw [Shape.rowMajor_val_one, Shape.rowMajor_val_two]
    show d.val = 0 * 2048 + d.val
    omega)).trans ?_
  refine (sumAxis0_apply _ _ _ _ _ d).trans ?_
  refine Finset.sum_congr rfl fun k _ => ?_
  rw [mulf_apply, Keepdims.broadcastTo_a1_ab_apply]

/-- The encoded tile is kept as loaded. -/
theorem kept_apply (x : Vec Ideal S512x2048 .f32) : k1_pay4 (F := Ideal) x = x := by
  unfold k1_pay4
  exact shapeCast_self x _

end Cert.KernelIdeal.Payload

end
-- ==== Proof.LibTiledSoftmax.lean ====
/-
  A masked softmax computed tile by tile, on the extended reals.

  Scores `v t r` are indexed by a tile `t` and a position `r` inside the tile; each is either masked (the bottom
  element, minus infinity) or a real number, and at least one is a real number. The plain computation subtracts the
  maximum `M` over all positions, exponentiates (a masked position gets weight 0) and divides by the total `L`, which
  is at least 1. The tiled computation does the same inside each tile against the tile's own maximum `m t` and then
  rescales tile `t` by `exp (m t - M)`: for a tile with a live position, `exp (v - m t) * exp (m t - M) = exp (v - M)`
  by the functional equation of the exponential; a tile that is masked throughout has `m t` at the bottom element,
  every weight in it `exp (⊥ - ⊥) = exp ⊥ = 0`, and scale `exp (⊥ - M) = 0`. So the rescaled totals agree, and since
  every quantity is then a real number and `L ≠ 0`, division distributes over the sums.
-/
import Idealize.ShloMosaic.PureOps.Ideal
import Idealize.ShloMosaic.PureOps.Ideal.Laws

noncomputable section

namespace Cert.TiledSoftmax

open Idealize.ShloMosaic

variable {ι κ : Type} [Fintype ι] [Fintype κ]

/-- A score is masked (the bottom element) or a real number. -/
def MaskedOrReal (x : EReal) : Prop := x = ⊥ ∨ ∃ a : ℝ, x = (a : EReal)

variable (v : ι → κ → EReal)

/-- The maximum of the scores of one tile. -/
def tileMax (t : ι) : EReal := Finset.univ.sup (v t)

/-- The maximum of all scores, as the maximum of the tiles' maxima. -/
def globalMax : EReal := Finset.univ.sup fun t => tileMax v t

/-- A position's weight against its own tile's maximum. -/
def tileWeight (t : ι) (r : κ) : EReal := Ideal.exp (v t r - tileMax v t)

/-- The factor that moves a tile's weights from the tile's maximum to the global one. -/
def tileScale (t : ι) : EReal := Ideal.exp (tileMax v t - globalMax v)

/-- A position's weight against the global maximum. -/
def weight (t : ι) (r : κ) : EReal := Ideal.exp (v t r - globalMax v)

/-- The plain normaliser: the sum of all weights. -/
def total : EReal := ∑ t, ∑ r, weight v t r

/-- The tiled normaliser: each tile's own sum of weights, rescaled, summed over the tiles. -/
def tiledTotal : EReal := ∑ t, tileScale v t * ∑ r, tileWeight v t r

variable {v}

/-- The coercion of the reals into the extended reals commutes with finite sums. -/
theorem coe_sum {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real other than the top element is the bottom element or a real number. -/
theorem maskedOrReal_of_ne_top {x : EReal} (h : x ≠ ⊤) : MaskedOrReal x := by
  induction x with
  | bot => exact Or.inl rfl
  | coe a => exact Or.inr ⟨a, rfl⟩
  | top => exact absurd rfl h

/-- The bottom element and the real numbers all differ from the top element. -/
theorem MaskedOrReal.ne_top {x : EReal} (h : MaskedOrReal x) : x ≠ ⊤ := by
  rcases h with h | ⟨a, h⟩
  · rw [h]; exact bot_ne_top
  · rw [h]; exact EReal.coe_ne_top a

/-- A score is at most the maximum of its tile. -/
theorem le_tileMax (t : ι) (r : κ) : v t r ≤ tileMax v t :=
  Finset.le_sup (f := v t) (Finset.mem_univ r)

/-- A tile's maximum is at most the maximum of all scores. -/
theorem tileMax_le_globalMax (t : ι) : tileMax v t ≤ globalMax v :=
  Finset.le_sup (f := fun t => tileMax v t) (Finset.mem_univ t)

/-- A score is at most the maximum of all scores. -/
theorem le_globalMax (t : ι) (r : κ) : v t r ≤ globalMax v :=
  (le_tileMax t r).trans (tileMax_le_globalMax t)

/-- A finite maximum of values below the top element is below the top element: a tile's maximum is not the top. -/
theorem tileMax_ne_top (hv : ∀ t r, MaskedOrReal (v t r)) (t : ι) : tileMax v t ≠ ⊤ := by
  rw [← lt_top_iff_ne_top, tileMax, Finset.sup_lt_iff bot_lt_top]
  intro r _
  exact lt_top_iff_ne_top.mpr (hv t r).ne_top

/-- The maximum of all scores is not the top element. -/
theorem globalMax_ne_top (hv : ∀ t r, MaskedOrReal (v t r)) : globalMax v ≠ ⊤ := by
  rw [← lt_top_iff_ne_top, globalMax, Finset.sup_lt_iff bot_lt_top]
  intro t _
  exact lt_top_iff_ne_top.mpr (tileMax_ne_top hv t)

/-- The maximum of all scores dominates a score that is a real number, so it is not the bottom element. -/
theorem globalMax_ne_bot (hlive : ∃ t r, v t r ≠ ⊥) : globalMax v ≠ ⊥ := by
  obtain ⟨t, r, h⟩ := hlive
  intro hM
  apply h
  have hle : v t r ≤ globalMax v := le_globalMax t r
  rw [hM] at hle
  exact le_bot_iff.mp hle

/-- For $x \le y$ with $y$ below the top element, $\exp (x - y)$ is a nonnegative real number, and a positive one
    unless $x$ is the bottom element. -/
theorem exp_sub_eq_coe {x y : EReal} (hxy : x ≤ y) (hy : y ≠ ⊤) :
    ∃ e : ℝ, Ideal.exp (x - y) = (e : EReal) ∧ 0 ≤ e ∧ (x ≠ ⊥ → 0 < e) := by
  induction y with
  | bot =>
    have hx : x = ⊥ := le_bot_iff.mp hxy
    subst hx
    exact ⟨0, by rw [EReal.bot_sub, Ideal.exp_bot, EReal.coe_zero], le_refl 0, fun h => absurd rfl h⟩
  | coe m =>
    induction x with
    | bot =>
      exact ⟨0, by rw [EReal.bot_sub, Ideal.exp_bot, EReal.coe_zero], le_refl 0, fun h => absurd rfl h⟩
    | coe a =>
      exact ⟨Real.exp (a - m), by rw [← EReal.coe_sub, Ideal.exp_coe], (Real.exp_pos _).le,
        fun _ => Real.exp_pos _⟩
    | top => exact absurd (top_le_iff.mp hxy) (EReal.coe_ne_top m)
  | top => exact absurd rfl hy

/-- Rescaling a tile weight gives the plain weight, $\exp (v - m) \cdot \exp (m - M) = \exp (v - M)$: the functional
    equation of the exponential when $v$ and $m$ are real, and $0 = 0$ when $v$ is masked. -/
theorem tileWeight_mul_tileScale (hv : ∀ t r, MaskedOrReal (v t r)) (hlive : ∃ t r, v t r ≠ ⊥) (t : ι) (r : κ) :
    tileWeight v t r * tileScale v t = weight v t r := by
  obtain ⟨M', hM⟩ : ∃ M' : ℝ, globalMax v = (M' : EReal) :=
    ⟨_, (EReal.coe_toReal (globalMax_ne_top hv) (globalMax_ne_bot hlive)).symm⟩
  unfold tileWeight tileScale weight
  rw [hM]
  rcases maskedOrReal_of_ne_top (tileMax_ne_top hv t) with hm | ⟨m, hm⟩
  · have hle : v t r ≤ tileMax v t := le_tileMax t r
    rw [hm] at hle
    have hvtr : v t r = ⊥ := le_bot_iff.mp hle
    rw [hm, hvtr]
    simp only [EReal.bot_sub, Ideal.exp_bot, zero_mul]
  · rw [hm]
    rcases hv t r with ha | ⟨a, ha⟩
    · rw [ha]
      simp only [EReal.bot_sub, Ideal.exp_bot, zero_mul]
    · rw [ha, ← EReal.coe_sub, ← EReal.coe_sub, ← EReal.coe_sub, Ideal.exp_coe, Ideal.exp_coe, Ideal.exp_coe,
        ← EReal.coe_mul, ← Real.exp_add, sub_add_sub_cancel]

/-- Every tile weight, tile scale and plain weight is a real number; the real tile weight times the real tile scale is
    the real plain weight; and the real plain weights have a nonzero sum, being nonnegative with a positive one at a
    position whose score is a real number. -/
theorem exists_real_weights (hv : ∀ t r, MaskedOrReal (v t r)) (hlive : ∃ t r, v t r ≠ ⊥) :
    ∃ (p : ι → κ → ℝ) (s : ι → ℝ) (w : ι → κ → ℝ),
      (∀ t r, tileWeight v t r = (p t r : EReal)) ∧ (∀ t, tileScale v t = (s t : EReal)) ∧
      (∀ t r, weight v t r = (w t r : EReal)) ∧ (∀ t r, p t r * s t = w t r) ∧
      (∑ t, ∑ r, w t r) ≠ 0 := by
  have hp : ∀ t r, ∃ e : ℝ, tileWeight v t r = (e : EReal) := fun t r =>
    let ⟨e, he, _⟩ := exp_sub_eq_coe (le_tileMax t r) (tileMax_ne_top hv t)
    ⟨e, he⟩
  have hs : ∀ t, ∃ e : ℝ, tileScale v t = (e : EReal) := fun t =>
    let ⟨e, he, _⟩ := exp_sub_eq_coe (tileMax_le_globalMax t) (globalMax_ne_top hv)
    ⟨e, he⟩
  have hw : ∀ t r, ∃ e : ℝ, weight v t r = (e : EReal) ∧ 0 ≤ e ∧ (v t r ≠ ⊥ → 0 < e) := fun t r =>
    exp_sub_eq_coe (le_globalMax t r) (globalMax_ne_top hv)
  choose p hp using hp
  choose s hs using hs
  choose w hw hw0 hwpos using hw
  refine ⟨p, s, w, hp, hs, hw, ?_, ?_⟩
  · intro t r
    have h := tileWeight_mul_tileScale hv hlive t r
    rw [hp, hs, hw, ← EReal.coe_mul] at h
    exact EReal.coe_eq_coe_iff.mp h
  · obtain ⟨t0, r0, h0⟩ := hlive
    apply ne_of_gt
    calc (0 : ℝ) < w t0 r0 := hwpos t0 r0 h0
      _ ≤ ∑ r, w t0 r := Finset.single_le_sum (f := fun r => w t0 r) (fun r _ => hw0 t0 r) (Finset.mem_univ r0)
      _ ≤ ∑ t, ∑ r, w t r :=
        Finset.single_le_sum (f := fun t => ∑ r, w t r) (fun t _ => Finset.sum_nonneg (fun r _ => hw0 t r))
          (Finset.mem_univ t0)

/-- The tiled normaliser is the plain one: inside each tile the scale moves into the sum, where it turns every tile
    weight into the plain weight. -/
theorem tiledTotal_eq_total (hv : ∀ t r, MaskedOrReal (v t r)) (hlive : ∃ t r, v t r ≠ ⊥) :
    tiledTotal v = total v := by
  obtain ⟨p, s, w, hp, hs, hw, hpsw, _⟩ := exists_real_weights hv hlive
  unfold tiledTotal total
  apply Finset.sum_congr rfl
  intro t _
  simp only [hp, hs, hw]
  rw [← coe_sum, ← coe_sum, ← EReal.coe_mul, Finset.mul_sum, EReal.coe_eq_coe_iff]
  apply Finset.sum_congr rfl
  intro r _
  rw [mul_comm, hpsw]

/-- A rescaled tile weight over the tiled normaliser is the plain weight over the plain normaliser. -/
theorem tiled_weight (hv : ∀ t r, MaskedOrReal (v t r)) (hlive : ∃ t r, v t r ≠ ⊥) (t : ι) (r : κ) :
    Ideal.div (tileWeight v t r * tileScale v t) (tiledTotal v) = Ideal.div (weight v t r) (total v) := by
  rw [tileWeight_mul_tileScale hv hlive, tiledTotal_eq_total hv hlive]

/-- The same for a weighted sum of real numbers `x t r`: summing inside each tile against the tile weights, rescaling,
    summing over tiles and dividing once is the sum of `x` against the normalised plain weights. -/
theorem tiled_weighted_sum (hv : ∀ t r, MaskedOrReal (v t r)) (hlive : ∃ t r, v t r ≠ ⊥)
    (x : ι → κ → EReal) (hx : ∀ t r, ∃ a : ℝ, x t r = (a : EReal)) :
    Ideal.div (∑ t, tileScale v t * ∑ r, x t r * tileWeight v t r) (tiledTotal v)
      = ∑ t, ∑ r, x t r * Ideal.div (weight v t r) (total v) := by
  obtain ⟨p, s, w, hp, hs, hw, hpsw, hL⟩ := exists_real_weights hv hlive
  choose a ha using hx
  have hT : total v = ((∑ t, ∑ r, w t r : ℝ) : EReal) := by
    unfold total
    simp only [hw, ← coe_sum]
  rw [tiledTotal_eq_total hv hlive, hT]
  simp only [Ideal.div_coe hL, hp, hs, hw, ha, ← EReal.coe_mul, ← coe_sum]
  rw [EReal.coe_eq_coe_iff, Finset.sum_mul]
  apply Finset.sum_congr rfl
  intro t _
  rw [Finset.mul_sum, Finset.sum_mul]
  apply Finset.sum_congr rfl
  intro r _
  rw [← hpsw]
  ring

end Cert.TiledSoftmax

end
-- ==== Proof.MaskedAttention.lean ====
/-
  Additive attention over a masked sequence: the function both programs compute.

  From a query `s_prev`, a mention vector `cur`, and an encoded sequence `enc` of 16384 positions of width 2048:
  `dh = W_info · cur`, `wq = W_q · s_prev + b_q`, and for every position `uh s = W_ctx · enc s`. The score of a position
  is a two-layer projection of `tanh [uh s ; wq ; dh]` (width 3 · 2048): a hidden layer of width 250 with a ramp, then
  one output unit. The first layer's product over the 6144 columns is written here as the sum of its three 2048-column
  parts, the two parts that do not depend on the position grouped with the bias. A position whose mask word is nonzero
  has its score replaced by minus infinity. The first result is the softmax of the masked scores, the second the sum of
  the encoded sequence weighted by it. Positions are grouped in 32 tiles of 512 (position `512 t + r`), the grouping
  only naming the same sums and maxima differently.
-/
import proofs.«147632_j55284819034614_2_alg».proof.Proof.LibTiledSoftmax
import Idealize.ShloMosaic.Lib.ValueIdx

noncomputable section

namespace Cert.MaskedAttention

open Idealize.ShloMosaic Idealize.ShloMosaic.ValueIdx Cert.TiledSoftmax

/-- The twelve argument arrays: floats as extended reals, the mask as words. -/
structure Args where
  sprev : (⟨3, ![1, 1, 2048]⟩ : Shape).Idx → EReal
  enc : (⟨3, ![1, 16384, 2048]⟩ : Shape).Idx → EReal
  cur : (⟨3, ![1, 1, 2048]⟩ : Shape).Idx → EReal
  mask : (⟨2, ![1, 16384]⟩ : Shape).Idx → BitVec 32
  winfo : (⟨2, ![2048, 2048]⟩ : Shape).Idx → EReal
  wctx : (⟨2, ![2048, 2048]⟩ : Shape).Idx → EReal
  wq : (⟨2, ![2048, 2048]⟩ : Shape).Idx → EReal
  bq : (⟨1, ![2048]⟩ : Shape).Idx → EReal
  wp1 : (⟨2, ![250, 6144]⟩ : Shape).Idx → EReal
  bp1 : (⟨1, ![250]⟩ : Shape).Idx → EReal
  wp2 : (⟨2, ![1, 250]⟩ : Shape).Idx → EReal
  bp2 : (⟨1, ![1]⟩ : Shape).Idx → EReal

/-- Column `k` of the first, second and third 2048-column part of the 6144 columns. -/
def colU (k : Fin 2048) : Fin 6144 := ⟨k.val, by omega⟩
def colW (k : Fin 2048) : Fin 6144 := ⟨2048 + k.val, by omega⟩
def colD (k : Fin 2048) : Fin 6144 := ⟨4096 + k.val, by omega⟩

/-- Position `r` of tile `t`. -/
def pos (t : Fin 32) (r : Fin 512) : Fin 16384 := ⟨512 * t.val + r.val, by omega⟩

variable (A : Args)

/-- `dh = W_info · cur`. -/
def dh (d : Fin 2048) : EReal := ∑ e : Fin 2048, A.cur (ix3 0 0 e) * A.winfo (ix2 d e)

/-- `wq = W_q · s_prev + b_q`. -/
def wqv (d : Fin 2048) : EReal := (∑ e : Fin 2048, A.sprev (ix3 0 0 e) * A.wq (ix2 d e)) + A.bq (ix1 d)

/-- `uh s = W_ctx · enc s`. -/
def uh (s : Fin 16384) (d : Fin 2048) : EReal := ∑ e : Fin 2048, A.enc (ix3 0 s e) * A.wctx (ix2 d e)

/-- The part of hidden unit `j` that does not depend on the position: the query's and the mention's parts, and the bias. -/
def hiddenBias (j : Fin 250) : EReal :=
  ((∑ k : Fin 2048, Ideal.tanh (wqv A k) * A.wp1 (ix2 j (colW k)))
    + ∑ k : Fin 2048, Ideal.tanh (dh A k) * A.wp1 (ix2 j (colD k))) + A.bp1 (ix1 j)

/-- Hidden unit `j` at position `s`, before the ramp. -/
def hidden (s : Fin 16384) (j : Fin 250) : EReal :=
  (∑ k : Fin 2048, Ideal.tanh (uh A s k) * A.wp1 (ix2 j (colU k))) + hiddenBias A j

/-- The score of position `s`. -/
def score (s : Fin 16384) : EReal :=
  (∑ j : Fin 250, max (hidden A s j) 0 * A.wp2 (ix2 0 j)) + A.bp2 (ix1 0)

/-- The masked score: minus infinity where the mask word is nonzero. -/
def masked (s : Fin 16384) : EReal :=
  Scalar.select (IntOp.cmpi .ne (A.mask (ix2 0 s)) 0#32) ⊥ (score A s)

/-- The masked scores by tile. -/
def tiles (t : Fin 32) (r : Fin 512) : EReal := masked A (pos t r)

/-- The first result: the softmax of the masked scores, at position `r` of tile `t`. -/
def attn (t : Fin 32) (r : Fin 512) : EReal := Ideal.div (weight (tiles A) t r) (total (tiles A))

/-- The second result: the encoded sequence summed against the softmax. -/
def ctx (d : Fin 2048) : EReal := ∑ t : Fin 32, ∑ r : Fin 512, A.enc (ix3 0 (pos t r) d) * attn A t r

end Cert.MaskedAttention

end
-- ==== Proof.Layout.lean ====
/-
  The host's relabelling and narrowing of the arguments, read at an index.

  A reshape keeps the order of the entries, so when the axes dropped or added have extent one an entry keeps its other
  coordinates; a block of columns of the first projection starts at a fixed column.
-/
import proofs.«147632_j55284819034614_2_alg».proof.KernelIdeal
import proofs.«147632_j55284819034614_2_alg».proof.Proof.MaskedAttention
import Idealize.ShloMosaic.Lib.Pipeline.Value
import Idealize.ShloMosaic.Lib.ValueIdx
import Idealize.ShloMosaic.Lib.ValueLayout

noncomputable section

namespace Cert.KernelIdeal.Layout

open Cert.KernelIdeal Idealize.ShloMosaic Idealize.ShloMosaic.ValueIdx Cert.MaskedAttention

variable {α : Type}

theorem row_of_batch (x : S1x1x2048.Idx → α) (h : S1x1x2048.ShapeCasts S1x2048) (e : Fin 2048) :
    shapeCast S1x2048 x h (ix2 0 e) = x (ix3 0 0 e) := by
  refine shapeCast_apply x h (ix2 0 e) (ix3 0 0 e) ?_
  rw [Shape.rowMajor_val_three, Shape.rowMajor_val_two]
  show (0 * 1 + 0) * 2048 + e.val = 0 * 2048 + e.val
  omega

theorem row_of_vec2048 (x : S2048.Idx → α) (h : S2048.ShapeCasts S1x2048) (k : Fin 2048) :
    shapeCast S1x2048 x h (ix2 0 k) = x (ix1 k) := by
  refine shapeCast_apply x h (ix2 0 k) (ix1 k) ?_
  rw [Shape.rowMajor_val_one, Shape.rowMajor_val_two]
  show k.val = 0 * 2048 + k.val
  omega

theorem row_of_vec250 (x : S250.Idx → α) (h : S250.ShapeCasts S1x250) (j : Fin 250) :
    shapeCast S1x250 x h (ix2 0 j) = x (ix1 j) := by
  refine shapeCast_apply x h (ix2 0 j) (ix1 j) ?_
  rw [Shape.rowMajor_val_one, Shape.rowMajor_val_two]
  show j.val = 0 * 250 + j.val
  omega

theorem cell_of_vec1 (x : S1.Idx → α) (h : S1.ShapeCasts S1x1) :
    shapeCast S1x1 x h (ix2 0 0) = x (ix1 0) := by
  refine shapeCast_apply x h (ix2 0 0) (ix1 0) ?_
  rw [Shape.rowMajor_val_one, Shape.rowMajor_val_two]
  rfl

theorem rows_of_batch (x : S1x16384x2048.Idx → α) (h : S1x16384x2048.ShapeCasts S16384x2048) (s : Fin 16384) (e : Fin 2048) :
    shapeCast S16384x2048 x h (ix2 s e) = x (ix3 0 s e) := by
  refine shapeCast_apply x h (ix2 s e) (ix3 0 s e) ?_
  rw [Shape.rowMajor_val_three, Shape.rowMajor_val_two]
  show (0 * 16384 + s.val) * 2048 + e.val = s.val * 2048 + e.val
  omega

theorem column_of_row (x : S1x16384.Idx → α) (h : S1x16384.ShapeCasts S16384x1) (s : Fin 16384) :
    shapeCast S16384x1 x h (ix2 s 0) = x (ix2 0 s) := by
  refine shapeCast_apply x h (ix2 s 0) (ix2 0 s) ?_
  rw [Shape.rowMajor_val_two, Shape.rowMajor_val_two]
  show 0 * 16384 + s.val = s.val * 1 + 0
  omega

theorem colsU_apply (x : S250x6144.Idx → α) (h : S250x6144.Slices ![0, 0] S250x2048) (j : Fin 250) (k : Fin 2048) :
    extractStridedSlice S250x2048 ![0, 0] x h (ix2 j k) = x (ix2 j (colU k)) := by
  refine extractStridedSlice_apply ![0, 0] x h (ix2 j k) (ix2 j (colU k)) fun a => ?_
  match a with
  | ⟨0, _⟩ =>
    show j.val = 0 + j.val
    omega
  | ⟨1, _⟩ =>
    show k.val = 0 + k.val
    omega

theorem colsW_apply (x : S250x6144.Idx → α) (h : S250x6144.Slices ![0, 2048] S250x2048) (j : Fin 250) (k : Fin 2048) :
    extractStridedSlice S250x2048 ![0, 2048] x h (ix2 j k) = x (ix2 j (colW k)) := by
  refine extractStridedSlice_apply ![0, 2048] x h (ix2 j k) (ix2 j (colW k)) fun a => ?_
  match a with
  | ⟨0, _⟩ =>
    show j.val = 0 + j.val
    omega
  | ⟨1, _⟩ =>
    show 2048 + k.val = 2048 + k.val
    rfl

theorem colsD_apply (x : S250x6144.Idx → α) (h : S250x6144.Slices ![0, 4096] S250x2048) (j : Fin 250) (k : Fin 2048) :
    extractStridedSlice S250x2048 ![0, 4096] x h (ix2 j k) = x (ix2 j (colD k)) := by
  refine extractStridedSlice_apply ![0, 4096] x h (ix2 j k) (ix2 j (colD k)) fun a => ?_
  match a with
  | ⟨0, _⟩ =>
    show j.val = 0 + j.val
    omega
  | ⟨1, _⟩ =>
    show 4096 + k.val = 4096 + k.val
    rfl

end Cert.KernelIdeal.Layout

end
-- ==== Proof.Tiling.lean ====
/-
  Renaming the positions and the columns.

  A position `s` below 16384 is position `s % 512` of tile `s / 512`, so a sum or a maximum over the positions is the
  sum or maximum over the tiles of the sum or maximum inside each tile. An index of a one-axis array is its one
  coordinate. A column below 6144 lies in exactly one of the three consecutive parts of 2048 columns, so a sum over the
  columns is the sum of the three parts' sums.
-/
import proofs.«147632_j55284819034614_2_alg».proof.Proof.MaskedAttention

noncomputable section

namespace Cert.MaskedAttention

open Idealize.ShloMosaic Idealize.ShloMosaic.ValueIdx

/-- The tile a position lies in. -/
def tileOf (s : Fin 16384) : Fin 32 := ⟨s.val / 512, by have := s.isLt; omega⟩

/-- A position's place inside its tile. -/
def rowOf (s : Fin 16384) : Fin 512 := ⟨s.val % 512, Nat.mod_lt _ (by decide)⟩

/-- A position is its place in its tile. -/
theorem pos_tileOf_rowOf (s : Fin 16384) : pos (tileOf s) (rowOf s) = s := by
  apply Fin.ext
  simp only [pos, tileOf, rowOf]
  omega

/-- The tile and the place of position `r` of tile `t`. -/
theorem tileOf_pos (t : Fin 32) (r : Fin 512) : tileOf (pos t r) = t := by
  apply Fin.ext
  have := r.isLt
  simp only [pos, tileOf]
  omega

theorem rowOf_pos (t : Fin 32) (r : Fin 512) : rowOf (pos t r) = r := by
  apply Fin.ext
  have := r.isLt
  simp only [pos, rowOf]
  omega

/-- A sum over the positions, tile by tile. -/
theorem sum_pos {M : Type*} [AddCommMonoid M] (f : Fin 16384 → M) :
    ∑ s, f s = ∑ t : Fin 32, ∑ r : Fin 512, f (pos t r) := by
  let e : Fin 32 × Fin 512 ≃ Fin 16384 :=
    ⟨fun p => pos p.1 p.2, fun s => (tileOf s, rowOf s),
      fun p => Prod.ext (tileOf_pos p.1 p.2) (rowOf_pos p.1 p.2), pos_tileOf_rowOf⟩
  rw [← Equiv.sum_comp e f, Fintype.sum_prod_type]
  rfl

/-- A maximum over the positions, tile by tile. -/
theorem sup_pos (f : Fin 16384 → EReal) :
    Finset.univ.sup f = Finset.univ.sup fun t : Fin 32 => Finset.univ.sup fun r : Fin 512 => f (pos t r) := by
  apply le_antisymm
  · apply Finset.sup_le
    intro s _
    rw [← pos_tileOf_rowOf s]
    exact le_trans
      (Finset.le_sup (f := fun r : Fin 512 => f (pos (tileOf s) r)) (Finset.mem_univ (rowOf s)))
      (Finset.le_sup (f := fun t : Fin 32 => Finset.univ.sup fun r : Fin 512 => f (pos t r))
        (Finset.mem_univ (tileOf s)))
  · apply Finset.sup_le
    intro t _
    apply Finset.sup_le
    intro r _
    exact Finset.le_sup (f := f) (Finset.mem_univ (pos t r))

/-- A sum over the indices of a one-axis array is the sum over its coordinate. -/
theorem sum_idx1 {M : Type*} [AddCommMonoid M] {n : ℕ} (g : (⟨1, ![n]⟩ : Shape).Idx → M) :
    ∑ j, g j = ∑ s : Fin n, g (ix1 s) := by
  let e : (⟨1, ![n]⟩ : Shape).Idx ≃ Fin n :=
    ⟨fun j => j 0, fun s => ix1 s, fun j => (eq_ix1 j).symm, fun _ => rfl⟩
  rw [← Equiv.sum_comp e.symm g]
  rfl

/-- A sum over the 6144 columns is the sum of its three parts of 2048 columns. -/
theorem sum_cols {M : Type*} [AddCommMonoid M] (f : Fin 6144 → M) :
    ∑ k, f k = (∑ k : Fin 2048, f (colU k)) + ((∑ k : Fin 2048, f (colW k)) + ∑ k : Fin 2048, f (colD k)) := by
  have h1 : ∑ k : Fin 6144, f k
      = (∑ i : Fin 2048, f (Fin.castAdd (2048 + 2048) i)) + ∑ i : Fin (2048 + 2048), f (Fin.natAdd 2048 i) :=
    Fin.sum_univ_add (a := 2048) (b := 2048 + 2048) (fun i => f i)
  have h2 : ∑ i : Fin (2048 + 2048), f (Fin.natAdd 2048 i)
      = (∑ i : Fin 2048, f (Fin.natAdd 2048 (Fin.castAdd 2048 i)))
        + ∑ i : Fin 2048, f (Fin.natAdd 2048 (Fin.natAdd 2048 i)) :=
    Fin.sum_univ_add (a := 2048) (b := 2048) (fun i => f (Fin.natAdd 2048 i))
  have hU : ∀ k : Fin 2048, (Fin.castAdd (2048 + 2048) k : Fin 6144) = colU k := fun k => Fin.ext rfl
  have hW : ∀ k : Fin 2048, (Fin.natAdd 2048 (Fin.castAdd 2048 k) : Fin 6144) = colW k := fun k => Fin.ext rfl
  have hD : ∀ k : Fin 2048, (Fin.natAdd 2048 (Fin.natAdd 2048 k) : Fin 6144) = colD k := fun k => by
    apply Fin.ext
    simp only [Fin.val_natAdd, colD]
    omega
  rw [h1, h2]
  simp only [hU, hW, hD]

end Cert.MaskedAttention

end
-- ==== Proof.KernelScore.lean ====
/-
  The kernels' scores are the specification's.

  The row the first kernel leaves is, at hidden unit `j`, the part of the first projection that does not depend on the
  position: its operands are the arguments relabelled and the second and third blocks of columns of the projection. The
  column of masked scores a point of the second kernel computes is, at row `r` of tile `t`, the masked score of
  position `512 t + r`: the encoded rows it is given are rows `512 t …` of the argument, the first block of columns of
  the projection completes the hidden layer with the first kernel's row, and the mask words are those of the same rows.
-/
import proofs.«147632_j55284819034614_2_alg».proof.Proof.Region0
import proofs.«147632_j55284819034614_2_alg».proof.Proof.Region1In
import proofs.«147632_j55284819034614_2_alg».proof.Proof.Payloads
import proofs.«147632_j55284819034614_2_alg».proof.Proof.Layout
import proofs.«147632_j55284819034614_2_alg».proof.Proof.Tiling

set_option maxRecDepth 16384

noncomputable section

namespace Cert.KernelIdeal.Result

open Idealize.ShloMosaic Idealize.ShloMosaic.TcCoe Idealize.SL.Sem Idealize.ShloMosaic.ValueIdx
open Cert.KernelIdeal Cert.KernelIdeal.Gen Cert.MaskedAttention

variable (m : (ℓ : Loc nD τ sig) → Buf (Elt Ideal) ℓ) (ρ : Dev nD → PrngReg)

/-- The program's twelve arguments on core `c` as the specification's record. -/
abbrev args (c : Dev nD) : Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10), m ((c.tc : Thread nD τ).loc main_arg11)⟩

/-- The grid point of tile `t`. -/
def pt (t : Fin 32) : Fin cfg1.N := ⟨t.val, lt_of_lt_of_eq t.isLt n32.symm⟩

theorem rowAtPt_pt (t : Fin 32) (r : Fin 512) : rowAtPt (pt t) r = pos t r := Fin.ext rfl

/-- The first kernel's row at hidden unit `j` is the position-independent part of that unit. -/
theorem bias_value (c : Dev nD) (j : Fin 250) : biasRow m ρ c (ix2 0 j) = hiddenBias (args m c) j := by
  have e13 : (V1 m ρ c main_v13 : S1x2048.Idx → EReal) = _ := in0_cur m ρ c
  have e15 : (V1 m ρ c main_v15 : S1x2048.Idx → EReal) = _ := in0_sprev m ρ c
  have e0 : (V1 m ρ c main_v0 : S2048x2048.Idx → EReal) = _ := in0_winfo m ρ c
  have e1 : (V1 m ρ c main_v1 : S2048x2048.Idx → EReal) = _ := in0_wq m ρ c
  have e10 : (V1 m ρ c main_v10 : S1x2048.Idx → EReal) = _ := in0_bq m ρ c
  have e7 : (V1 m ρ c main_v7 : S250x2048.Idx → EReal) = _ := in0_wpw m ρ c
  have e8 : (V1 m ρ c main_v8 : S250x2048.Idx → EReal) = _ := in0_wpd m ρ c
  have e11 : (V1 m ρ c main_v11 : S1x250.Idx → EReal) = _ := in0_bp1 m ρ c
  unfold biasRow
  rw [e13, e15, e0, e1, e10, e7, e8, e11, Payload.bias_apply]
  simp only [Layout.row_of_batch, Layout.row_of_vec2048, Layout.row_of_vec250, Layout.colsW_apply, Layout.colsD_apply]
  rfl

/-- The masked score a point computes at row `r` of tile `t` is the masked score of position `512 t + r`. -/
theorem score_value (c : Dev nD) (t : Fin 32) (r : Fin 512) :
    k1_pay5 (F := Ideal) (iblk1 (V3 m ρ) c 0 (pt t)) (iblk1 (V3 m ρ) c 2 (pt t)) (iblk1 (V3 m ρ) c 3 (pt t))
      (iblk1 (V3 m ρ) c 4 (pt t)) (iblk1 (V3 m ρ) c 5 (pt t)) (iblk1 (V3 m ρ) c 6 (pt t)) (iblk1 (V3 m ρ) c 1 (pt t)) (ix2 r 0)
      = masked (args m c) (pos t r) := by
  have e17 : (V3 m ρ c main_v17 : S16384x2048.Idx → EReal) = _ := in1_enc m ρ c
  have e18 : (V3 m ρ c main_v18 : S16384x1.Idx → BitVec 32) = _ := in1_mask m ρ c
  have e2 : (V3 m ρ c main_v2 : S2048x2048.Idx → EReal) = _ := in1_wctx m ρ c
  have e6 : (V3 m ρ c main_v6 : S250x2048.Idx → EReal) = _ := in1_wpu m ρ c
  have e16 : (V3 m ρ c main_v16 : S1x250.Idx → EReal) = biasRow m ρ c := (in1_bias m ρ c).trans (bias_array m ρ c)
  have e10 : (V3 m ρ c main_arg10 : S1x250.Idx → EReal) = _ := in1_wp2 m ρ c
  have e9 : (V3 m ρ c main_v9 : S1x1.Idx → EReal) = _ := in1_bp2 m ρ c
  rw [whole1_2, whole1_3, whole1_4, whole1_5, whole1_6, e2, e6, e16, e10, e9, Payload.score_apply]
  simp only [enc_block, mask_block, rowAtPt_pt, e17, e18, bias_value, Layout.rows_of_batch, Layout.column_of_row,
    Layout.colsU_apply, Layout.cell_of_vec1]
  rfl

end Cert.KernelIdeal.Result

end
-- ==== Proof.KernelTiles.lean ====
/-
  What the second kernel leaves, in the specification's terms.

  At the point of tile `t`: the maximum it stores is the supremum of the tile's masked scores, the weight of position
  `r` is `exp` of its masked score minus that maximum, the sum it stores is the sum of the tile's weights, and the row it
  stores is, column by column, the tile's encoded rows summed against its weights. Read at position `512 t + r` or at
  slot `t`, the four arrays the kernel leaves hold exactly these.
-/
import proofs.«147632_j55284819034614_2_alg».proof.Proof.KernelScore

set_option maxRecDepth 16384

noncomputable section

namespace Cert.KernelIdeal.Result

open Idealize.ShloMosaic Idealize.ShloMosaic.TcCoe Idealize.SL.Sem Idealize.ShloMosaic.ValueIdx
open Cert.KernelIdeal Cert.KernelIdeal.Gen Cert.MaskedAttention Cert.TiledSoftmax

variable (m : (ℓ : Loc nD τ sig) → Buf (Elt Ideal) ℓ) (ρ : Dev nD → PrngReg)

/-- The point's maximum is the supremum of the tile's masked scores. -/
theorem tileMax_value (c : Dev nD) (t : Fin 32) :
    k1_pay6 (F := Ideal) (iblk1 (V3 m ρ) c 0 (pt t)) (iblk1 (V3 m ρ) c 2 (pt t)) (iblk1 (V3 m ρ) c 3 (pt t)) (iblk1 (V3 m ρ) c 4 (pt t)) (iblk1 (V3 m ρ) c 5 (pt t)) (iblk1 (V3 m ρ) c 6 (pt t)) (iblk1 (V3 m ρ) c 1 (pt t)) (ix2 0 0) = tileMax (tiles (args m c)) t := by
  rw [Payload.tileMax_apply]
  unfold tileMax tiles
  simp only [score_value]

/-- The point's weight of position `r`. -/
theorem weight_value (c : Dev nD) (t : Fin 32) (r : Fin 512) :
    weightsAt m ρ c (pt t) (ix2 r 0) = tileWeight (tiles (args m c)) t r := by
  unfold weightsAt
  rw [Payload.tileWeight_apply, score_value, tileMax_value]
  rfl

/-- The maximum the point stores. -/
theorem max_value (c : Dev nD) (t : Fin 32) : maxAt m ρ c (pt t) (ix3 0 0 0) = tileMax (tiles (args m c)) t := by
  unfold maxAt
  rw [Payload.maxOut_apply, tileMax_value]

/-- The sum the point stores. -/
theorem sum_value (c : Dev nD) (t : Fin 32) :
    sumAt m ρ c (pt t) (ix3 0 0 0) = ∑ r : Fin 512, tileWeight (tiles (args m c)) t r := by
  unfold sumAt
  rw [Payload.sumOut_apply]
  simp only [weight_value]

/-- The row the point stores, at column `d`. -/
theorem row_value (c : Dev nD) (t : Fin 32) (d : Fin 2048) :
    rowAt m ρ c (pt t) (ix3 0 0 d)
      = ∑ r : Fin 512, (args m c).enc (ix3 0 (pos t r) d) * tileWeight (tiles (args m c)) t r := by
  have e17 : (V3 m ρ c main_v17 : S16384x2048.Idx → EReal) = _ := in1_enc m ρ c
  unfold rowAt
  rw [Payload.ctxOut_apply, Payload.kept_apply]
  simp only [weight_value, enc_block, rowAtPt_pt, e17, Layout.rows_of_batch]

/-! ## The four arrays, read -/

theorem weightArr_at (c : Dev nD) (t : Fin 32) (r : Fin 512) :
    weightArr m ρ c (ix2 (pos t r) 0) = tileWeight (tiles (args m c)) t r := by
  have h1 : tilePt (ix2 (pos t r) 0) = pt t := Fin.ext (by
    have := r.isLt
    show (512 * t.val + r.val) / 512 = t.val
    omega)
  have h2 : tileRow (ix2 (pos t r) 0) = ix2 r 0 := by
    unfold tileRow
    refine congrArg (fun x => ix2 x (0 : Fin 1)) (Fin.ext ?_)
    have := r.isLt
    show (512 * t.val + r.val) % 512 = r.val
    omega
  unfold weightArr
  rw [h1, h2, weight_value]

theorem maxArr_at (c : Dev nD) (t : Fin 32) : maxArr m ρ c (ix3 t 0 0) = tileMax (tiles (args m c)) t := by
  unfold maxArr
  rw [show slot (ix3 t (0 : Fin 1) (0 : Fin 1)) = pt t from Fin.ext rfl, max_value]

theorem sumArr_at (c : Dev nD) (t : Fin 32) :
    sumArr m ρ c (ix3 t 0 0) = ∑ r : Fin 512, tileWeight (tiles (args m c)) t r := by
  unfold sumArr
  rw [show slot (ix3 t (0 : Fin 1) (0 : Fin 1)) = pt t from Fin.ext rfl, sum_value]

theorem rowArr_at (c : Dev nD) (t : Fin 32) (d : Fin 2048) :
    rowArr m ρ c (ix3 t 0 d)
      = ∑ r : Fin 512, (args m c).enc (ix3 0 (pos t r) d) * tileWeight (tiles (args m c)) t r := by
  unfold rowArr
  rw [show slot (ix3 t (0 : Fin 1) d) = pt t from Fin.ext rfl]
  exact row_value m ρ c t d

end Cert.KernelIdeal.Result

end
-- ==== Proof.Combine.lean ====
/-
  The host's combine of the tiles, as one function of what the second kernel leaves.

  From the tiles' maxima `m t`, sums `l t`, rows `c t` and weights `p (t, r)`: the global maximum `M` is the maximum of
  the `m t` from minus infinity; tile `t`'s factor is `exp (m t - M)`; the total is the sum over the tiles of factor
  times `l t`; the first result is each weight times its tile's factor over the total, the second the sum over the
  tiles of factor times row over the total. Where every mask word is nonzero both are replaced by a constant.
-/
import proofs.«147632_j55284819034614_2_alg».proof.Proof.Gen.KernelIdeal.Frame
import Idealize.ShloMosaic.Lib.StableHlo.Run
import Idealize.ShloMosaic.Lib.Tactic

set_option maxRecDepth 16384

noncomputable section

namespace Cert.KernelIdeal.Result

open Idealize.ShloMosaic Idealize.ShloMosaic.TcCoe Idealize.ShloMosaic.Tactic Idealize.SL.Sem
open Cert.KernelIdeal Cert.KernelIdeal.Gen

/-- The tiles' maxima, sums, rows and weights, relabelled by tile. -/
def tileMaxes (mo : FVec Ideal S32x1x1 .f32) : FVec Ideal S32 .f32 := shapeCast S32 mo shapeCasts_S32x1x1_S32
def tileSums (lo : FVec Ideal S32x1x1 .f32) : FVec Ideal S32 .f32 := shapeCast S32 lo shapeCasts_S32x1x1_S32
def tileRows (co : FVec Ideal S32x1x2048 .f32) : FVec Ideal S32x2048 .f32 := shapeCast S32x2048 co shapeCasts_S32x1x2048_S32x2048
def tileWeights (po : FVec Ideal S16384x1 .f32) : FVec Ideal S32x512 .f32 := shapeCast S32x512 po shapeCasts_S16384x1_S32x512

/-- The global maximum: the maximum of the tiles' maxima, from minus infinity. -/
def maxAll (mo : FVec Ideal S32x1x1 .f32) : FVec Ideal S_ .f32 :=
  Host.reduce FloatOps.maximumf (tileMaxes mo) (constant (F := Ideal) S_ .f32 0xFF800000#32) reducesTo_S32_S_d0 h_S_

/-- Each tile's factor `exp (m t - M)`. -/
def scales (mo : FVec Ideal S32x1x1 .f32) : FVec Ideal S32 .f32 :=
  Host.exp (subf (tileMaxes mo) (broadcastInDim S32 ![] bcast_S_S32 (maxAll mo)))

/-- The total: the tiles' sums, each times its tile's factor, added from zero. -/
def totalSum (mo lo : FVec Ideal S32x1x1 .f32) : FVec Ideal S_ .f32 :=
  Host.reduceAdd (mulf (scales mo) (tileSums lo)) (constant (F := Ideal) S_ .f32 0x00000000#32) reducesTo_S32_S_d0 h_S_

/-- The weighted row: the tiles' rows, each times its tile's factor, added from zero, over the total. -/
def ctxRow (mo lo : FVec Ideal S32x1x1 .f32) (co : FVec Ideal S32x1x2048 .f32) : FVec Ideal S1x2048 .f32 :=
  shapeCast S1x2048
    (Host.divf
      (Host.reduceAdd
        (mulf (broadcastInDim S32x2048 ![0, 1] bcast_S32x1_S32x2048_0_1 (broadcastInDim S32x1 ![0] bcast_S32_S32x1_0 (scales mo))) (tileRows co))
        (constant (F := Ideal) S_ .f32 0x00000000#32) reducesTo_S32x2048_S2048_d0 h_S_)
      (broadcastInDim S2048 ![] bcast_S_S2048 (totalSum mo lo)))
    shapeCasts_S2048_S1x2048

/-- The normalised weights: each weight times its tile's factor, over the total. -/
def attnVec (po : FVec Ideal S16384x1 .f32) (mo lo : FVec Ideal S32x1x1 .f32) : FVec Ideal S16384 .f32 :=
  shapeCast S16384
    (Host.divf
      (mulf (tileWeights po) (broadcastInDim S32x512 ![0, 1] bcast_S32x1_S32x512_0_1 (broadcastInDim S32x1 ![0] bcast_S32_S32x1_0 (scales mo))))
      (broadcastInDim S32x512 ![] bcast_S_S32x512 (totalSum mo lo)))
    shapeCasts_S32x512_S16384

/-- The bit "every mask word is nonzero". -/
def allMasked (mk : IVec S16384x1 32) : IVec S_ 1 :=
  Host.reduce IntOp.andi
    (cmpi .ne (shapeCast S16384 mk shapeCasts_S16384x1_S16384) (broadcastInDim S16384 ![] bcast_S_S16384 (constantI S_ 32 0#32)))
    (constantI S_ 1 1#1) reducesTo_S16384_S_d0 h_S_

/-- The first result as the host leaves it. -/
def result0 (po : FVec Ideal S16384x1 .f32) (mo lo : FVec Ideal S32x1x1 .f32) (mk : IVec S16384x1 32) : FVec Ideal S16384 .f32 :=
  select (broadcastInDim S16384 ![] bcast_S_S16384 (allMasked mk))
    (broadcastInDim S16384 ![] bcast_S_S16384 (constant (F := Ideal) S_ .f32 0x7FC00000#32)) (attnVec po mo lo)

/-- The second result as the host leaves it. -/
def result1 (mo lo : FVec Ideal S32x1x1 .f32) (co : FVec Ideal S32x1x2048 .f32) (mk : IVec S16384x1 32) : FVec Ideal S1x2048 .f32 :=
  select (broadcastInDim S1x2048 ![] bcast_S_S1x2048 (allMasked mk))
    (broadcastInDim S1x2048 ![] bcast_S_S1x2048 (constant (F := Ideal) S_ .f32 0x7FC00000#32)) (ctxRow mo lo co)

variable (m : (ℓ : Loc nD τ sig) → Buf (Elt Ideal) ℓ) (ρ : Dev nD → PrngReg)

variable (V : Valuation τ sig (Elt Ideal))

/-! ## The long stretch, from any contents `V` of the buffers before it -/

theorem stretch_weights : (StableHlo.after hostOps2 V (Proc.devRef .tc main_v42) : S16384.Idx → EReal)
    = attnVec (V (Proc.devRef .tc main_v19_0)) (V (Proc.devRef .tc main_v19_1)) (V (Proc.devRef .tc main_v19_2)) := by
  dsimp only [hostOps2]
  after_results_simp
  all_goals rfl

theorem stretch_row : (StableHlo.after hostOps2 V (Proc.devRef .tc main_v36) : S1x2048.Idx → EReal)
    = ctxRow (V (Proc.devRef .tc main_v19_1)) (V (Proc.devRef .tc main_v19_2)) (V (Proc.devRef .tc main_v19_3)) := by
  dsimp only [hostOps2]
  after_results_simp
  all_goals rfl

theorem stretch_allMasked : (StableHlo.after hostOps2 V (Proc.devRef .tc main_v46) : S_.Idx → BitVec 1)
    = allMasked (V (Proc.devRef .tc main_v18)) := by
  dsimp only [hostOps2]
  after_results_simp
  all_goals rfl

theorem stretch_fill : (StableHlo.after hostOps2 V (Proc.devRef .tc main_v47) : S16384.Idx → EReal)
    = broadcastInDim S16384 ![] bcast_S_S16384 (constant (F := Ideal) S_ .f32 0x7FC00000#32) := by
  dsimp only [hostOps2]
  after_results_simp
  all_goals rfl

/-! ## The three short stretches, from any contents `V` -/

theorem s1_select : (StableHlo.after hostOps2_1 V (Proc.devRef .tc main_v48) : S16384.Idx → EReal)
    = select (broadcastInDim S16384 ![] bcast_S_S16384 (V (Proc.devRef .tc main_v46)))
        (V (Proc.devRef .tc main_v47)) (V (Proc.devRef .tc main_v42)) := by
  dsimp only [hostOps2_1]; after_results; all_goals rfl
theorem s1_keep46 : (StableHlo.after hostOps2_1 V (Proc.devRef .tc main_v46) : S_.Idx → BitVec 1) = V (Proc.devRef .tc main_v46) := by
  dsimp only [hostOps2_1]; after_results; all_goals rfl
theorem s1_keep36 : (StableHlo.after hostOps2_1 V (Proc.devRef .tc main_v36) : S1x2048.Idx → EReal) = V (Proc.devRef .tc main_v36) := by
  dsimp only [hostOps2_1]; after_results; all_goals rfl

theorem s2_fill : (StableHlo.after hostOps2_2 V (Proc.devRef .tc main_v49) : S1x2048.Idx → EReal)
    = broadcastInDim S1x2048 ![] bcast_S_S1x2048 (constant (F := Ideal) S_ .f32 0x7FC00000#32) := by
  dsimp only [hostOps2_2]; after_results; all_goals rfl
theorem s2_keep48 : (StableHlo.after hostOps2_2 V (Proc.devRef .tc main_v48) : S16384.Idx → EReal) = V (Proc.devRef .tc main_v48) := by
  dsimp only [hostOps2_2]; after_results; all_goals rfl
theorem s2_keep46 : (StableHlo.after hostOps2_2 V (Proc.devRef .tc main_v46) : S_.Idx → BitVec 1) = V (Proc.devRef .tc main_v46) := by
  dsimp only [hostOps2_2]; after_results; all_goals rfl
theorem s2_keep36 : (StableHlo.after hostOps2_2 V (Proc.devRef .tc main_v36) : S1x2048.Idx → EReal) = V (Proc.devRef .tc main_v36) := by
  dsimp only [hostOps2_2]; after_results; all_goals rfl

theorem s3_select : (StableHlo.after hostOps2_3 V (Proc.devRef .tc main_v50) : S1x2048.Idx → EReal)
    = select (broadcastInDim S1x2048 ![] bcast_S_S1x2048 (V (Proc.devRef .tc main_v46)))
        (V (Proc.devRef .tc main_v49)) (V (Proc.devRef .tc main_v36)) := by
  dsimp only [hostOps2_3]; after_results; all_goals rfl
theorem s3_keep48 : (StableHlo.after hostOps2_3 V (Proc.devRef .tc main_v48) : S16384.Idx → EReal) = V (Proc.devRef .tc main_v48) := by
  dsimp only [hostOps2_3]; after_results; all_goals rfl

/-! ## All four stretches in a row, from any contents `V` -/

/-- The first result after the four stretches. -/
theorem tail_attn : (StableHlo.after hostOps2_3 (StableHlo.after hostOps2_2 (StableHlo.after hostOps2_1 (StableHlo.after hostOps2 V)))
      (Proc.devRef .tc main_v48) : S16384.Idx → EReal)
    = result0 (V (Proc.devRef .tc main_v19_0)) (V (Proc.devRef .tc main_v19_1)) (V (Proc.devRef .tc main_v19_2)) (V (Proc.devRef .tc main_v18)) := by
  rw [s3_keep48, s2_keep48, s1_select, stretch_allMasked, stretch_fill, stretch_weights]
  rfl

/-- The second result after the four stretches. -/
theorem tail_ctx : (StableHlo.after hostOps2_3 (StableHlo.after hostOps2_2 (StableHlo.after hostOps2_1 (StableHlo.after hostOps2 V)))
      (Proc.devRef .tc main_v50) : S1x2048.Idx → EReal)
    = result1 (V (Proc.devRef .tc main_v19_1)) (V (Proc.devRef .tc main_v19_2)) (V (Proc.devRef .tc main_v19_3)) (V (Proc.devRef .tc main_v18)) := by
  rw [s3_select, s2_keep46, s2_fill, s2_keep36, s1_keep46, s1_keep36, stretch_allMasked, stretch_row]
  rfl

/-! ## Both results at the end of the run -/

/-- The first result buffer at the end is the combine of what the second kernel leaves. -/
theorem out_attn (c : Dev nD) : (W8 m ρ c (Proc.devRef .tc main_v48) : S16384.Idx → EReal)
    = result0 (W4 m ρ c (Proc.devRef .tc main_v19_0)) (W4 m ρ c (Proc.devRef .tc main_v19_1))
        (W4 m ρ c (Proc.devRef .tc main_v19_2)) (W4 m ρ c (Proc.devRef .tc main_v18)) :=
  tail_attn (W4 m ρ c)

/-- The second result buffer at the end is the combine of what the second kernel leaves. -/
theorem out_ctx (c : Dev nD) : (W8 m ρ c (Proc.devRef .tc main_v50) : S1x2048.Idx → EReal)
    = result1 (W4 m ρ c (Proc.devRef .tc main_v19_1)) (W4 m ρ c (Proc.devRef .tc main_v19_2))
        (W4 m ρ c (Proc.devRef .tc main_v19_3)) (W4 m ρ c (Proc.devRef .tc main_v18)) :=
  tail_ctx (W4 m ρ c)

end Cert.KernelIdeal.Result

end
-- ==== Proof.CombineRead.lean ====
/-
  The host's combine of the tiles, read at an index.

  The global maximum is the supremum of the tiles' maxima; tile `t`'s factor is `exp (m t - M)`; the total is the sum
  over the tiles of factor times the tile's sum. The first result at position `r` of tile `t` is that position's
  weight times the tile's factor over the total; the second at column `d` is the sum over the tiles of factor times
  the tile's row at `d`, over the total. When some mask word is zero the bit "every mask word is nonzero" is not 1 and
  the two results are those, not the constant.
-/
import proofs.«147632_j55284819034614_2_alg».proof.Proof.Combine
import proofs.«147632_j55284819034614_2_alg».proof.Proof.Tiling
import proofs.«147632_j55284819034614_2_alg».proof.Proof.LibMaxFold
import Idealize.ShloMosaic.Lib.ReduceAll
import Idealize.ShloMosaic.Lib.Pipeline.Value
import Idealize.ShloMosaic.PureOps.Ideal.Laws

noncomputable section

namespace Cert.KernelIdeal.Result

open Cert.KernelIdeal Idealize.ShloMosaic Idealize.ShloMosaic.ValueIdx Cert.MaskedAttention

/-- Tile `t`'s factor, from the array of maxima. -/
def scaleOf (mo : FVec Ideal S32x1x1 .f32) (t : Fin 32) : EReal :=
  Ideal.exp (mo (ix3 t 0 0) - Finset.univ.sup fun t' : Fin 32 => mo (ix3 t' 0 0))

/-- The total, from the arrays of maxima and of sums. -/
def totOf (mo lo : FVec Ideal S32x1x1 .f32) : EReal := ∑ t : Fin 32, scaleOf mo t * lo (ix3 t 0 0)

/-! ## The relabellings by tile, read at an index -/

/-- The array of maxima relabelled by tile, at tile `t`. -/
theorem tileMaxes_at (mo : FVec Ideal S32x1x1 .f32) (t : Fin 32) : tileMaxes mo (ix1 t) = mo (ix3 t 0 0) := by
  unfold tileMaxes
  exact shapeCast_apply mo _ (ix1 t) (ix3 t 0 0)
    (by rewrite [Shape.rowMajor_val_three, Shape.rowMajor_val_one]; show (t.val * 1 + 0) * 1 + 0 = t.val; omega)

/-- The array of sums relabelled by tile, at tile `t`. -/
theorem tileSums_at (lo : FVec Ideal S32x1x1 .f32) (t : Fin 32) : tileSums lo (ix1 t) = lo (ix3 t 0 0) := by
  unfold tileSums
  exact shapeCast_apply lo _ (ix1 t) (ix3 t 0 0)
    (by rewrite [Shape.rowMajor_val_three, Shape.rowMajor_val_one]; show (t.val * 1 + 0) * 1 + 0 = t.val; omega)

/-- The array of rows relabelled by tile, at tile `t` and column `d`. -/
theorem tileRows_at (co : FVec Ideal S32x1x2048 .f32) (t : Fin 32) (d : Fin 2048) :
    tileRows co (ix2 t d) = co (ix3 t 0 d) := by
  unfold tileRows
  exact shapeCast_apply co _ (ix2 t d) (ix3 t 0 d)
    (by rewrite [Shape.rowMajor_val_three, Shape.rowMajor_val_two]; show (t.val * 1 + 0) * 2048 + d.val = t.val * 2048 + d.val; omega)

/-- The weights relabelled by tile: position `r` of tile `t` is position `512 t + r`. -/
theorem tileWeights_at (po : FVec Ideal S16384x1 .f32) (t : Fin 32) (r : Fin 512) :
    tileWeights po (ix2 t r) = po (ix2 (pos t r) 0) := by
  unfold tileWeights
  exact shapeCast_apply po _ (ix2 t r) (ix2 (pos t r) 0)
    (by rewrite [Shape.rowMajor_val_two, Shape.rowMajor_val_two]; show (512 * t.val + r.val) * 1 + 0 = t.val * 512 + r.val; omega)

/-- An array over the tiles laid over a second axis: at row `t`, any column, its entry at `t`. -/
theorem bcastRows_at {n : ℕ} (x : FVec Ideal S32 .f32) (h2 : S32.BroadcastsInDim S32x1 ![0])
    (h1 : S32x1.BroadcastsInDim ⟨2, ![32, n]⟩ ![0, 1]) (t : Fin 32) (c : Fin n) :
    broadcastInDim ⟨2, ![32, n]⟩ ![0, 1] h1 (broadcastInDim S32x1 ![0] h2 x) (ix2 t c) = x (ix1 t) := by
  unfold broadcastInDim
  exact congrArg x (funext fun a => Fin.ext (by match a with | ⟨0, _⟩ => rfl))

/-! ## The maximum, the factors and the total -/

/-- A maximum over the indices of a one-axis array is the maximum over its coordinate. -/
theorem sup_idx1 {n : ℕ} (g : (⟨1, ![n]⟩ : Shape).Idx → EReal) :
    Finset.univ.sup g = Finset.univ.sup fun s : Fin n => g (ix1 s) := by
  apply le_antisymm
  · apply Finset.sup_le
    intro i _
    rw [eq_ix1 i]
    exact Finset.le_sup (f := fun s : Fin n => g (ix1 s)) (Finset.mem_univ (i 0))
  · apply Finset.sup_le
    intro s _
    exact Finset.le_sup (f := g) (Finset.mem_univ (ix1 s))

/-- The global maximum is the supremum of the tiles' maxima: every tile reduces into the one entry of the result,
    and the fold of the maximum from minus infinity is the supremum. -/
theorem maxAll_at (mo : FVec Ideal S32x1x1 .f32) (j : S_.Idx) :
    maxAll mo j = Finset.univ.sup fun t' : Fin 32 => mo (ix3 t' 0 0) := by
  unfold maxAll
  rw [Host.reduce_eq_fold, Finset.filter_true_of_mem fun i _ => funext fun b => b.elim0]
  refine (MaxFold.fold_maximumf_eq_sup _ _ _ MaxFold.negInf).trans ?_
  rw [sup_idx1]
  simp only [tileMaxes_at]

/-- Tile `t`'s factor is the exponential of its maximum less the global one. -/
theorem scales_at (mo : FVec Ideal S32x1x1 .f32) (t : Fin 32) : scales mo (ix1 t) = scaleOf mo t := by
  show Ideal.exp (tileMaxes mo (ix1 t) - maxAll mo _) = _
  rw [tileMaxes_at, maxAll_at]
  rfl

/-- The total is the sum over the tiles of factor times the tile's sum, from zero. -/
theorem totalSum_at (mo lo : FVec Ideal S32x1x1 .f32) (j : S_.Idx) : totalSum mo lo j = totOf mo lo := by
  have e : totalSum mo lo j
      = Ideal.ofBits .f32 0x00000000#32 + ∑ i : S32.Idx, mulf (scales mo) (tileSums lo) i := by
    unfold totalSum
    simp only [Host.reduceAdd, Ideal.hostReduceAdd_def]
    exact Ideal.hostReduceAdd_total _ (fun b => b.elim0) _ _ j
  rw [e, Ideal.ofBits_zero_f32, zero_add, sum_idx1]
  refine Finset.sum_congr rfl fun t _ => ?_
  show scales mo (ix1 t) * tileSums lo (ix1 t) = _
  rw [scales_at, tileSums_at]

/-- The host's sum over the tiles of a `[32, 2048]` array from zero, at column `d`. -/
theorem reduceRows_at (M : FVec Ideal S32x2048 .f32) (h' : S32x2048.ReducesTo [0] S2048) (hS : 0 < S_.numel)
    (d : Fin 2048) :
    Host.reduceAdd M (constant (F := Ideal) S_ .f32 0x00000000#32) h' hS (ix1 d) = ∑ t : Fin 32, M (ix2 t d) := by
  have hR : S32x2048.Reduces [0] S2048 := by decide
  have hz : constant (F := Ideal) S_ .f32 0x00000000#32 (Shape.Idx.first hS) = (0 : EReal) := Ideal.ofBits_zero_f32
  simp only [Host.reduceAdd, Ideal.hostReduceAdd_def]
  rw [Ideal.hostReduceAdd_single h' hR, hz, zero_add]
  exact Finset.sum_congr rfl fun k _ => congrArg M (funext fun a => Fin.ext (by
    match a with | ⟨0, _⟩ => rfl | ⟨1, _⟩ => rfl))

/-! ## The bit "every mask word is nonzero" -/

/-- With some mask word zero, the and-reduction of "this word is nonzero" over all words is not 1. -/
theorem allMasked_ne_one (mk : IVec S16384x1 32) (h : ∃ s : Fin 16384, mk (ix2 s 0) = 0#32) (j : S_.Idx) :
    allMasked mk j ≠ 1#1 := by
  intro e
  obtain ⟨s, hs⟩ := h
  unfold allMasked at e
  have hi := Host.reduce_andi_eq_one _ _ _ _ j e (ix1 s) (funext fun b => b.elim0)
  have hne := IntOp.cmpi_ne.1 hi
  rw [shapeCast_apply mk _ (ix1 s) (ix2 s 0)
    (by rewrite [Shape.rowMajor_val_two, Shape.rowMajor_val_one]; show s.val * 1 + 0 = s.val; omega)] at hne
  exact hne hs

/-- A select on a bit that is not 1, the bit laid over a shape, gives the third operand at every index. -/
theorem select_bcast_of_ne_one {s : Shape} (c : IVec S_ 1) (hc : ∀ j, c j ≠ 1#1) (hb : S_.BroadcastsInDim s ![])
    (a b : s.Idx → EReal) (i : s.Idx) : select (broadcastInDim s ![] hb c) a b i = b i := by
  show Scalar.select (c _) (a i) (b i) = b i
  exact if_neg (hc _)

/-! ## The two results -/

theorem attnVec_apply (po : FVec Ideal S16384x1 .f32) (mo lo : FVec Ideal S32x1x1 .f32) (t : Fin 32) (r : Fin 512) :
    attnVec po mo lo (ix1 (pos t r)) = Ideal.div (po (ix2 (pos t r) 0) * scaleOf mo t) (totOf mo lo) := by
  unfold attnVec
  rw [shapeCast_apply _ _ (ix1 (pos t r)) (ix2 t r)
    (by rewrite [Shape.rowMajor_val_two, Shape.rowMajor_val_one]; show t.val * 512 + r.val = 512 * t.val + r.val; omega)]
  show Ideal.div (tileWeights po (ix2 t r)
      * broadcastInDim S32x512 ![0, 1] _ (broadcastInDim S32x1 ![0] _ (scales mo)) (ix2 t r)) (totalSum mo lo _) = _
  rw [tileWeights_at, bcastRows_at, scales_at, totalSum_at]

theorem ctxRow_apply (mo lo : FVec Ideal S32x1x1 .f32) (co : FVec Ideal S32x1x2048 .f32) (d : Fin 2048) :
    ctxRow mo lo co (ix2 0 d) = Ideal.div (∑ t : Fin 32, scaleOf mo t * co (ix3 t 0 d)) (totOf mo lo) := by
  unfold ctxRow
  rw [shapeCast_apply _ _ (ix2 0 d) (ix1 d)
    (by rewrite [Shape.rowMajor_val_one, Shape.rowMajor_val_two]; show d.val = 0 * 2048 + d.val; omega)]
  show Ideal.div (Host.reduceAdd (F := Ideal) (φ := .f32) _ _ _ _ (ix1 d)) (totalSum mo lo _) = _
  rw [reduceRows_at, totalSum_at]
  congr 1
  refine Finset.sum_congr rfl fun t _ => ?_
  show broadcastInDim S32x2048 ![0, 1] _ (broadcastInDim S32x1 ![0] _ (scales mo)) (ix2 t d) * tileRows co (ix2 t d) = _
  rw [bcastRows_at, scales_at, tileRows_at]

/-- With some mask word zero, the first result is the normalised weights. -/
theorem result0_apply (po : FVec Ideal S16384x1 .f32) (mo lo : FVec Ideal S32x1x1 .f32) (mk : IVec S16384x1 32)
    (h : ∃ s : Fin 16384, mk (ix2 s 0) = 0#32) (i : S16384.Idx) : result0 po mo lo mk i = attnVec po mo lo i := by
  unfold result0
  exact select_bcast_of_ne_one (allMasked mk) (allMasked_ne_one mk h) _ _ _ i

/-- With some mask word zero, the second result is the weighted row. -/
theorem result1_apply (mo lo : FVec Ideal S32x1x1 .f32) (co : FVec Ideal S32x1x2048 .f32) (mk : IVec S16384x1 32)
    (h : ∃ s : Fin 16384, mk (ix2 s 0) = 0#32) (i : S1x2048.Idx) : result1 mo lo co mk i = ctxRow mo lo co i := by
  unfold result1
  exact select_bcast_of_ne_one (allMasked mk) (allMasked_ne_one mk h) _ _ _ i

end Cert.KernelIdeal.Result

end
-- ==== Proof.LibFinite.lean ====
/-
  Arrays of real numbers at the exact extended reals.

  At the ideal instance a float is an extended real, and the laws that move a factor across a sum, cancel a term or
  expand a square hold only where no infinity is involved. An input assumed finite is an array of real numbers; this
  file carries that property through a program: an extended real that IS a real number (`IsReal`), an array all of
  whose entries are (`RealValued`), and the closure of both under what the two kinds of program do —

  * the arithmetic: sums, differences, products, negation, maximum and minimum; a quotient by a nonzero real; the
    reciprocal square root of a positive real; finite sums;
  * every operation that only MOVES entries (its result at an index is an operand's entry at some index): reshapes,
    broadcasts, slices, transposes, gathers at any dimension numbers, concatenations, selects;
  * every operation that ADDS UP entries: a contraction into a real accumulator (`tpu.matmul`) or from zero (the host's
    `dot_general`), a kernel's add-reduction and the host's from a real initial value over any axes, and the host's
    accumulating scatter at any dimension numbers (each entry: the operand's plus finitely many updates);

  and the way in: an extended real whose absolute value is below +∞ is a real number, and an array `x` of which a
  precondition says `all (|x| < +∞)` — the comparison against the +∞ word and-reduced over every axis to one bit that
  is 1 — is real-valued (`realValued_of_all_abs_lt_inf`).
-/
import Idealize.ShloMosaic.PureOps.Ideal.Laws
import Idealize.ShloMosaic.Lib.ValueIdx
import Idealize.ShloMosaic.Lib.ReduceAll

noncomputable section

namespace Cert.LibFinite

open Idealize.ShloMosaic

/-! ## One extended real -/

/-- The extended real is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

/-- An extended real that is neither infinity is a real number. -/
theorem isReal_of_ne {x : EReal} (ht : x ≠ ⊤) (hb : x ≠ ⊥) : IsReal x :=
  ⟨x.toReal, (EReal.coe_toReal ht hb).symm⟩

/-- The way in: an extended real whose absolute value `max x (−x)` is below +∞ is a real number. -/
theorem isReal_of_abs_lt_top {x : EReal} (h : max x (-x) < ⊤) : IsReal x := by
  refine isReal_of_ne (fun e => ?_) (fun e => ?_)
  · subst e; simp at h
  · subst e; simp at h

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A quotient by a nonzero real number is a real number. -/
theorem IsReal.div_coe {x : EReal} (hx : IsReal x) {y : ℝ} (hy : y ≠ 0) : IsReal (Ideal.div x (y : EReal)) := by
  rw [Ideal.div_coe hy]; exact hx.mul (isReal_coe _)

/-- The reciprocal square root of a positive real number is a real number. -/
theorem isReal_rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- The reciprocal square root of `max x floor` for a real `x` and a positive real floor is a real number (the
    degree normalization of a graph layer: `rsqrt (max deg 1e-12)`). -/
theorem isReal_rsqrt_max_floor {x : EReal} (hx : IsReal x) {fl : ℝ} (hfl : 0 < fl) :
    IsReal (Ideal.rsqrt (max x (fl : EReal))) := by
  obtain ⟨a, rfl⟩ := hx
  have e : max (a : EReal) (fl : EReal) = ((max a fl : ℝ) : EReal) := (EReal.coe_strictMono.monotone.map_max).symm
  rw [e]
  exact isReal_rsqrt_of_pos (lt_max_of_lt_right hfl)

/-! ## Arrays -/

/-- Every entry of the array is a real number. -/
def RealValued {ι : Type*} (v : ι → EReal) : Prop := ∀ i, IsReal (v i)

/-- Real witnesses for a real-valued array. -/
theorem RealValued.exists_real {ι : Type*} {v : ι → EReal} (h : RealValued v) : ∃ r : ι → ℝ, ∀ i, v i = (r i : EReal) :=
  ⟨fun i => (h i).choose, fun i => (h i).choose_spec⟩

/-- An operation that only moves entries keeps the array real-valued. -/
theorem RealValued.comp {ι κ : Type*} {v : ι → EReal} (h : RealValued v) (f : κ → ι) : RealValued fun j => v (f j) :=
  fun j => h (f j)

variable {s t : Shape} {φ : FTy}

/-! ### The arithmetic, entry by entry -/

theorem RealValued.addf {a b : FVec Ideal s φ} (ha : RealValued a) (hb : RealValued b) : RealValued (addf a b) :=
  fun i => (ha i).add (hb i)
theorem RealValued.subf {a b : FVec Ideal s φ} (ha : RealValued a) (hb : RealValued b) : RealValued (subf a b) :=
  fun i => (ha i).sub (hb i)
theorem RealValued.mulf {a b : FVec Ideal s φ} (ha : RealValued a) (hb : RealValued b) : RealValued (mulf a b) :=
  fun i => (ha i).mul (hb i)
theorem RealValued.negf {a : FVec Ideal s φ} (ha : RealValued a) : RealValued (negf a) :=
  fun i => (ha i).neg
theorem RealValued.maximumf {a b : FVec Ideal s φ} (ha : RealValued a) (hb : RealValued b) : RealValued (maximumf a b) :=
  fun i => (ha i).max (hb i)
theorem RealValued.minimumf {a b : FVec Ideal s φ} (ha : RealValued a) (hb : RealValued b) : RealValued (minimumf a b) :=
  fun i => (ha i).min (hb i)

/-- A splat of a word that denotes a real number. -/
theorem realValued_constant {w : BitVec φ.bits} (hw : IsReal (Ideal.ofBits φ w)) : RealValued (constant (F := Ideal) s φ w) :=
  fun _ => hw

/-- The host's quotient by an array every entry of which is one nonzero real number. -/
theorem RealValued.hostDivf_const {a b : FVec Ideal s φ} (ha : RealValued a) {y : ℝ} (hy : y ≠ 0) (hb : ∀ i, b i = (y : EReal)) :
    RealValued (Host.divf a b) :=
  fun i => by show IsReal (Ideal.div (a i) (b i)); rw [hb i]; exact (ha i).div_coe hy

/-- A select between two real-valued arrays. -/
theorem RealValued.select {c : IVec s 1} {a b : s.Idx → EReal} (ha : RealValued a) (hb : RealValued b) :
    RealValued (select c a b) := fun i => by
  show IsReal (Scalar.select (c i) (a i) (b i))
  unfold Scalar.select
  split
  · exact ha i
  · exact hb i

/-! ### Operations that move entries -/

theorem RealValued.shapeCast {x : s.Idx → EReal} (hx : RealValued x) (h : s.ShapeCasts t) : RealValued (shapeCast t x h) :=
  fun _ => hx _
theorem RealValued.broadcastTo {x : s.Idx → EReal} (hx : RealValued x) (h : s.Broadcasts t) : RealValued (broadcastTo t x h) :=
  fun _ => hx _
theorem RealValued.broadcastInDim {x : s.Idx → EReal} (hx : RealValued x) (dims : Fin s.rank → Fin t.rank)
    (h : s.BroadcastsInDim t dims) : RealValued (broadcastInDim t dims h x) :=
  fun _ => hx _
theorem RealValued.extractStridedSlice {x : s.Idx → EReal} (hx : RealValued x) (off : Fin s.rank → Nat) (h : s.Slices off t) :
    RealValued (extractStridedSlice t off x h) :=
  fun _ => hx _
theorem RealValued.transpose {x : s.Idx → EReal} (hx : RealValued x) (perm : List (Fin s.rank)) (h : s.Transposes perm t) :
    RealValued (transpose t perm x h) :=
  fun _ => hx _

/-- A gather at any dimension numbers: every result entry is an operand entry. -/
theorem RealValued.gather {si : Shape} {w : ℕ} {x : s.Idx → EReal} (hx : RealValued x) (d : GatherDims s si t) (idx : IVec si w) :
    RealValued (Host.gather d x idx) :=
  fun _ => hx _

/-- A concatenation of any number of arrays along any axis: every result entry is an entry of one of them. -/
theorem realValued_concatenate (a : Fin t.rank) (xs : List ((s : Shape) × (s.Idx → EReal)))
    (hall : ∀ p ∈ xs, RealValued p.2) (h : Shape.Concatenates (xs.map (·.1)) t a) :
    RealValued (concatenate t a xs h) := by
  intro j
  unfold concatenate
  dsimp only
  exact hall _ (List.getElem_mem _) _

/-! ### Operations that add entries up -/

/-- A contraction into a real-valued accumulator. -/
theorem RealValued.matmul {sl sr so : Shape} {φ₁ φ₂ : FTy} (d : DotDims sl sr so) (prec : Option ContractPrecision)
    {lhs : FVec Ideal sl φ₁} {rhs : FVec Ideal sr φ₂} {acc : FVec Ideal so .f32}
    (hl : RealValued lhs) (hr : RealValued rhs) (ha : RealValued acc) : RealValued (matmul d prec lhs rhs acc) :=
  fun j => by
    show IsReal (FloatOps.matmul d prec lhs rhs acc j)
    rw [Ideal.matmul_apply]
    exact (ha j).add (isReal_sum _ _ fun k _ => (hl _).mul (hr _))

/-- A contraction into the zero accumulator. -/
theorem RealValued.matmul_zero {sl sr so : Shape} {φ₁ φ₂ : FTy} (d : DotDims sl sr so) (prec : Option ContractPrecision)
    {lhs : FVec Ideal sl φ₁} {rhs : FVec Ideal sr φ₂} (hl : RealValued lhs) (hr : RealValued rhs) :
    RealValued (Idealize.ShloMosaic.matmul d prec lhs rhs (constant so .f32 0x00000000#32)) :=
  fun j => by
    show IsReal (FloatOps.matmul d prec lhs rhs (constant so .f32 0x00000000#32) j)
    rw [Ideal.matmul_constant_zero_apply]
    exact isReal_sum _ _ fun k _ => (hl _).mul (hr _)

/-- The host's contraction. -/
theorem RealValued.dotGeneral {sl sr so : Shape} {φ₁ φ₂ : FTy} (d : DotDims sl sr so) (prec : Option ContractPrecision)
    (sched : HostSchedule) {lhs : FVec Ideal sl φ₁} {rhs : FVec Ideal sr φ₂} (hl : RealValued lhs) (hr : RealValued rhs) :
    RealValued (fun j => FloatOps.dotGeneral d prec sched lhs rhs j) :=
  fun j => by
    show IsReal (FloatOps.dotGeneral d prec sched lhs rhs j)
    rw [Ideal.dotGeneral_apply]
    exact isReal_sum _ _ fun k _ => (hl _).mul (hr _)

/-- A kernel's add-reduction over any axes. -/
theorem RealValued.reduceAdd {axes : List (Fin s.rank)} (h : s.Reduces axes t) {x : s.Idx → EReal} (hx : RealValued x) :
    RealValued (Ideal.reduceAdd h x) :=
  fun _ => isReal_sum _ _ fun i _ => hx i

/-- The host's add-reduction over any axes from a real initial value. -/
theorem RealValued.hostReduceAdd {axes : List (Fin s.rank)} (h : s.ReducesTo axes t) {x : s.Idx → EReal} (hx : RealValued x)
    {init : EReal} (hi : IsReal init) : RealValued (Ideal.hostReduceAdd h x init) :=
  fun _ => hi.add (isReal_sum _ _ fun i _ => hx i)

/-- The host's accumulating scatter at any dimension numbers: each entry is the operand's plus finitely many updates. -/
theorem RealValued.hostScatterAdd {si su : Shape} (d : ScatterDims s si su) {w : ℕ} {x : s.Idx → EReal} (hx : RealValued x)
    (idx : IVec si w) {upd : su.Idx → EReal} (hu : RealValued upd) : RealValued (Ideal.hostScatterAdd d x idx upd) :=
  fun i => (hx i).add (isReal_sum _ _ fun j _ => hu j)

/-! ## The way in: a precondition's `all (|x| < +∞)` -/

/-- The word of +∞ denotes the top of the extended reals. -/
theorem ofBits_inf : Ideal.ofBits .f32 0x7F800000#32 = ⊤ := by
  simp [Ideal.ofBits, Ideal.ieee]

instance : Subsingleton (⟨0, ![]⟩ : Shape).Idx := ⟨fun _ _ => funext fun d => d.elim0⟩

/-- A precondition's conjunct "every entry of `x` is finite", as it is spelled: the absolute values compared below the
    +∞ word laid over the shape, the bits and-reduced over all axes to a single bit. If that bit is 1, every entry of
    `x` is a real number. -/
theorem realValued_of_all_abs_lt_inf {axes : List (Fin s.rank)} (x : FVec Ideal s .f32)
    (bc : (⟨0, ![]⟩ : Shape).BroadcastsInDim s ![]) (hred : s.ReducesTo axes ⟨0, ![]⟩)
    (h0 : 0 < (⟨0, ![]⟩ : Shape).numel) (init : IVec ⟨0, ![]⟩ 1) (j : (⟨0, ![]⟩ : Shape).Idx)
    (e : Host.reduce IntOp.andi
        (cmpf .olt (Host.absf x) (broadcastInDim s ![] bc (constant (F := Ideal) ⟨0, ![]⟩ .f32 0x7F800000#32)))
        init hred h0 j = 1#1) :
    RealValued x := by
  intro i
  have hi := Host.reduce_andi_all _ _ hred h0 j e i
  have hlt : max (x i) (-(x i)) < ⊤ := by
    have h2 : Ideal.cmp .olt (max (x i) (-(x i))) (Ideal.ofBits .f32 0x7F800000#32) = 1#1 := hi
    rw [ofBits_inf] at h2
    unfold Ideal.cmp at h2
    by_contra hn
    simp [hn] at h2
  exact isReal_of_abs_lt_top hlt

end Cert.LibFinite

end
-- ==== Proof.Realness.lean ====
/-
  With real arguments the scores are real.

  `tanh` of any extended real is a real number, and sums, products and maxima of real numbers are real; so when every
  float argument holds real numbers every score is a real number. A masked score is then minus infinity or a real
  number, and a position whose mask word is zero has a real score, which is not minus infinity.
-/
import proofs.«147632_j55284819034614_2_alg».proof.Proof.Tiling
import proofs.«147632_j55284819034614_2_alg».proof.Proof.LibFinite

noncomputable section

namespace Cert.MaskedAttention

open Idealize.ShloMosaic Idealize.ShloMosaic.ValueIdx Cert.TiledSoftmax Cert.LibFinite

/-- Every float argument holds real numbers. -/
structure RealArgs (A : Args) : Prop where
  sprev : RealValued A.sprev
  enc : RealValued A.enc
  cur : RealValued A.cur
  winfo : RealValued A.winfo
  wctx : RealValued A.wctx
  wq : RealValued A.wq
  bq : RealValued A.bq
  wp1 : RealValued A.wp1
  bp1 : RealValued A.bp1
  wp2 : RealValued A.wp2
  bp2 : RealValued A.bp2

/-- `tanh` of an extended real is a real number (its limits at the infinities are -1 and 1). -/
theorem isReal_tanh (x : EReal) : IsReal (Ideal.tanh x) := by
  induction x with
  | bot => rw [Ideal.tanh_bot]; exact isReal_one.neg
  | coe r => rw [Ideal.tanh_coe]; exact isReal_coe _
  | top => rw [Ideal.tanh_top]; exact isReal_one

variable {A : Args}

theorem score_real (h : RealArgs A) (s : Fin 16384) : IsReal (score A s) := by
  unfold score hidden hiddenBias
  refine IsReal.add (isReal_sum _ _ fun j _ => IsReal.mul (IsReal.max ?_ isReal_zero) (h.wp2 _)) (h.bp2 _)
  refine IsReal.add (isReal_sum _ _ fun k _ => (isReal_tanh _).mul (h.wp1 _)) ?_
  exact IsReal.add
    (IsReal.add (isReal_sum _ _ fun k _ => (isReal_tanh _).mul (h.wp1 _))
      (isReal_sum _ _ fun k _ => (isReal_tanh _).mul (h.wp1 _)))
    (h.bp1 _)

theorem masked_maskedOrReal (h : RealArgs A) (s : Fin 16384) : MaskedOrReal (masked A s) := by
  unfold masked Scalar.select
  split
  · exact Or.inl rfl
  · exact Or.inr (score_real h s)

theorem tiles_maskedOrReal (h : RealArgs A) : ∀ t r, MaskedOrReal (tiles A t r) := by
  intro t r
  exact masked_maskedOrReal h (pos t r)

/-- A position whose mask word is zero keeps its (real) score. -/
theorem tiles_live (h : RealArgs A) (hl : ∃ s : Fin 16384, A.mask (ix2 0 s) = 0#32) : ∃ t r, tiles A t r ≠ ⊥ := by
  obtain ⟨s, hs⟩ := hl
  refine ⟨tileOf s, rowOf s, ?_⟩
  have hc : IntOp.cmpi .ne (0#32) (0#32) = 0#1 := by decide
  have hm : masked A s = score A s := by
    unfold masked
    rw [hs, hc]
    exact select_zero _ _
  show masked A (pos (tileOf s) (rowOf s)) ≠ ⊥
  rw [pos_tileOf_rowOf, hm]
  exact (score_real h s).ne_bot

theorem enc_real (h : RealArgs A) (d : Fin 2048) (t : Fin 32) (r : Fin 512) :
    ∃ a : ℝ, A.enc (ix3 0 (pos t r) d) = (a : EReal) := by
  exact h.enc _

end Cert.MaskedAttention

end
-- ==== Proof.Domain.lean ====
/-
  What the precondition says of the arguments: every float argument holds real numbers, and some position is unmasked.

  The precondition is a conjunction of one-bit results. Each float argument contributes "the absolute value of every
  entry is below plus infinity", an and-reduction over all axes that is 1 only if every entry passed, so every entry
  is a real number. The mask contributes "some entry equals zero", an or-reduction from 0 that is 1 only if some
  entry passed the comparison with the zero word.
-/
import proofs.«147632_j55284819034614_2_alg».proof.Defs
import proofs.«147632_j55284819034614_2_alg».proof.Proof.LibFinite
import Idealize.ShloMosaic.Lib.ReduceAll
import Idealize.ShloMosaic.Lib.ValueIdx
import Idealize.ShloMosaic.PureOps.Reduce

noncomputable section

namespace Cert.Domain

open Idealize.ShloMosaic Idealize.SL.Sem Cert.LibFinite Cert.KernelIdeal

/-- A left fold by `or` over one-bit words that comes out 1 either started at 1 or met a word that is 1. -/
theorem foldl_ori_eq_one {ι : Type} (f : ι → BitVec 1) :
    ∀ (l : List ι) (init : BitVec 1), l.foldl (fun r n => IntOp.ori r (f n)) init = 1#1 →
      init = 1#1 ∨ ∃ n ∈ l, f n = 1#1
  | [], _, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- An or-reduction of one-bit words from an initial value that is 0 everywhere: if the result is 1 at some
    index, some operand entry is 1. -/
theorem exists_of_reduce_ori_eq_one {s t u : Shape} {axes : List (Fin s.rank)} (x : s.Idx → BitVec 1)
    (init : u.Idx → BitVec 1) (hred : s.ReducesTo axes t) (hu : 0 < u.numel) (hinit : ∀ k, init k = 0#1) (j : t.Idx)
    (e : Host.reduce IntOp.ori x init hred hu j = 1#1) : ∃ i, x i = 1#1 := by
  rw [Host.reduce_eq_foldl] at e
  rcases foldl_ori_eq_one x _ _ e with h1 | ⟨i, _, hi⟩
  · rw [hinit] at h1
    exact absurd h1 (by decide)
  · exact ⟨i, hi⟩

/-- A pointwise `and` of one-bit arrays is 1 at an index exactly when both arrays are 1 there. -/
theorem andi_apply_eq_one {s : Shape} (a b : IVec s 1) (i : s.Idx) :
    andi a b i = 1#1 ↔ a i = 1#1 ∧ b i = 1#1 :=
  IntOp.andi_eq_one

/-- The facts the precondition gives about one core's argument arrays. -/
structure Inputs (m : (ℓ : Loc nD τ sig) → Buf (Elt Ideal) ℓ) (c : Dev nD) : Prop where
  s_prev : RealValued (m ((c.tc : Thread nD τ).loc main_arg0) : S1x1x2048.Idx → EReal)
  enc_hs : RealValued (m ((c.tc : Thread nD τ).loc main_arg1) : S1x16384x2048.Idx → EReal)
  cur_men_rep : RealValued (m ((c.tc : Thread nD τ).loc main_arg2) : S1x1x2048.Idx → EReal)
  w_info : RealValued (m ((c.tc : Thread nD τ).loc main_arg4) : S2048x2048.Idx → EReal)
  w_ctx : RealValued (m ((c.tc : Thread nD τ).loc main_arg5) : S2048x2048.Idx → EReal)
  w_q : RealValued (m ((c.tc : Thread nD τ).loc main_arg6) : S2048x2048.Idx → EReal)
  b_q : RealValued (m ((c.tc : Thread nD τ).loc main_arg7) : S2048.Idx → EReal)
  w_p1 : RealValued (m ((c.tc : Thread nD τ).loc main_arg8) : S250x6144.Idx → EReal)
  b_p1 : RealValued (m ((c.tc : Thread nD τ).loc main_arg9) : S250.Idx → EReal)
  w_p2 : RealValued (m ((c.tc : Thread nD τ).loc main_arg10) : S1x250.Idx → EReal)
  b_p2 : RealValued (m ((c.tc : Thread nD τ).loc main_arg11) : S1.Idx → EReal)
  /-- Some position is unmasked: its mask word is zero. -/
  live : ∃ i : S1x16384.Idx, (m ((c.tc : Thread nD τ).loc main_arg3) : S1x16384.Idx → BitVec 32) i = 0#32

/-- The precondition of the idealized kernel gives these facts on every core. -/
theorem inputs_of_pre [hP : Cert.Pre_finite_inputs.Facts] (m : (ℓ : Loc nD τ sig) → Buf (Elt Ideal) ℓ)
    (h : Cert.Pre_KernelIdeal m) (c : Dev nD) : Inputs m c := by
  -- the one entry of the rank-0 result, with the chain of operations unfolded
  have e := congrFun (h c) ValueIdx.ix0
  unfold Cert.Pre_finite_inputs.fn at e
  dsimp only at e
  unfold Cert.Pre_finite_inputs.fn_part1 at e
  dsimp only at e
  unfold Cert.Pre_finite_inputs.fn_part2 at e
  dsimp only at e
  unfold Cert.Pre_finite_inputs.fn_part3 at e
  dsimp only at e
  -- the conjunction, split from the outside in: the mask's conjunct first, the first two arguments' last
  obtain ⟨e, hmask⟩ := (andi_apply_eq_one _ _ _).1 e
  obtain ⟨e, h11⟩ := (andi_apply_eq_one _ _ _).1 e
  obtain ⟨e, h10⟩ := (andi_apply_eq_one _ _ _).1 e
  obtain ⟨e, h9⟩ := (andi_apply_eq_one _ _ _).1 e
  obtain ⟨e, h8⟩ := (andi_apply_eq_one _ _ _).1 e
  obtain ⟨e, h7⟩ := (andi_apply_eq_one _ _ _).1 e
  obtain ⟨e, h6⟩ := (andi_apply_eq_one _ _ _).1 e
  obtain ⟨e, h5⟩ := (andi_apply_eq_one _ _ _).1 e
  obtain ⟨e, h4⟩ := (andi_apply_eq_one _ _ _).1 e
  obtain ⟨e, h2⟩ := (andi_apply_eq_one _ _ _).1 e
  obtain ⟨h0, h1⟩ := (andi_apply_eq_one _ _ _).1 e
  -- the mask: some entry passed the comparison with the zero word, so it is the zero word
  obtain ⟨i, hi⟩ := exists_of_reduce_ori_eq_one _ _ _ _ (fun _ => rfl) _ hmask
  exact
    { s_prev := realValued_of_all_abs_lt_inf _ _ _ _ _ _ h0
      enc_hs := realValued_of_all_abs_lt_inf _ _ _ _ _ _ h1
      cur_men_rep := realValued_of_all_abs_lt_inf _ _ _ _ _ _ h2
      w_info := realValued_of_all_abs_lt_inf _ _ _ _ _ _ h4
      w_ctx := realValued_of_all_abs_lt_inf _ _ _ _ _ _ h5
      w_q := realValued_of_all_abs_lt_inf _ _ _ _ _ _ h6
      b_q := realValued_of_all_abs_lt_inf _ _ _ _ _ _ h7
      w_p1 := realValued_of_all_abs_lt_inf _ _ _ _ _ _ h8
      b_p1 := realValued_of_all_abs_lt_inf _ _ _ _ _ _ h9
      w_p2 := realValued_of_all_abs_lt_inf _ _ _ _ _ _ h10
      b_p2 := realValued_of_all_abs_lt_inf _ _ _ _ _ _ h11
      live := ⟨i, IntOp.cmpi_eq.1 hi⟩ }

end Cert.Domain

end
-- ==== Proof.KernelValue.lean ====
/-
  The idealized kernel computes the attention function.

  After the run the first result at position `512 t + r` is that position's weight against its tile's maximum, times the
  tile's factor, over the total of the rescaled tile sums; the second result at column `d` is the sum over the tiles of
  the factor times the tile's row, over the same total. With real arguments and a position that is not masked these are
  the plain softmax and the encoded sequence summed against it: rescaling the tiles to the global maximum does not
  change the quotients.
-/
import proofs.«147632_j55284819034614_2_alg».proof.Proof.KernelTiles
import proofs.«147632_j55284819034614_2_alg».proof.Proof.CombineRead
import proofs.«147632_j55284819034614_2_alg».proof.Proof.Realness
import proofs.«147632_j55284819034614_2_alg».proof.Proof.Domain

set_option maxRecDepth 16384

noncomputable section

namespace Cert.KernelIdeal.Result

open Idealize.ShloMosaic Idealize.ShloMosaic.TcCoe Idealize.SL.Sem Idealize.ShloMosaic.ValueIdx
open Cert.KernelIdeal Cert.KernelIdeal.Gen Cert.MaskedAttention Cert.TiledSoftmax

variable (m : (ℓ : Loc nD τ sig) → Buf (Elt Ideal) ℓ) (ρ : Dev nD → PrngReg)

/-- The precondition's facts, for the specification's record of the arguments. -/
theorem realArgs (c : Dev nD) (H : Cert.Domain.Inputs m c) : RealArgs (args m c) :=
  ⟨H.s_prev, H.enc_hs, H.cur_men_rep, H.w_info, H.w_ctx, H.w_q, H.b_q, H.w_p1, H.b_p1, H.w_p2, H.b_p2⟩

/-- Some position's mask word is zero. -/
theorem unmasked (c : Dev nD) (H : Cert.Domain.Inputs m c) : ∃ s : Fin 16384, (args m c).mask (ix2 0 s) = 0#32 := by
  obtain ⟨i, hi⟩ := H.live
  have hi0 : (i 0 : Nat) < 1 := (i 0).isLt
  have hi1 : (i 1 : Nat) < 16384 := (i 1).isLt
  have e : ix2 (0 : Fin 1) (⟨(i 1).val, hi1⟩ : Fin 16384) = i := funext fun a => Fin.ext (by
    match a with
    | ⟨0, _⟩ => show (0 : Nat) = (i 0 : Nat); omega
    | ⟨1, _⟩ => rfl)
  exact ⟨⟨(i 1).val, hi1⟩, (congrArg (args m c).mask e).trans hi⟩

/-- The mask column the host's combine reads is the mask argument, relabelled; some word of it is zero. -/
theorem unmasked_column (c : Dev nD) (H : Cert.Domain.Inputs m c) :
    ∃ s : Fin 16384, (W4 m ρ c (Proc.devRef .tc main_v18) : S16384x1.Idx → BitVec 32) (ix2 s 0) = 0#32 := by
  obtain ⟨s, hs⟩ := unmasked m c H
  refine ⟨s, ?_⟩
  rw [(out1_mask m ρ c).trans (in1_mask m ρ c), Layout.column_of_row]
  exact hs

/-- The host's factor of tile `t` is the tile's scale. -/
theorem scale_value (c : Dev nD) (t : Fin 32) : scaleOf (maxArr m ρ c) t = tileScale (tiles (args m c)) t := by
  unfold scaleOf tileScale globalMax
  simp only [maxArr_at]

/-- The host's total is the tiled normaliser. -/
theorem total_value (c : Dev nD) : totOf (maxArr m ρ c) (sumArr m ρ c) = tiledTotal (tiles (args m c)) := by
  unfold totOf tiledTotal
  simp only [scale_value, sumArr_at]

/-- The first result at position `r` of tile `t`. -/
theorem attn_value (c : Dev nD) (H : Cert.Domain.Inputs m c) (t : Fin 32) (r : Fin 512) :
    (W8 m ρ c (Proc.devRef .tc main_v48) : S16384.Idx → EReal) (ix1 (pos t r)) = attn (args m c) t r := by
  have hR := realArgs m c H
  have ep : (W4 m ρ c (Proc.devRef .tc main_v19_0) : S16384x1.Idx → EReal) = weightArr m ρ c :=
    (W4_arr m ρ c 7).trans (weight_array m ρ c)
  have em : (W4 m ρ c (Proc.devRef .tc main_v19_1) : S32x1x1.Idx → EReal) = maxArr m ρ c :=
    (W4_arr m ρ c 8).trans (max_array m ρ c)
  have el : (W4 m ρ c (Proc.devRef .tc main_v19_2) : S32x1x1.Idx → EReal) = sumArr m ρ c :=
    (W4_arr m ρ c 9).trans (sum_array m ρ c)
  rw [out_attn, result0_apply _ _ _ _ (unmasked_column m ρ c H), ep, em, el, attnVec_apply, weightArr_at, scale_value, total_value]
  exact tiled_weight (tiles_maskedOrReal hR) (tiles_live hR (unmasked m c H)) t r

/-- The second result at column `d`. -/
theorem ctx_value (c : Dev nD) (H : Cert.Domain.Inputs m c) (d : Fin 2048) :
    (W8 m ρ c (Proc.devRef .tc main_v50) : S1x2048.Idx → EReal) (ix2 0 d) = ctx (args m c) d := by
  have hR := realArgs m c H
  have em : (W4 m ρ c (Proc.devRef .tc main_v19_1) : S32x1x1.Idx → EReal) = maxArr m ρ c :=
    (W4_arr m ρ c 8).trans (max_array m ρ c)
  have el : (W4 m ρ c (Proc.devRef .tc main_v19_2) : S32x1x1.Idx → EReal) = sumArr m ρ c :=
    (W4_arr m ρ c 9).trans (sum_array m ρ c)
  have ec : (W4 m ρ c (Proc.devRef .tc main_v19_3) : S32x1x2048.Idx → EReal) = rowArr m ρ c :=
    (W4_arr m ρ c 10).trans (row_array m ρ c)
  rw [out_ctx, result1_apply _ _ _ _ (unmasked_column m ρ c H), em, el, ec, ctxRow_apply, total_value]
  simp only [scale_value, rowArr_at]
  exact tiled_weighted_sum (tiles_maskedOrReal hR) (tiles_live hR (unmasked m c H))
    (fun t r => (args m c).enc (ix3 0 (pos t r) d)) (enc_real hR d)

end Cert.KernelIdeal.Result

end
-- ==== Proof.RefValue.lean ====
/-
  The reference program computes the attention function.

  Read one operation at a time, the reference's first result at position `512 t + r` is the masked score's weight
  against the maximum over all positions divided by the sum of all weights, and its second result at column `d` is the
  encoded sequence summed against those quotients. Its scores are the specification's: the product of the first layer
  over the 6144 joined columns is the sum of the three parts the join was made of, and the bias is added once. The sums
  and the maximum over the positions are the same taken tile by tile. No finiteness is used: only that sums may be
  regrouped and that adding zero or taking a maximum with minus infinity changes nothing.
-/
import proofs.«147632_j55284819034614_2_alg».proof.Proof.Gen.ReferenceIdeal.Read
import proofs.«147632_j55284819034614_2_alg».proof.Proof.Tiling
import proofs.«147632_j55284819034614_2_alg».proof.Proof.LibMaxFold

noncomputable section

namespace Cert.ReferenceIdeal.RefValue

open Cert.ReferenceIdeal Cert.ReferenceIdeal.Gen Cert.ReferenceIdeal.Read
open Idealize.ShloMosaic Idealize.ShloMosaic.ValueIdx Cert.MaskedAttention

/-- The reference's twelve arguments as the specification's record. -/
abbrev args (x0 : (⟨S1x1x2048, .f32⟩ : BufTy).Contents (Elt Ideal)) (x1 : (⟨S1x16384x2048, .f32⟩ : BufTy).Contents (Elt Ideal)) (x2 : (⟨S1x1x2048, .f32⟩ : BufTy).Contents (Elt Ideal)) (x3 : (⟨S1x16384, .i32⟩ : BufTy).Contents (Elt Ideal)) (x4 x5 x6 : (⟨S2048x2048, .f32⟩ : BufTy).Contents (Elt Ideal)) (x7 : (⟨S2048, .f32⟩ : BufTy).Contents (Elt Ideal)) (x8 : (⟨S250x6144, .f32⟩ : BufTy).Contents (Elt Ideal)) (x9 : (⟨S250, .f32⟩ : BufTy).Contents (Elt Ideal)) (x10 : (⟨S1x250, .f32⟩ : BufTy).Contents (Elt Ideal)) (x11 : (⟨S1, .f32⟩ : BufTy).Contents (Elt Ideal)) : Args :=
  ⟨x0, x1, x2, x3, x4, x5, x6, x7, x8, x9, x10, x11⟩

section Stages

variable (A : Args)

/-! ## The three projections -/

/-- The mention's projection at column `d` is `dh`. -/
theorem v0_at (d : Fin 2048) : val_main_v0 (F := Ideal) A.cur A.winfo (ix3 0 0 d) = dh A d := by
  rw [val_main_v0_apply]
  refine Finset.sum_congr rfl fun e _ => ?_
  have e1 : lidx_main_v0 (ix3 0 0 d) e = ix3 0 0 e := funext fun a => Fin.ext (by
    match a with | ⟨0, _⟩ => rfl | ⟨1, _⟩ => rfl | ⟨2, _⟩ => rfl)
  have e2 : ridx_main_v0 (ix3 0 0 d) e = ix2 d e := funext fun a => Fin.ext (by
    match a with | ⟨0, _⟩ => rfl | ⟨1, _⟩ => rfl)
  rw [e1, e2]

/-- The query's projection plus its bias at column `d` is `wqv`. -/
theorem v4_at (d : Fin 2048) : val_main_v4 (F := Ideal) A.sprev A.wq A.bq (ix3 0 0 d) = wqv A d := by
  rw [val_main_v4_apply, val_main_v2_apply, val_main_v3_apply, Ideal.addf_def]
  have e3 : idx_main_v3 (ix3 0 0 d) = ix1 d := funext fun a => Fin.ext (by
    match a with | ⟨0, _⟩ => rfl)
  rw [e3]
  unfold wqv
  congr 1
  refine Finset.sum_congr rfl fun e _ => ?_
  have e1 : lidx_main_v2 (ix3 0 0 d) e = ix3 0 0 e := funext fun a => Fin.ext (by
    match a with | ⟨0, _⟩ => rfl | ⟨1, _⟩ => rfl | ⟨2, _⟩ => rfl)
  have e2 : ridx_main_v2 (ix3 0 0 d) e = ix2 d e := funext fun a => Fin.ext (by
    match a with | ⟨0, _⟩ => rfl | ⟨1, _⟩ => rfl)
  rw [e1, e2]

/-- The encoded sequence's projection at position `s`, column `d` is `uh`. -/
theorem v1_at (s : Fin 16384) (d : Fin 2048) : val_main_v1 (F := Ideal) A.enc A.wctx (ix3 0 s d) = uh A s d := by
  rw [val_main_v1_apply]
  refine Finset.sum_congr rfl fun e _ => ?_
  have e1 : lidx_main_v1 (ix3 0 s d) e = ix3 0 s e := funext fun a => Fin.ext (by
    match a with | ⟨0, _⟩ => rfl | ⟨1, _⟩ => rfl | ⟨2, _⟩ => rfl)
  have e2 : ridx_main_v1 (ix3 0 s d) e = ix2 d e := funext fun a => Fin.ext (by
    match a with | ⟨0, _⟩ => rfl | ⟨1, _⟩ => rfl)
  rw [e1, e2]

/-! ## The join of the three parts, read at a column of each part -/

/-- The joined array at a column of the first part is the encoded sequence's projection there. -/
theorem v7_colU (s : Fin 16384) (k : Fin 2048) :
    val_main_v7 (F := Ideal) A.sprev A.enc A.cur A.winfo A.wctx A.wq A.bq (ix3 0 s (colU k)) = uh A s k := by
  rw [← v1_at A s k]
  unfold val_main_v7
  refine concatenate_apply_piece (t := S1x16384x6144) 2 _ _ _ 0 ?hk S1x16384x2048 _ ?hxk rfl 0 ?hpre (ix3 0 s k) ?_ ?_
  case hk => show (0 : ℕ) < 3; decide
  case hxk => rfl
  case hpre => rfl
  · intro b hb
    match b with
    | ⟨0, _⟩ => rfl
    | ⟨1, _⟩ => rfl
    | ⟨2, _⟩ => exact absurd rfl hb
  · show 0 + k.val = k.val
    omega

/-- The joined array at a column of the second part is the query's projection with its bias, at every position. -/
theorem v7_colW (s : Fin 16384) (k : Fin 2048) :
    val_main_v7 (F := Ideal) A.sprev A.enc A.cur A.winfo A.wctx A.wq A.bq (ix3 0 s (colW k)) = wqv A k := by
  have e5 : idx_main_v5 (ix3 0 s k) = ix3 0 0 k := funext fun a => Fin.ext (by
    match a with | ⟨0, _⟩ => rfl | ⟨1, _⟩ => rfl | ⟨2, _⟩ => rfl)
  rw [← v4_at A k, ← e5, ← val_main_v5_apply]
  unfold val_main_v7
  refine concatenate_apply_piece (t := S1x16384x6144) 2 _ _ _ 1 ?hk S1x16384x2048 _ ?hxk rfl 2048 ?hpre (ix3 0 s k) ?_ ?_
  case hk => show (1 : ℕ) < 3; decide
  case hxk => rfl
  case hpre => rfl
  · intro b hb
    match b with
    | ⟨0, _⟩ => rfl
    | ⟨1, _⟩ => rfl
    | ⟨2, _⟩ => exact absurd rfl hb
  · rfl

/-- The joined array at a column of the third part is the mention's projection, at every position. -/
theorem v7_colD (s : Fin 16384) (k : Fin 2048) :
    val_main_v7 (F := Ideal) A.sprev A.enc A.cur A.winfo A.wctx A.wq A.bq (ix3 0 s (colD k)) = dh A k := by
  have e6 : idx_main_v6 (ix3 0 s k) = ix3 0 0 k := funext fun a => Fin.ext (by
    match a with | ⟨0, _⟩ => rfl | ⟨1, _⟩ => rfl | ⟨2, _⟩ => rfl)
  rw [← v0_at A k, ← e6, ← val_main_v6_apply]
  unfold val_main_v7
  refine concatenate_apply_piece (t := S1x16384x6144) 2 _ _ _ 2 ?hk S1x16384x2048 _ ?hxk rfl 4096 ?hpre (ix3 0 s k) ?_ ?_
  case hk => show (2 : ℕ) < 3; decide
  case hxk => rfl
  case hpre => rfl
  · intro b hb
    match b with
    | ⟨0, _⟩ => rfl
    | ⟨1, _⟩ => rfl
    | ⟨2, _⟩ => exact absurd rfl hb
  · rfl

/-! ## The hidden layer and the score -/

/-- The first layer's product at position `s`, unit `j`: the sum over the 6144 columns as its three parts' sums. -/
theorem v9_at (s : Fin 16384) (j : Fin 250) :
    val_main_v9 (F := Ideal) A.sprev A.enc A.cur A.winfo A.wctx A.wq A.bq A.wp1 (ix3 0 s j)
      = (∑ k : Fin 2048, Ideal.tanh (uh A s k) * A.wp1 (ix2 j (colU k)))
        + ((∑ k : Fin 2048, Ideal.tanh (wqv A k) * A.wp1 (ix2 j (colW k)))
          + ∑ k : Fin 2048, Ideal.tanh (dh A k) * A.wp1 (ix2 j (colD k))) := by
  rw [val_main_v9_apply, sum_cols]
  have el : ∀ c : Fin 6144, lidx_main_v9 (ix3 0 s j) c = ix3 0 s c := fun c => funext fun a => Fin.ext (by
    match a with | ⟨0, _⟩ => rfl | ⟨1, _⟩ => rfl | ⟨2, _⟩ => rfl)
  have er : ∀ c : Fin 6144, ridx_main_v9 (ix3 0 s j) c = ix2 j c := fun c => funext fun a => Fin.ext (by
    match a with | ⟨0, _⟩ => rfl | ⟨1, _⟩ => rfl)
  simp only [el, er, val_main_v8_apply, Ideal.hostUnary_tanh_def, v7_colU A, v7_colW A, v7_colD A]

/-- The hidden unit before the ramp: the three parts regrouped, the bias added once. -/
theorem v12_at (s : Fin 16384) (j : Fin 250) :
    val_main_v12 (F := Ideal) A.sprev A.enc A.cur A.winfo A.wctx A.wq A.bq A.wp1 A.bp1 (ix3 0 s j) = hidden A s j := by
  have e11 : idx_main_v10 (idx_main_v11 (ix3 0 s j)) = ix1 j := funext fun a => Fin.ext (by
    match a with | ⟨0, _⟩ => rfl)
  rw [val_main_v12_apply, Ideal.addf_def, v9_at A, val_main_v11_apply, val_main_v10_apply, e11]
  exact add_assoc _ _ _

/-- The hidden unit after the ramp. -/
theorem v13_at (s : Fin 16384) (j : Fin 250) :
    val_main_v13 (F := Ideal) A.sprev A.enc A.cur A.winfo A.wctx A.wq A.bq A.wp1 A.bp1 (ix3 0 s j) = max (hidden A s j) 0 := by
  rw [val_main_v13_apply, Ideal.maximumf_def, v12_at A]
  show max (hidden A s j) (Ideal.ofBits .f32 0x00000000#32) = _
  rw [Ideal.ofBits_zero_f32]

/-- The output unit at position `s` is the score. -/
theorem v17_at (s : Fin 16384) :
    val_main_v17 (F := Ideal) A.sprev A.enc A.cur A.winfo A.wctx A.wq A.bq A.wp1 A.bp1 A.wp2 A.bp2 (ix3 0 s 0) = score A s := by
  have e16 : idx_main_v15 (idx_main_v16 (ix3 0 s 0)) = ix1 0 := funext fun a => Fin.ext (by
    match a with | ⟨0, _⟩ => rfl)
  have el : ∀ j : Fin 250, lidx_main_v14 (ix3 0 s 0) j = ix3 0 s j := fun j => funext fun a => Fin.ext (by
    match a with | ⟨0, _⟩ => rfl | ⟨1, _⟩ => rfl | ⟨2, _⟩ => rfl)
  have er : ∀ j : Fin 250, ridx_main_v14 (ix3 0 s 0) j = ix2 0 j := fun j => funext fun a => Fin.ext (by
    match a with | ⟨0, _⟩ => rfl | ⟨1, _⟩ => rfl)
  rw [val_main_v17_apply, Ideal.addf_def, val_main_v14_apply, val_main_v16_apply, val_main_v15_apply, e16]
  simp only [el, er, v13_at A]
  rfl

/-- The score array at position `s`. -/
theorem v18_at (s : Fin 16384) : val_main_v18 (F := Ideal) A.sprev A.enc A.cur A.winfo A.wctx A.wq A.bq A.wp1 A.bp1 A.wp2 A.bp2 (ix1 s) = score A s := by
  have e18 : idx_main_v18 (ix1 s) = ix3 0 s 0 := funext fun a => Fin.ext (by
    match a with
    | ⟨0, _⟩ => rfl
    | ⟨1, _⟩ => show s.val / 1 % 16384 = s.val; have := s.isLt; omega
    | ⟨2, _⟩ => rfl)
  rw [val_main_v18_apply, e18, v17_at A]

/-- The masked score array at position `s`: minus infinity where the mask word is nonzero. -/
theorem v23_at (s : Fin 16384) : val_main_v23 (F := Ideal) A.sprev A.enc A.cur A.mask A.winfo A.wctx A.wq A.bq A.wp1 A.bp1 A.wp2 A.bp2 (ix1 s) = masked A s := by
  have e19 : idx_main_v19 (ix1 s) = ix2 0 s := funext fun a => Fin.ext (by
    match a with
    | ⟨0, _⟩ => rfl
    | ⟨1, _⟩ => show s.val % 16384 = s.val; have := s.isLt; omega)
  rw [val_main_v23_apply, val_main_v22_apply, val_main_v21_apply, val_main_v19_apply, e19, v18_at A]
  show Scalar.select (IntOp.cmpi .ne (A.mask (ix2 0 s)) 0#32) (Ideal.ofBits .f32 0xFF800000#32) (score A s) = _
  rw [MaxFold.negInf]
  rfl

/-! ## The maximum, the weights and their total -/

/-- A maximum over the indices of a one-axis array is the maximum over its coordinate. -/
theorem sup_idx1 {n : ℕ} (g : (⟨1, ![n]⟩ : Shape).Idx → EReal) :
    Finset.univ.sup g = Finset.univ.sup fun s : Fin n => g (ix1 s) := by
  apply le_antisymm
  · apply Finset.sup_le
    intro i _
    rw [eq_ix1 i]
    exact Finset.le_sup (f := fun s : Fin n => g (ix1 s)) (Finset.mem_univ (i 0))
  · apply Finset.sup_le
    intro s _
    exact Finset.le_sup (f := g) (Finset.mem_univ (ix1 s))

/-- The maximum of the masked scores over all positions, folded from minus infinity, is the maximum of the
    tiles' maxima: every position reduces into the one entry of the result. -/
theorem v24_at (j : S_.Idx) : val_main_v24 (F := Ideal) A.sprev A.enc A.cur A.mask A.winfo A.wctx A.wq A.bq A.wp1 A.bp1 A.wp2 A.bp2 j = TiledSoftmax.globalMax (tiles A) := by
  have hall : (Finset.univ.filter fun i : S16384.Idx => reducesTo_S16384_S_d0.drop i = j) = Finset.univ :=
    Finset.filter_true_of_mem fun i _ => funext fun b => b.elim0
  unfold val_main_v24
  rw [Host.reduce_eq_fold, hall]
  refine (MaxFold.fold_maximumf_eq_sup _ _ _ MaxFold.negInf).trans ?_
  rw [sup_idx1]
  simp only [v23_at A]
  exact sup_pos fun s => masked A s

/-- One more maximum with minus infinity changes nothing. -/
theorem v25_at (j : S_.Idx) : val_main_v25 (F := Ideal) A.sprev A.enc A.cur A.mask A.winfo A.wctx A.wq A.bq A.wp1 A.bp1 A.wp2 A.bp2 j = TiledSoftmax.globalMax (tiles A) := by
  rw [val_main_v25_apply, Ideal.maximumf_def, v24_at A]
  exact MaxFold.max_negInf_left _

/-- The maximum laid over the positions. -/
theorem v27_at (i : S16384.Idx) : val_main_v27 (F := Ideal) A.sprev A.enc A.cur A.mask A.winfo A.wctx A.wq A.bq A.wp1 A.bp1 A.wp2 A.bp2 i = TiledSoftmax.globalMax (tiles A) := by
  rw [val_main_v27_apply, val_main_v26_apply, v25_at A]

/-- The weight of position `s`: the exponential of its masked score less the maximum. -/
theorem v29_at (s : Fin 16384) :
    val_main_v29 (F := Ideal) A.sprev A.enc A.cur A.mask A.winfo A.wctx A.wq A.bq A.wp1 A.bp1 A.wp2 A.bp2 (ix1 s) = Ideal.exp (masked A s - TiledSoftmax.globalMax (tiles A)) := by
  rw [val_main_v29_apply, Ideal.hostUnary_exp_def, val_main_v28_apply, Ideal.subf_def, v23_at A, v27_at A]

/-- The sum of the weights over all positions, from zero, is the total taken tile by tile. -/
theorem v30_at (j : S_.Idx) : val_main_v30 (F := Ideal) A.sprev A.enc A.cur A.mask A.winfo A.wctx A.wq A.bq A.wp1 A.bp1 A.wp2 A.bp2 j = TiledSoftmax.total (tiles A) := by
  have h0 : val_main_cst_2 (F := Ideal) (Shape.Idx.first h_S_) = 0 := Ideal.ofBits_zero_f32
  rw [val_main_v30_apply, h0, zero_add, sum_idx1, sum_pos]
  refine Finset.sum_congr rfl fun t _ => Finset.sum_congr rfl fun r _ => ?_
  rw [v29_at A]
  rfl

/-- The total laid over the positions. -/
theorem v32_at (i : S16384.Idx) : val_main_v32 (F := Ideal) A.sprev A.enc A.cur A.mask A.winfo A.wctx A.wq A.bq A.wp1 A.bp1 A.wp2 A.bp2 i = TiledSoftmax.total (tiles A) := by
  rw [val_main_v32_apply, val_main_v31_apply, v30_at A]

/-! ## The two results -/

/-- The first result at position `r` of tile `t`: the weight divided by the total. -/
theorem v33_at (t : Fin 32) (r : Fin 512) :
    val_main_v33 (F := Ideal) A.sprev A.enc A.cur A.mask A.winfo A.wctx A.wq A.bq A.wp1 A.bp1 A.wp2 A.bp2 (ix1 (pos t r)) = attn A t r := by
  rw [val_main_v33_apply, Ideal.hostDivf_def, v29_at A, v32_at A]
  rfl

/-- The second result at column `d`: the encoded sequence times the first result, summed over the positions
    from zero, tile by tile. -/
theorem v37_at (d : Fin 2048) : val_main_v37 (F := Ideal) A.sprev A.enc A.cur A.mask A.winfo A.wctx A.wq A.bq A.wp1 A.bp1 A.wp2 A.bp2 (ix2 0 d) = ctx A d := by
  have h0 : val_main_cst_3 (F := Ideal) (Shape.Idx.first h_S_) = 0 := Ideal.ofBits_zero_f32
  rw [val_main_v37_apply, h0, zero_add, sum_pos]
  refine Finset.sum_congr rfl fun t _ => Finset.sum_congr rfl fun r _ => ?_
  have e37 : idx_main_v37 (ix2 0 d) (pos t r) = ix3 0 (pos t r) d := funext fun a => Fin.ext (by
    match a with | ⟨0, _⟩ => rfl | ⟨1, _⟩ => rfl | ⟨2, _⟩ => rfl)
  have e35 : idx_main_v34 (idx_main_v35 (ix3 0 (pos t r) d)) = ix1 (pos t r) := funext fun a => Fin.ext (by
    match a with | ⟨0, _⟩ => rfl)
  rw [e37, val_main_v36_apply, Ideal.mulf_def, val_main_v35_apply, val_main_v34_apply, e35, v33_at A]

end Stages

/-- The reference's first result at position `r` of tile `t` is the softmax of the masked scores there. -/
theorem attn_eq (x0 : (⟨S1x1x2048, .f32⟩ : BufTy).Contents (Elt Ideal)) (x1 : (⟨S1x16384x2048, .f32⟩ : BufTy).Contents (Elt Ideal)) (x2 : (⟨S1x1x2048, .f32⟩ : BufTy).Contents (Elt Ideal)) (x3 : (⟨S1x16384, .i32⟩ : BufTy).Contents (Elt Ideal)) (x4 x5 x6 : (⟨S2048x2048, .f32⟩ : BufTy).Contents (Elt Ideal)) (x7 : (⟨S2048, .f32⟩ : BufTy).Contents (Elt Ideal)) (x8 : (⟨S250x6144, .f32⟩ : BufTy).Contents (Elt Ideal)) (x9 : (⟨S250, .f32⟩ : BufTy).Contents (Elt Ideal)) (x10 : (⟨S1x250, .f32⟩ : BufTy).Contents (Elt Ideal)) (x11 : (⟨S1, .f32⟩ : BufTy).Contents (Elt Ideal)) (t : Fin 32) (r : Fin 512) :
    val_main_v33 (F := Ideal) x0 x1 x2 x3 x4 x5 x6 x7 x8 x9 x10 x11 (ix1 (pos t r))
      = attn (args x0 x1 x2 x3 x4 x5 x6 x7 x8 x9 x10 x11) t r := by
  exact v33_at (args x0 x1 x2 x3 x4 x5 x6 x7 x8 x9 x10 x11) t r

/-- The reference's second result at column `d` is the encoded sequence summed against the softmax. -/
theorem ctx_eq (x0 : (⟨S1x1x2048, .f32⟩ : BufTy).Contents (Elt Ideal)) (x1 : (⟨S1x16384x2048, .f32⟩ : BufTy).Contents (Elt Ideal)) (x2 : (⟨S1x1x2048, .f32⟩ : BufTy).Contents (Elt Ideal)) (x3 : (⟨S1x16384, .i32⟩ : BufTy).Contents (Elt Ideal)) (x4 x5 x6 : (⟨S2048x2048, .f32⟩ : BufTy).Contents (Elt Ideal)) (x7 : (⟨S2048, .f32⟩ : BufTy).Contents (Elt Ideal)) (x8 : (⟨S250x6144, .f32⟩ : BufTy).Contents (Elt Ideal)) (x9 : (⟨S250, .f32⟩ : BufTy).Contents (Elt Ideal)) (x10 : (⟨S1x250, .f32⟩ : BufTy).Contents (Elt Ideal)) (x11 : (⟨S1, .f32⟩ : BufTy).Contents (Elt Ideal)) (d : Fin 2048) :
    val_main_v37 (F := Ideal) x0 x1 x2 x3 x4 x5 x6 x7 x8 x9 x10 x11 (ix2 0 d)
      = ctx (args x0 x1 x2 x3 x4 x5 x6 x7 x8 x9 x10 x11) d := by
  exact v37_at (args x0 x1 x2 x3 x4 x5 x6 x7 x8 x9 x10 x11) d

end Cert.ReferenceIdeal.RefValue

end
-- ==== Proof.lean ====
/-
  A fused additive-attention kernel against its plain reference, on the extended reals.

  Both programs score each of 16384 encoded positions by a two-layer projection of `tanh` of the position's encoded row
  through `W_ctx`, the query's row and the mention's row, replace the score of a masked position by minus infinity, take
  the softmax over the positions and return it together with the encoded sequence summed against it. The reference
  computes this directly. The kernel splits the first projection's 6144 columns into the three blocks its three inputs
  meet (a first kernel makes the two blocks that do not depend on the position, with the bias), and computes the
  softmax tile by tile: a second kernel gives, for each tile of 512 positions, the tile's maximum, weights against that
  maximum, their sum and the tile's weighted row, and the host rescales each tile by `exp` of its maximum minus the
  global one before dividing by the total. Its masking fill is a large negative number that stands for minus infinity.

  The two agree because regrouping a sum changes nothing, because `exp (v - m) · exp (m - M) = exp (v - M)` (a tile that
  is masked throughout contributing 0 on both readings), and because, all quantities being real numbers and the
  normaliser at least 1 once some position is unmasked, division distributes over the sums. That some position is
  unmasked is part of the precondition: with every position masked the reference itself divides 0 by 0.
-/
import proofs.«147632_j55284819034614_2_alg».proof.Defs
import proofs.«147632_j55284819034614_2_alg».proof.Proof.Gen.Kernel
import proofs.«147632_j55284819034614_2_alg».proof.Proof.Gen.Kernel.Skeleton
import proofs.«147632_j55284819034614_2_alg».proof.Proof.Gen.Kernel.Launch
import proofs.«147632_j55284819034614_2_alg».proof.Proof.Gen.Kernel.Points
import proofs.«147632_j55284819034614_2_alg».proof.Proof.Gen.Kernel.Frame
import proofs.«147632_j55284819034614_2_alg».proof.Proof.Gen.KernelIdeal
import proofs.«147632_j55284819034614_2_alg».proof.Proof.Gen.KernelIdeal.Skeleton
import proofs.«147632_j55284819034614_2_alg».proof.Proof.Gen.KernelIdeal.Launch
import proofs.«147632_j55284819034614_2_alg».proof.Proof.Gen.KernelIdeal.Points
import proofs.«147632_j55284819034614_2_alg».proof.Proof.Gen.KernelIdeal.Frame
import proofs.«147632_j55284819034614_2_alg».proof.Proof.Gen.ReferenceIdeal
import proofs.«147632_j55284819034614_2_alg».proof.Proof.Gen.ReferenceIdeal.Run
import proofs.«147632_j55284819034614_2_alg».proof.Proof.Gen.ReferenceIdeal.Read
import proofs.«147632_j55284819034614_2_alg».proof.Proof.Gen.Pre_finite_inputs
import proofs.«147632_j55284819034614_2_alg».proof.Proof.KernelRun
import proofs.«147632_j55284819034614_2_alg».proof.Proof.KernelValue
import proofs.«147632_j55284819034614_2_alg».proof.Proof.RefValue
import Idealize.ShloMosaic.Adequacy
import Idealize.ShloMosaic.Init

set_option maxRecDepth 16384

noncomputable section

namespace Cert.Proof

open Idealize.ShloMosaic Idealize.SL.Sem Idealize.ShloMosaic.ValueIdx Cert.MaskedAttention

/-- Every index of the first result is position `r` of some tile `t`. -/
theorem exists_pos (i : (⟨1, ![16384]⟩ : Shape).Idx) : ∃ t r, i = ix1 (pos t r) := by
  have h0 : (i 0 : Nat) < 16384 := (i 0).isLt
  refine ⟨tileOf ⟨(i 0).val, h0⟩, rowOf ⟨(i 0).val, h0⟩, ?_⟩
  rw [pos_tileOf_rowOf]
  exact funext fun a => Fin.ext (by
    match a with
    | ⟨0, _⟩ => rfl)

/-- Every index of the second result is a column of its one row. -/
theorem exists_col (i : (⟨2, ![1, 2048]⟩ : Shape).Idx) : ∃ d : Fin 2048, i = ix2 0 d := by
  have h0 : (i 0 : Nat) < 1 := (i 0).isLt
  have h1 : (i 1 : Nat) < 2048 := (i 1).isLt
  exact ⟨⟨(i 1).val, h1⟩, funext fun a => Fin.ext (by
    match a with
    | ⟨0, _⟩ => show (i 0 : Nat) = 0; omega
    | ⟨1, _⟩ => rfl)⟩

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The kernel's fill for masked positions is named minus infinity, and denotes it. -/
theorem preserves : Cert.preserves_Kernel_KernelIdeal :=
  IdealRules.named_const.statement Cert.KernelIdeal.κ "neg_big" .f32 0xF149F2CA#32 ⊥ rfl

/-- From memories agreeing on the arguments both programs end with the attention function's two results. -/
theorem algebraic : Cert.algebraic_KernelIdeal_ReferenceIdeal := by
  intro m ρ m' ρ' hpre hagree
  refine ⟨fun c => Cert.KernelIdeal.Gen.W8 m ρ c (Proc.devRef .tc Cert.KernelIdeal.main_v48),
    fun c => Cert.KernelIdeal.Gen.W8 m ρ c (Proc.devRef .tc Cert.KernelIdeal.main_v50),
    Cert.KernelIdeal.Result.run (F := Ideal) m ρ, ?_⟩
  refine (θ_run Cert.ReferenceIdeal.defs _ _).mono (fun r h c => ?_) (Cert.ReferenceIdeal.Value.run (F := Ideal) m' ρ')
  obtain ⟨h33, h37, hargs⟩ := h c
  have H := Cert.Domain.inputs_of_pre m hpre c
  obtain ⟨a0, a1, a2, a3, a4, a5, a6, a7, a8, a9, a10, a11⟩ := hagree c
  refine ⟨h33.trans ?_, h37.trans ?_, hargs⟩
  · rw [Cert.ReferenceIdeal.Read.val_main_v33_eq, a0, a1, a2, a3, a4, a5, a6, a7, a8, a9, a10, a11]
    funext i
    obtain ⟨t, r, rfl⟩ := exists_pos i
    rw [Cert.ReferenceIdeal.RefValue.attn_eq]
    exact (Cert.KernelIdeal.Result.attn_value m ρ c H t r).symm
  · rw [Cert.ReferenceIdeal.Read.val_main_v37_eq, a0, a1, a2, a3, a4, a5, a6, a7, a8, a9, a10, a11]
    funext i
    obtain ⟨d, rfl⟩ := exists_col i
    rw [Cert.ReferenceIdeal.RefValue.ctx_eq]
    exact (Cert.KernelIdeal.Result.ctx_value m ρ c H d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
